-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x768 : Shape := ⟨3, ![8, 1024, 768]⟩
abbrev S30000x512 : Shape := ⟨2, ![30000, 512]⟩
abbrev S512x768 : Shape := ⟨2, ![512, 768]⟩
abbrev S768 : Shape := ⟨1, ![768]⟩
abbrev S768x768 : Shape := ⟨2, ![768, 768]⟩
abbrev S_ : Shape := ⟨0, ![]⟩

class Facts : Prop where
  bcast_S_S8x1024x768 : S_.BroadcastsInDim S8x1024x768 (![] : Fin 0 → Fin S8x1024x768.rank)
  reducesTo_S8x1024x768_S_d0_1_2 : S8x1024x768.ReducesTo [0, 1, 2] S_
  h_S_ : 0 < S_.numel
  bcast_S_S30000x512 : S_.BroadcastsInDim S30000x512 (![] : Fin 0 → Fin S30000x512.rank)
  reducesTo_S30000x512_S_d0_1 : S30000x512.ReducesTo [0, 1] S_
  bcast_S_S512x768 : S_.BroadcastsInDim S512x768 (![] : Fin 0 → Fin S512x768.rank)
  reducesTo_S512x768_S_d0_1 : S512x768.ReducesTo [0, 1] S_
  bcast_S_S768 : S_.BroadcastsInDim S768 (![] : Fin 0 → Fin S768.rank)
  reducesTo_S768_S_d0 : S768.ReducesTo [0] S_
  bcast_S_S768x768 : S_.BroadcastsInDim S768x768 (![] : Fin 0 → Fin S768x768.rank)
  reducesTo_S768x768_S_d0_1 : S768x768.ReducesTo [0, 1] S_

variable [Facts]

def fn_part1 {F : FTy → Type} [FloatOps F] (main_arg4 : FVec F S768 .f32) (main_arg5 : FVec F S768x768 .f32) (main_arg6 : FVec F S768 .f32) (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S768x768 .f32 := Host.absf main_arg5
  let main_cst_8 : FVec F S_ .f32 := constant S_ .f32 0x7F800000#32
  let main_v25 : FVec F S768x768 .f32 := broadcastInDim S768x768 ![] bcast_S_S768x768 main_cst_8
  let main_v26 : IVec S768x768 1 := cmpf .olt main_v24 main_v25
  let main_c_9 : IVec S_ 1 := constantI S_ 1 1#1
  let main_v27 : IVec S_ 1 := (fun x v => Host.reduce IntOp.andi x v reducesTo_S768x768_S_d0_1 h_S_) main_v26 main_c_9
  let main_v28 : IVec S_ 1 := andi main_v23 main_v27
  let main_v29 : FVec F S768 .f32 := Host.absf main_arg6
  let main_cst_10 : FVec F S_ .f32 := constant S_ .f32 0x7F800000#32
  let main_v30 : FVec F S768 .f32 := broadcastInDim S768 ![] bcast_S_S768 main_cst_10
  let main_v31 : IVec S768 1 := cmpf .olt main_v29 main_v30
  let main_c_11 : IVec S_ 1 := constantI S_ 1 1#1
  let main_v32 : IVec S_ 1 := (fun x v => Host.reduce IntOp.andi x v reducesTo_S768_S_d0 h_S_) main_v31 main_c_11
  let main_v33 : IVec S_ 1 := andi main_v28 main_v32
  main_v33

def fn {F : FTy → Type} [FloatOps F] (main_arg0 : FVec F S8x1024x768 .f32) (main_arg1 : FVec F S30000x512 .f32) (main_arg2 : FVec F S512x768 .f32) (main_arg3 : FVec F S768 .f32) (main_arg4 : FVec F S768 .f32) (main_arg5 : FVec F S768x768 .f32) (main_arg6 : FVec F S768 .f32) : IVec S_ 1 :=
  let main_v0 : FVec F S8x1024x768 .f32 := Host.absf main_arg0
  let main_cst : FVec F S_ .f32 := constant S_ .f32 0x7F800000#32
  let main_v1 : FVec F S8x1024x768 .f32 := broadcastInDim S8x1024x768 ![] bcast_S_S8x1024x768 main_cst
  let main_v2 : IVec S8x1024x768 1 := cmpf .olt main_v0 main_v1
  let main_c : IVec S_ 1 := constantI S_ 1 1#1
  let main_v3 : IVec S_ 1 := (fun x v => Host.reduce IntOp.andi x v reducesTo_S8x1024x768_S_d0_1_2 h_S_) main_v2 main_c
  let main_v4 : FVec F S30000x512 .f32 := Host.absf main_arg1
  let main_cst_0 : FVec F S_ .f32 := constant S_ .f32 0x7F800000#32
  let main_v5 : FVec F S30000x512 .f32 := broadcastInDim S30000x512 ![] bcast_S_S30000x512 main_cst_0
  let main_v6 : IVec S30000x512 1 := cmpf .olt main_v4 main_v5
  let main_c_1 : IVec S_ 1 := constantI S_ 1 1#1
  let main_v7 : IVec S_ 1 := (fun x v => Host.reduce IntOp.andi x v reducesTo_S30000x512_S_d0_1 h_S_) main_v6 main_c_1
  let main_v8 : IVec S_ 1 := andi main_v3 main_v7
  let main_v9 : FVec F S512x768 .f32 := Host.absf main_arg2
  let main_cst_2 : FVec F S_ .f32 := constant S_ .f32 0x7F800000#32
  let main_v10 : FVec F S512x768 .f32 := broadcastInDim S512x768 ![] bcast_S_S512x768 main_cst_2
  let main_v11 : IVec S512x768 1 := cmpf .olt main_v9 main_v10
  let main_c_3 : IVec S_ 1 := constantI S_ 1 1#1
  let main_v12 : IVec S_ 1 := (fun x v => Host.reduce IntOp.andi x v reducesTo_S512x768_S_d0_1 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_arg4 main_arg5 main_arg6 main_v13 main_v16
-- ==== Kernel.lean ====
abbrev S8x1024x768 : Shape := ⟨3, ![8, 1024, 768]⟩
abbrev S30000x512 : Shape := ⟨2, ![30000, 512]⟩
abbrev S512x768 : Shape := ⟨2, ![512, 768]⟩
abbrev S768 : Shape := ⟨1, ![768]⟩
abbrev S768x768 : Shape := ⟨2, ![768, 768]⟩
abbrev S_ : Shape := ⟨0, ![]⟩
abbrev S30080x512 : Shape := ⟨2, ![30080, 512]⟩
abbrev S2x768 : Shape := ⟨2, ![2, 768]⟩
abbrev S640x512 : Shape := ⟨2, ![640, 512]⟩
abbrev S640 : Shape := ⟨1, ![640]⟩
abbrev S640x1 : Shape := ⟨2, ![640, 1]⟩
abbrev S640x768 : Shape := ⟨2, ![640, 768]⟩
abbrev S1x768 : Shape := ⟨2, ![1, 768]⟩
abbrev S30080x768 : Shape := ⟨2, ![30080, 768]⟩
abbrev S8x1024 : Shape := ⟨2, ![8, 1024]⟩
abbrev S8x1024x1 : Shape := ⟨3, ![8, 1024, 1]⟩
abbrev S8192x768 : Shape := ⟨2, ![8192, 768]⟩
abbrev S8x30080 : Shape := ⟨2, ![8, 30080]⟩
abbrev S128x768 : Shape := ⟨2, ![128, 768]⟩
abbrev S8x128 : Shape := ⟨2, ![8, 128]⟩
abbrev S8192x128 : Shape := ⟨2, ![8192, 128]⟩
abbrev S8x1024x128 : Shape := ⟨3, ![8, 1024, 128]⟩
abbrev S8x30000 : Shape := ⟨2, ![8, 30000]⟩
abbrev S8 : Shape := ⟨1, ![8]⟩
abbrev S8x1 : Shape := ⟨2, ![8, 1]⟩

abbrev nBuf : Space → Nat
  | .hbm => 65
  | .vmem => 19
  | .smem => 0
  | _ => 0

abbrev bufTy : (tb : Table) → Fin (tcTables nBuf tb) → BufTy
  | .hbm, ⟨0, _⟩ => ⟨S8x1024x768, .f32⟩
  | .hbm, ⟨1, _⟩ => ⟨S30000x512, .f32⟩
  | .hbm, ⟨2, _⟩ => ⟨S512x768, .f32⟩
  | .hbm, ⟨3, _⟩ => ⟨S768, .f32⟩
  | .hbm, ⟨4, _⟩ => ⟨S768, .f32⟩
  | .hbm, ⟨5, _⟩ => ⟨S768x768, .f32⟩
  | .hbm, ⟨6, _⟩ => ⟨S768, .f32⟩
  | .hbm, ⟨7, _⟩ => ⟨S_, .i32⟩
  | .hbm, ⟨8, _⟩ => ⟨S_, .f32⟩
  | .hbm, ⟨9, _⟩ => ⟨S30080x512, .f32⟩
  | .hbm, ⟨10, _⟩ => ⟨S2x768, .f32⟩
  | .hbm, ⟨11, _⟩ => ⟨S1x768, .f32⟩
  | .hbm, ⟨12, _⟩ => ⟨S768, .f32⟩
  | .hbm, ⟨13, _⟩ => ⟨S_, .f32⟩
  | .hbm, ⟨14, _⟩ => ⟨S768, .f32⟩
  | .hbm, ⟨15, _⟩ => ⟨S768, .f32⟩
  | .hbm, ⟨16, _⟩ => ⟨S1x768, .f32⟩
  | .hbm, ⟨17, _⟩ => ⟨S768, .f32⟩
  | .hbm, ⟨18, _⟩ => ⟨S_, .f32⟩
  | .hbm, ⟨19, _⟩ => ⟨S768, .f32⟩
  | .hbm, ⟨20, _⟩ => ⟨S768, .f32⟩
  | .hbm, ⟨21, _⟩ => ⟨S768, .f32⟩
  | .hbm, ⟨22, _⟩ => ⟨S768, .f32⟩
  | .hbm, ⟨23, _⟩ => ⟨S_, .f32⟩
  | .hbm, ⟨24, _⟩ => ⟨S768, .f32⟩
  | .hbm, ⟨25, _⟩ => ⟨S768, .f32⟩
  | .hbm, ⟨26, _⟩ => ⟨S768, .f32⟩
  | .hbm, ⟨27, _⟩ => ⟨S768, .f32⟩
  | .hbm, ⟨28, _⟩ => ⟨S768, .f32⟩
  | .hbm, ⟨29, _⟩ => ⟨S768, .f32⟩
  | .hbm, ⟨30, _⟩ => ⟨S1x768, .f32⟩
  | .hbm, ⟨31, _⟩ => ⟨S1x768, .f32⟩
  | .hbm, ⟨32, _⟩ => ⟨S1x768, .f32⟩
  | .hbm, ⟨33, _⟩ => ⟨S30080x768, .f32⟩
  | .hbm, ⟨34, _⟩ => ⟨S8x1024x768, .f32⟩
  | .hbm, ⟨35, _⟩ => ⟨S_, .f32⟩
  | .hbm, ⟨36, _⟩ => ⟨S8x1024, .f32⟩
  | .hbm, ⟨37, _⟩ => ⟨S8x1024x1, .f32⟩
  | .hbm, ⟨38, _⟩ => ⟨S8x1024x1, .f32⟩
  | .hbm, ⟨39, _⟩ => ⟨S_, .f32⟩
  | .hbm, ⟨40, _⟩ => ⟨S8x1024x1, .f32⟩
  | .hbm, ⟨41, _⟩ => ⟨S8x1024x1, .f32⟩
  | .hbm, ⟨42, _⟩ => ⟨S8x1024x768, .f32⟩
  | .hbm, ⟨43, _⟩ => ⟨S8x1024x768, .f32⟩
  | .hbm, ⟨44, _⟩ => ⟨S8192x768, .f32⟩
  | .hbm, ⟨45, _⟩ => ⟨S8192x768, .bf16⟩
  | .hbm, ⟨46, _⟩ => ⟨S8x30080, .f32⟩
  | .hbm, ⟨47, _⟩ => ⟨S8x30000, .f32⟩
  | .hbm, ⟨48, _⟩ => ⟨S_, .f32⟩
  | .hbm, ⟨49, _⟩ => ⟨S8x30000, .f32⟩
  | .hbm, ⟨50, _⟩ => ⟨S8x30000, .f32⟩
  | .hbm, ⟨51, _⟩ => ⟨S_, .f32⟩
  | .hbm, ⟨52, _⟩ => ⟨S8, .f32⟩
  | .hbm, ⟨53, _⟩ => ⟨S_, .f32⟩
  | .hbm, ⟨54, _⟩ => ⟨S8, .f32⟩
  | .hbm, ⟨55, _⟩ => ⟨S8, .f32⟩
  | .hbm, ⟨56, _⟩ => ⟨S8x1, .f32⟩
  | .hbm, ⟨57, _⟩ => ⟨S8x30000, .f32⟩
  | .hbm, ⟨58, _⟩ => ⟨S8x30000, .f32⟩
  | .hbm, ⟨59, _⟩ => ⟨S8x30000, .f32⟩
  | .hbm, ⟨60, _⟩ => ⟨S_, .f32⟩
  | .hbm, ⟨61, _⟩ => ⟨S8, .f32⟩
  | .hbm, ⟨62, _⟩ => ⟨S8x1, .f32⟩
  | .hbm, ⟨63, _⟩ => ⟨S8x30000, .f32⟩
  | .hbm, ⟨64, _⟩ => ⟨S8x30000, .f32⟩
  | .local _ .vmem, ⟨0, _⟩ => ⟨S640x512, .f32⟩
  | .local _ .vmem, ⟨1, _⟩ => ⟨S640x512, .f32⟩
  | .local _ .vmem, ⟨2, _⟩ => ⟨S512x768, .f32⟩
  | .local _ .vmem, ⟨3, _⟩ => ⟨S2x768, .f32⟩
  | .local _ .vmem, ⟨4, _⟩ => ⟨S2x768, .f32⟩
  | .local _ .vmem, ⟨5, _⟩ => ⟨S640x512, .f32⟩
  | .local _ .vmem, ⟨6, _⟩ => ⟨S640x512, .f32⟩
  | .local _ .vmem, ⟨7, _⟩ => ⟨S512x768, .f32⟩
  | .local _ .vmem, ⟨8, _⟩ => ⟨S768x768, .f32⟩
  | .local _ .vmem, ⟨9, _⟩ => ⟨S1x768, .f32⟩
  | .local _ .vmem, ⟨10, _⟩ => ⟨S1x768, .f32⟩
  | .local _ .vmem, ⟨11, _⟩ => ⟨S1x768, .f32⟩
  | .local _ .vmem, ⟨12, _⟩ => ⟨S640x768, .f32⟩
  | .local _ .vmem, ⟨13, _⟩ => ⟨S640x768, .f32⟩
  | .local _ .vmem, ⟨14, _⟩ => ⟨S8192x768, .bf16⟩
  | .local _ .vmem, ⟨15, _⟩ => ⟨S128x768, .f32⟩
  | .local _ .vmem, ⟨16, _⟩ => ⟨S128x768, .f32⟩
  | .local _ .vmem, ⟨17, _⟩ => ⟨S8x128, .f32⟩
  | .local _ .vmem, ⟨18, _⟩ => ⟨S8x128, .f32⟩
  | _, _ => ⟨S8x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call1_v0 : Ref sig .tc := ⟨.hbm, 34, rfl⟩
abbrev main_call1_cst : Ref sig .tc := ⟨.hbm, 35, rfl⟩
abbrev main_call1_v1 : Ref sig .tc := ⟨.hbm, 36, rfl⟩
abbrev main_call1_v2 : Ref sig .tc := ⟨.hbm, 37, rfl⟩
abbrev main_v22 : Ref sig .tc := ⟨.hbm, 38, rfl⟩
abbrev main_cst_2 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_3 : Ref sig .tc := ⟨.hbm, 48, rfl⟩
abbrev main_v31 : Ref sig .tc := ⟨.hbm, 49, rfl⟩
abbrev main_v32 : Ref sig .tc := ⟨.hbm, 50, rfl⟩
abbrev main_cst_4 : Ref sig .tc := ⟨.hbm, 51, rfl⟩
abbrev main_v33 : Ref sig .tc := ⟨.hbm, 52, rfl⟩
abbrev main_cst_5 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_6 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg6_1 : Ref sig .tc := ⟨.vmem, 13, rfl⟩
abbrev cc2_stg0_0 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem6_0 : DmaSem sig := 11
abbrev cc1_sem6_1 : DmaSem sig := 12
abbrev cc2_sem0_0 : DmaSem sig := 13
abbrev cc2_sem1_0 : DmaSem sig := 14
abbrev cc2_sem1_1 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨1, ![47], ![false]⟩

def k0_cond2 (i : grid0.Coords) : BitVec 1 :=
  let arg0 : BitVec 32 := BitVec.ofNat 32 (i 0).val
  let c46_i32 : BitVec 32 := 46#32
  let v32 : BitVec 1 := Scalar.cmpi .eq arg0 c46_i32
  let v33 : BitVec 32 := Scalar.extui v32
  let c0_i32_15 : BitVec 32 := 0#32
  let v34 : BitVec 1 := Scalar.cmpi .ne v33 c0_i32_15
  v34

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S640x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![47], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S640x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x768 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S768x768 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x768 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x768 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x768 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S640x768 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![235], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S8192x768 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S128x768 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  pads_S30000x512_S30080x512_0800_000 : S30000x512.Pads (![0, 0] : Fin 2 → Nat) ![80, 0] ![0, 0] S30080x512
  h_S_ : 0 < S_.numel
  inb_S2x768_S2x768_0_0 : ∀ a, (![0, 0] : Fin 2 → Nat) a + S2x768.size a ≤ S2x768.size a
  h_S2x768 : 0 < S2x768.numel
  shapeCasts_S2x768_S2x768 : S2x768.ShapeCasts S2x768
  inb_S640x512_S640x512_0_0 : ∀ a, (![0, 0] : Fin 2 → Nat) a + S640x512.size a ≤ S640x512.size a
  h_S640x512 : 0 < S640x512.numel
  shapeCasts_S640x512_S640x512 : S640x512.ShapeCasts S640x512
  reduces_S640x512_S640 : S640x512.Reduces [1] S640
  shapeCasts_S640_S640x1 : S640.ShapeCasts S640x1
  broadcasts_S640x1_S640x512 : S640x1.Broadcasts S640x512
  bitsLt_bf16_f32 : FTy.bits .bf16 < FTy.bits .f32
  inb_S512x768_S512x768_0_0 : ∀ a, (![0, 0] : Fin 2 → Nat) a + S512x768.size a ≤ S512x768.size a
  h_S512x768 : 0 < S512x768.numel
  reduces_S640x768_S768 : S640x768.Reduces [0] S768
  shapeCasts_S768_S1x768 : S768.ShapeCasts S1x768
  inb_S2x768_S1x768_0_0 : ∀ a, (![0, 0] : Fin 2 → Nat) a + S1x768.size a ≤ S2x768.size a
  h_S1x768 : 0 < S1x768.numel
  shapeCasts_S1x768_S1x768 : S1x768.ShapeCasts S1x768
  inb_S2x768_S1x768_1_0 : ∀ a, (![1, 0] : Fin 2 → Nat) a + S1x768.size a ≤ S2x768.size a
  slices_S2x768_S1x768_0_0 : S2x768.Slices ![0, 0] S1x768
  shapeCasts_S1x768_S768 : S1x768.ShapeCasts S768
  bcast_S_S768 : S_.BroadcastsInDim S768 (![] : Fin 0 → Fin S768.rank)
  slices_S2x768_S1x768_1_0 : S2x768.Slices ![1, 0] S1x768
  inb_S1x768_S1x768_0_0 : ∀ a, (![0, 0] : Fin 2 → Nat) a + S1x768.size a ≤ S1x768.size a
  broadcasts_S1x768_S640x768 : S1x768.Broadcasts S640x768
  inb_S768x768_S768x768_0_0 : ∀ a, (![0, 0] : Fin 2 → Nat) a + S768x768.size a ≤ S768x768.size a
  h_S768x768 : 0 < S768x768.numel
  reduces_S640x768_S640 : S640x768.Reduces [1] S640
  broadcasts_S640x1_S640x768 : S640x1.Broadcasts S640x768
  inb_S640x768_S640x768_0_0 : ∀ a, (![0, 0] : Fin 2 → Nat) a + S640x768.size a ≤ S640x768.size a
  h_S640x768 : 0 < S640x768.numel
  reducesTo_S8x1024x768_S8x1024_d2 : S8x1024x768.ReducesTo [2] S8x1024
  bcast_S8x1024_S8x1024x1_0_1 : S8x1024.BroadcastsInDim S8x1024x1 (![0, 1] : Fin 2 → Fin S8x1024x1.rank)
  bcast_S_S8x1024x1 : S_.BroadcastsInDim S8x1024x1 (![] : Fin 0 → Fin S8x1024x1.rank)
  bcast_S8x1024x1_S8x1024x768_0_1_2 : S8x1024x1.BroadcastsInDim S8x1024x768 (![0, 1, 2] : Fin 3 → Fin S8x1024x768.rank)
  shapeCasts_S8x1024x768_S8192x768 : S8x1024x768.ShapeCasts S8192x768
  inb_S128x768_S128x768_0_0 : ∀ a, (![0, 0] : Fin 2 → Nat) a + S128x768.size a ≤ S128x768.size a
  h_S128x768 : 0 < S128x768.numel
  shapeCasts_S128x768_S128x768 : S128x768.ShapeCasts S128x768
  inb_S8192x768_S8192x768_0_0 : ∀ a, (![0, 0] : Fin 2 → Nat) a + S8192x768.size a ≤ S8192x768.size a
  h_S8192x768 : 0 < S8192x768.numel
  shapeCasts_S8192x768_S8192x768 : S8192x768.ShapeCasts S8192x768
  shapeCasts_S8192x128_S8x1024x128 : S8192x128.ShapeCasts S8x1024x128
  reduces_S8x1024x128_S8x128 : S8x1024x128.Reduces [1] S8x128
  inb_S8x128_S8x128_0_0 : ∀ a, (![0, 0] : Fin 2 → Nat) a + S8x128.size a ≤ S8x128.size a
  h_S8x128 : 0 < S8x128.numel
  slices_S8x30080_S8x30000_0_0 : S8x30080.Slices ![0, 0] S8x30000
  bcast_S_S8x30000 : S_.BroadcastsInDim S8x30000 (![] : Fin 0 → Fin S8x30000.rank)
  reducesTo_S8x30000_S8_d1 : S8x30000.ReducesTo [1] S8
  bcast_S_S8 : S_.BroadcastsInDim S8 (![] : Fin 0 → Fin S8.rank)
  bcast_S8_S8x1_0 : S8.BroadcastsInDim S8x1 (![0] : Fin 1 → Fin S8x1.rank)
  bcast_S8x1_S8x30000_0_1 : S8x1.BroadcastsInDim S8x30000 (![0, 1] : Fin 2 → Fin S8x30000.rank)
  dot_S640x512_S512x768_S640x768_1_0_0_1_n_n_wf : DotDims.WF S640x512 S512x768 S640x768 [1] [0] [0] [1] [] []
  dot_S640x768_S768x768_S640x768_1_0_0_1_n_n_wf : DotDims.WF S640x768 S768x768 S640x768 [1] [0] [0] [1] [] []
  dot_S8192x768_S128x768_S8192x128_1_1_0_0_n_n_wf : DotDims.WF S8192x768 S128x768 S8192x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S640x512.size a ≤ S30080x512.size a
  hwx0_0 : ∀ i : grid0.Coords, EltTy.bits .f32 = 32 ∨ (Rect.block (s := S30080x512) S640x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x768.size a ≤ S512x768.size a
  hwx0_1 : ∀ i : grid0.Coords, EltTy.bits .f32 = 32 ∨ (Rect.block (s := S512x768) S512x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x768.size a ≤ S2x768.size a
  hwx0_2 : ∀ i : grid0.Coords, EltTy.bits .f32 = 32 ∨ (Rect.block (s := S2x768) S2x768.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S640x512.size a ≤ S30080x512.size a
  hwx1_0 : ∀ i : grid1.Coords, EltTy.bits .f32 = 32 ∨ (Rect.block (s := S30080x512) S640x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x768.size a ≤ S512x768.size a
  hwx1_1 : ∀ i : grid1.Coords, EltTy.bits .f32 = 32 ∨ (Rect.block (s := S512x768) S512x768.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S768x768.size a ≤ S768x768.size a
  hwx1_2 : ∀ i : grid1.Coords, EltTy.bits .f32 = 32 ∨ (Rect.block (s := S768x768) S768x768.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x768.size a ≤ S1x768.size a
  hwx1_3 : ∀ i : grid1.Coords, EltTy.bits .f32 = 32 ∨ (Rect.block (s := S1x768) S1x768.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x768.size a ≤ S1x768.size a
  hwx1_4 : ∀ i : grid1.Coords, EltTy.bits .f32 = 32 ∨ (Rect.block (s := S1x768) S1x768.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x768.size a ≤ S1x768.size a
  hwx1_5 : ∀ i : grid1.Coords, EltTy.bits .f32 = 32 ∨ (Rect.block (s := S1x768) S1x768.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S640x768.size a ≤ S30080x768.size a
  hwx1_6 : ∀ i : grid1.Coords, EltTy.bits .f32 = 32 ∨ (Rect.block (s := S30080x768) S640x768.size (cc1_transform_6 i) (hinb1_6 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S8192x768.size a ≤ S8192x768.size a
  hwx2_0 : ∀ i : grid2.Coords, EltTy.bits .bf16 = 32 ∨ (Rect.block (s := S8192x768) S8192x768.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S128x768.size a ≤ S30080x768.size a
  hwx2_1 : ∀ i : grid2.Coords, EltTy.bits .f32 = 32 ∨ (Rect.block (s := S30080x768) S128x768.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8x128.size a ≤ S8x30080.size a
  hwx2_2 : ∀ i : grid2.Coords, EltTy.bits .f32 = 32 ∨ (Rect.block (s := S8x30080) S8x128.size (cc2_transform_2 i) (hinb2_2 i)).WholeWords (EltTy.packing .f32)

variable [Facts₀]

def dot_S640x512_S512x768_S640x768_1_0_0_1_n_n : DotDims S640x512 S512x768 S640x768 where
  lhsContracting := [1]
  rhsContracting := [0]
  lhsNonContracting := [0]
  rhsNonContracting := [1]
  lhsBatch := []
  rhsBatch := []
  wf := dot_S640x512_S512x768_S640x768_1_0_0_1_n_n_wf
def dot_S640x768_S768x768_S640x768_1_0_0_1_n_n : DotDims S640x768 S768x768 S640x768 where
  lhsContracting := [1]
  rhsContracting := [0]
  lhsNonContracting := [0]
  rhsNonContracting := [1]
  lhsBatch := []
  rhsBatch := []
  wf := dot_S640x768_S768x768_S640x768_1_0_0_1_n_n_wf
def dot_S8192x768_S128x768_S8192x128_1_1_0_0_n_n : DotDims S8192x768 S128x768 S8192x128 where
  lhsContracting := [1]
  rhsContracting := [1]
  lhsNonContracting := [0]
  rhsNonContracting := [0]
  lhsBatch := []
  rhsBatch := []
  wf := dot_S8192x768_S128x768_S8192x128_1_1_0_0_n_n_wf

abbrev win0_0 : Pipeline.Window sig grid0 :=
  Pipeline.Window.ofSpec (Memref.whole main_v0) S640x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2x768.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v0) S640x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S512x768.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S768x768.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v20) S1x768.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v18) S1x768.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v19) S1x768.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v21) S640x768.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v28) S8192x768.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v21) S128x768.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v29) S8x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S8x1024x768 : Shape := ⟨3, ![8, 1024, 768]⟩
abbrev S30000x512 : Shape := ⟨2, ![30000, 512]⟩
abbrev S512x768 : Shape := ⟨2, ![512, 768]⟩
abbrev S768 : Shape := ⟨1, ![768]⟩
abbrev S768x768 : Shape := ⟨2, ![768, 768]⟩
abbrev S_ : Shape := ⟨0, ![]⟩
abbrev S30000 : Shape := ⟨1, ![30000]⟩
abbrev S30000x1 : Shape := ⟨2, ![30000, 1]⟩
abbrev S30000x768 : Shape := ⟨2, ![30000, 768]⟩
abbrev S1x768 : Shape := ⟨2, ![1, 768]⟩
abbrev S8x1024 : Shape := ⟨2, ![8, 1024]⟩
abbrev S8x1024x1 : Shape := ⟨3, ![8, 1024, 1]⟩
abbrev S8x1024x30000 : Shape := ⟨3, ![8, 1024, 30000]⟩
abbrev S8x30000 : Shape := ⟨2, ![8, 30000]⟩
abbrev S8 : Shape := ⟨1, ![8]⟩
abbrev S8x1 : Shape := ⟨2, ![8, 1]⟩

abbrev nBuf : Space → Nat
  | .hbm => 107
  | .vmem => 0
  | .smem => 0
  | _ => 0

abbrev bufTy : (tb : Table) → Fin (tcTables nBuf tb) → BufTy
  | .hbm, ⟨0, _⟩ => ⟨S8x1024x768, .f32⟩
  | .hbm, ⟨1, _⟩ => ⟨S30000x512, .f32⟩
  | .hbm, ⟨2, _⟩ => ⟨S512x768, .f32⟩
  | .hbm, ⟨3, _⟩ => ⟨S768, .f32⟩
  | .hbm, ⟨4, _⟩ => ⟨S768, .f32⟩
  | .hbm, ⟨5, _⟩ => ⟨S768x768, .f32⟩
  | .hbm, ⟨6, _⟩ => ⟨S768, .f32⟩
  | .hbm, ⟨7, _⟩ => ⟨S30000x512, .f32⟩
  | .hbm, ⟨8, _⟩ => ⟨S_, .f32⟩
  | .hbm, ⟨9, _⟩ => ⟨S30000, .f32⟩
  | .hbm, ⟨10, _⟩ => ⟨S30000x1, .f32⟩
  | .hbm, ⟨11, _⟩ => ⟨S30000x1, .f32⟩
  | .hbm, ⟨12, _⟩ => ⟨S_, .f32⟩
  | .hbm, ⟨13, _⟩ => ⟨S30000x1, .f32⟩
  | .hbm, ⟨14, _⟩ => ⟨S30000x1, .f32⟩
  | .hbm, ⟨15, _⟩ => ⟨S30000x512, .f32⟩
  | .hbm, ⟨16, _⟩ => ⟨S30000x512, .f32⟩
  | .hbm, ⟨17, _⟩ => ⟨S30000x768, .f32⟩
  | .hbm, ⟨18, _⟩ => ⟨S_, .f32⟩
  | .hbm, ⟨19, _⟩ => ⟨S768, .f32⟩
  | .hbm, ⟨20, _⟩ => ⟨S_, .f32⟩
  | .hbm, ⟨21, _⟩ => ⟨S768, .f32⟩
  | .hbm, ⟨22, _⟩ => ⟨S768, .f32⟩
  | .hbm, ⟨23, _⟩ => ⟨S_, .i32⟩
  | .hbm, ⟨24, _⟩ => ⟨S_, .f32⟩
  | .hbm, ⟨25, _⟩ => ⟨S768, .f32⟩
  | .hbm, ⟨26, _⟩ => ⟨S1x768, .f32⟩
  | .hbm, ⟨27, _⟩ => ⟨S_, .f32⟩
  | .hbm, ⟨28, _⟩ => ⟨S1x768, .f32⟩
  | .hbm, ⟨29, _⟩ => ⟨S1x768, .f32⟩
  | .hbm, ⟨30, _⟩ => ⟨S30000x768, .f32⟩
  | .hbm, ⟨31, _⟩ => ⟨S30000x768, .f32⟩
  | .hbm, ⟨32, _⟩ => ⟨S30000x768, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S768, .f32⟩
  | .hbm, ⟨38, _⟩ => ⟨S768, .f32⟩
  | .hbm, ⟨39, _⟩ => ⟨S768, .f32⟩
  | .hbm, ⟨40, _⟩ => ⟨S_, .f32⟩
  | .hbm, ⟨41, _⟩ => ⟨S_, .i1⟩
  | .hbm, ⟨42, _⟩ => ⟨S_, .f32⟩
  | .hbm, ⟨43, _⟩ => ⟨S_, .f32⟩
  | .hbm, ⟨44, _⟩ => ⟨S768, .f32⟩
  | .hbm, ⟨45, _⟩ => ⟨S768, .f32⟩
  | .hbm, ⟨46, _⟩ => ⟨S1x768, .f32⟩
  | .hbm, ⟨47, _⟩ => ⟨S30000x768, .f32⟩
  | .hbm, ⟨48, _⟩ => ⟨S30000x768, .f32⟩
  | .hbm, ⟨49, _⟩ => ⟨S_, .f32⟩
  | .hbm, ⟨50, _⟩ => ⟨S768, .f32⟩
  | .hbm, ⟨51, _⟩ => ⟨S768, .f32⟩
  | .hbm, ⟨52, _⟩ => ⟨S768, .f32⟩
  | .hbm, ⟨53, _⟩ => ⟨S768, .f32⟩
  | .hbm, ⟨54, _⟩ => ⟨S1x768, .f32⟩
  | .hbm, ⟨55, _⟩ => ⟨S30000x768, .f32⟩
  | .hbm, ⟨56, _⟩ => ⟨S30000x768, .f32⟩
  | .hbm, ⟨57, _⟩ => ⟨S1x768, .f32⟩
  | .hbm, ⟨58, _⟩ => ⟨S30000x768, .f32⟩
  | .hbm, ⟨59, _⟩ => ⟨S30000x768, .f32⟩
  | .hbm, ⟨60, _⟩ => ⟨S_, .f32⟩
  | .hbm, ⟨61, _⟩ => ⟨S30000x768, .f32⟩
  | .hbm, ⟨62, _⟩ => ⟨S30000x768, .f32⟩
  | .hbm, ⟨63, _⟩ => ⟨S30000x768, .f32⟩
  | .hbm, ⟨64, _⟩ => ⟨S1x768, .f32⟩
  | .hbm, ⟨65, _⟩ => ⟨S30000x768, .f32⟩
  | .hbm, ⟨66, _⟩ => ⟨S30000x768, .f32⟩
  | .hbm, ⟨67, _⟩ => ⟨S30000x768, .f32⟩
  | .hbm, ⟨68, _⟩ => ⟨S_, .f32⟩
  | .hbm, ⟨69, _⟩ => ⟨S30000, .f32⟩
  | .hbm, ⟨70, _⟩ => ⟨S30000x1, .f32⟩
  | .hbm, ⟨71, _⟩ => ⟨S30000x1, .f32⟩
  | .hbm, ⟨72, _⟩ => ⟨S_, .f32⟩
  | .hbm, ⟨73, _⟩ => ⟨S30000x1, .f32⟩
  | .hbm, ⟨74, _⟩ => ⟨S30000x1, .f32⟩
  | .hbm, ⟨75, _⟩ => ⟨S30000x768, .f32⟩
  | .hbm, ⟨76, _⟩ => ⟨S30000x768, .f32⟩
  | .hbm, ⟨77, _⟩ => ⟨S8x1024x768, .f32⟩
  | .hbm, ⟨78, _⟩ => ⟨S_, .f32⟩
  | .hbm, ⟨79, _⟩ => ⟨S8x1024, .f32⟩
  | .hbm, ⟨80, _⟩ => ⟨S8x1024x1, .f32⟩
  | .hbm, ⟨81, _⟩ => ⟨S8x1024x1, .f32⟩
  | .hbm, ⟨82, _⟩ => ⟨S_, .f32⟩
  | .hbm, ⟨83, _⟩ => ⟨S8x1024x1, .f32⟩
  | .hbm, ⟨84, _⟩ => ⟨S8x1024x1, .f32⟩
  | .hbm, ⟨85, _⟩ => ⟨S8x1024x768, .f32⟩
  | .hbm, ⟨86, _⟩ => ⟨S8x1024x768, .f32⟩
  | .hbm, ⟨87, _⟩ => ⟨S8x1024x30000, .f32⟩
  | .hbm, ⟨88, _⟩ => ⟨S_, .f32⟩
  | .hbm, ⟨89, _⟩ => ⟨S8x30000, .f32⟩
  | .hbm, ⟨90, _⟩ => ⟨S_, .f32⟩
  | .hbm, ⟨91, _⟩ => ⟨S8x30000, .f32⟩
  | .hbm, ⟨92, _⟩ => ⟨S8x30000, .f32⟩
  | .hbm, ⟨93, _⟩ => ⟨S_, .f32⟩
  | .hbm, ⟨94, _⟩ => ⟨S8, .f32⟩
  | .hbm, ⟨95, _⟩ => ⟨S_, .f32⟩
  | .hbm, ⟨96, _⟩ => ⟨S8, .f32⟩
  | .hbm, ⟨97, _⟩ => ⟨S8, .f32⟩
  | .hbm, ⟨98, _⟩ => ⟨S8x1, .f32⟩
  | .hbm, ⟨99, _⟩ => ⟨S8x30000, .f32⟩
  | .hbm, ⟨100, _⟩ => ⟨S8x30000, .f32⟩
  | .hbm, ⟨101, _⟩ => ⟨S8x30000, .f32⟩
  | .hbm, ⟨102, _⟩ => ⟨S_, .f32⟩
  | .hbm, ⟨103, _⟩ => ⟨S8, .f32⟩
  | .hbm, ⟨104, _⟩ => ⟨S8x1, .f32⟩
  | .hbm, ⟨105, _⟩ => ⟨S8x30000, .f32⟩
  | .hbm, ⟨106, _⟩ => ⟨S8x30000, .f32⟩
  | _, _ => ⟨S8x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_call0_v2 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_c : Ref sig .tc := ⟨.hbm, 23, rfl⟩
abbrev main_call1_cst : Ref sig .tc := ⟨.hbm, 24, rfl⟩
abbrev main_call1_v0 : Ref sig .tc := ⟨.hbm, 25, rfl⟩
abbrev main_call1_v1 : Ref sig .tc := ⟨.hbm, 26, rfl⟩
abbrev main_call1_cst_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_v6 : Ref sig .tc := ⟨.hbm, 32, rfl⟩
abbrev main_call1_v7 : Ref sig .tc := ⟨.hbm, 33, rfl⟩
abbrev main_call1_cst_1 : Ref sig .tc := ⟨.hbm, 34, rfl⟩
abbrev main_call1_v8 : Ref sig .tc := ⟨.hbm, 35, rfl⟩
abbrev main_call1_cst_2 : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_cst_3 : Ref sig .tc := ⟨.hbm, 40, rfl⟩
abbrev main_call1_v12 : Ref sig .tc := ⟨.hbm, 41, rfl⟩
abbrev main_call1_cst_4 : Ref sig .tc := ⟨.hbm, 42, rfl⟩
abbrev main_call1_call0_v0 : Ref sig .tc := ⟨.hbm, 43, rfl⟩
abbrev main_call1_call0_v1 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_cst_2 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_call2_cst : Ref sig .tc := ⟨.hbm, 60, rfl⟩
abbrev main_call2_v0 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_call3_v0 : Ref sig .tc := ⟨.hbm, 67, rfl⟩
abbrev main_call3_cst : Ref sig .tc := ⟨.hbm, 68, rfl⟩
abbrev main_call3_v1 : Ref sig .tc := ⟨.hbm, 69, rfl⟩
abbrev main_call3_v2 : Ref sig .tc := ⟨.hbm, 70, rfl⟩
abbrev main_v28 : Ref sig .tc := ⟨.hbm, 71, rfl⟩
abbrev main_cst_3 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_call4_v0 : Ref sig .tc := ⟨.hbm, 77, rfl⟩
abbrev main_call4_cst : Ref sig .tc := ⟨.hbm, 78, rfl⟩
abbrev main_call4_v1 : Ref sig .tc := ⟨.hbm, 79, rfl⟩
abbrev main_call4_v2 : Ref sig .tc := ⟨.hbm, 80, rfl⟩
abbrev main_v33 : Ref sig .tc := ⟨.hbm, 81, rfl⟩
abbrev main_cst_4 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_cst_5 : Ref sig .tc := ⟨.hbm, 88, rfl⟩
abbrev main_v39 : Ref sig .tc := ⟨.hbm, 89, rfl⟩
abbrev main_cst_6 : Ref sig .tc := ⟨.hbm, 90, rfl⟩
abbrev main_v40 : Ref sig .tc := ⟨.hbm, 91, rfl⟩
abbrev main_v41 : Ref sig .tc := ⟨.hbm, 92, rfl⟩
abbrev main_cst_7 : Ref sig .tc := ⟨.hbm, 93, rfl⟩
abbrev main_v42 : Ref sig .tc := ⟨.hbm, 94, rfl⟩
abbrev main_cst_8 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_cst_9 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩

abbrev nD : Nat := 1
abbrev τ : Topo := Topo.v7x

variable {F : FTy → Type} [FloatOps F]

class Facts₀ : Prop where
  reducesTo_S30000x512_S30000_d1 : S30000x512.ReducesTo [1] S30000
  h_S_ : 0 < S_.numel
  bcast_S30000_S30000x1_0 : S30000.BroadcastsInDim S30000x1 (![0] : Fin 1 → Fin S30000x1.rank)
  bcast_S_S30000x1 : S_.BroadcastsInDim S30000x1 (![] : Fin 0 → Fin S30000x1.rank)
  bcast_S30000x1_S30000x512_0_1 : S30000x1.BroadcastsInDim S30000x512 (![0, 1] : Fin 2 → Fin S30000x512.rank)
  reducesTo_S30000x768_S768_d0 : S30000x768.ReducesTo [0] S768
  bcast_S_S768 : S_.BroadcastsInDim S768 (![] : Fin 0 → Fin S768.rank)
  bcast_S768_S1x768_1 : S768.BroadcastsInDim S1x768 (![1] : Fin 1 → Fin S1x768.rank)
  bcast_S_S1x768 : S_.BroadcastsInDim S1x768 (![] : Fin 0 → Fin S1x768.rank)
  bcast_S1x768_S30000x768_0_1 : S1x768.BroadcastsInDim S30000x768 (![0, 1] : Fin 2 → Fin S30000x768.rank)
  bcast_S_S30000x768 : S_.BroadcastsInDim S30000x768 (![] : Fin 0 → Fin S30000x768.rank)
  reducesTo_S30000x768_S30000_d1 : S30000x768.ReducesTo [1] S30000
  bcast_S30000x1_S30000x768_0_1 : S30000x1.BroadcastsInDim S30000x768 (![0, 1] : Fin 2 → Fin S30000x768.rank)
  reducesTo_S8x1024x768_S8x1024_d2 : S8x1024x768.ReducesTo [2] S8x1024
  bcast_S8x1024_S8x1024x1_0_1 : S8x1024.BroadcastsInDim S8x1024x1 (![0, 1] : Fin 2 → Fin S8x1024x1.rank)
  bcast_S_S8x1024x1 : S_.BroadcastsInDim S8x1024x1 (![] : Fin 0 → Fin S8x1024x1.rank)
  bcast_S8x1024x1_S8x1024x768_0_1_2 : S8x1024x1.BroadcastsInDim S8x1024x768 (![0, 1, 2] : Fin 3 → Fin S8x1024x768.rank)
  reducesTo_S8x1024x30000_S8x30000_d1 : S8x1024x30000.ReducesTo [1] S8x30000
  bcast_S_S8x30000 : S_.BroadcastsInDim S8x30000 (![] : Fin 0 → Fin S8x30000.rank)
  reducesTo_S8x30000_S8_d1 : S8x30000.ReducesTo [1] S8
  bcast_S_S8 : S_.BroadcastsInDim S8 (![] : Fin 0 → Fin S8.rank)
  bcast_S8_S8x1_0 : S8.BroadcastsInDim S8x1 (![0] : Fin 1 → Fin S8x1.rank)
  bcast_S8x1_S8x30000_0_1 : S8x1.BroadcastsInDim S8x30000 (![0, 1] : Fin 2 → Fin S8x30000.rank)
  dot_S30000x512_S512x768_S30000x768_1_0_0_1_n_n_wf : DotDims.WF S30000x512 S512x768 S30000x768 [1] [0] [0] [1] [] []
  dot_S30000x768_S768x768_S30000x768_1_0_0_1_n_n_wf : DotDims.WF S30000x768 S768x768 S30000x768 [1] [0] [0] [1] [] []
  dot_S8x1024x768_S30000x768_S8x1024x30000_2_1_01_0_n_n_wf : DotDims.WF S8x1024x768 S30000x768 S8x1024x30000 [2] [1] [0, 1] [0] [] []

variable [Facts₀]

def dot_S30000x512_S512x768_S30000x768_1_0_0_1_n_n : DotDims S30000x512 S512x768 S30000x768 where
  lhsContracting := [1]
  rhsContracting := [0]
  lhsNonContracting := [0]
  rhsNonContracting := [1]
  lhsBatch := []
  rhsBatch := []
  wf := dot_S30000x512_S512x768_S30000x768_1_0_0_1_n_n_wf
def dot_S30000x768_S768x768_S30000x768_1_0_0_1_n_n : DotDims S30000x768 S768x768 S30000x768 where
  lhsContracting := [1]
  rhsContracting := [0]
  lhsNonContracting := [0]
  rhsNonContracting := [1]
  lhsBatch := []
  rhsBatch := []
  wf := dot_S30000x768_S768x768_S30000x768_1_0_0_1_n_n_wf
def dot_S8x1024x768_S30000x768_S8x1024x30000_2_1_01_0_n_n : DotDims S8x1024x768 S30000x768 S8x1024x30000 where
  lhsContracting := [2]
  rhsContracting := [1]
  lhsNonContracting := [0, 1]
  rhsNonContracting := [0]
  lhsBatch := []
  rhsBatch := []
  wf := dot_S8x1024x768_S30000x768_S8x1024x30000_2_1_01_0_n_n_wf

class Facts : Prop extends Facts₀ where

variable [Facts]
-- ==== Proof.K.R0Base.lean ====
/-
  The first kernel region (the statistics kernel) at a parameter V, the buffer contents the region is entered
  from — what its three control cases share. The body keeps two running rows in a scratch buffer [2,768]: at the
  first grid point it clears them, at every point it adds to row 0 the column sums of the 640 products
  (normalised vocabulary row) · W1 of the point's block and to row 1 the column sums of their squares, and at the
  last point it copies the scratch buffer into the output block. Stated here: the two branch conditions in closed
  form over the grid, where the output window is idle, the memrefs the body is called with, and the region
  invariant split into the scratch buffer and the rest.
-/
import proofs.«115421_j19954418057708_1_alg».proof.Proof.Gen.Kernel.Launch
import proofs.«115421_j19954418057708_1_alg».proof.Proof.Gen.Kernel.Skeleton
import proofs.«115421_j19954418057708_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The first branch condition (the grid coordinate is 0), as the body computes it. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)

/-- The second branch condition (the grid coordinate is 46). -/
abbrev cond0_1 (i : grid0.Coords) : Prop := k0_cond2 i = 1#1
/-- It holds at the last point only. -/
theorem hcond0_1 : ∀ t : Fin cfg0.N, cond0_1 (grid0.coords t) ↔ t.val = 46 :=
  (by decide +kernel : ∀ t : Fin grid0.N, cond0_1 (grid0.coords t) ↔ t.val = 46)

theorem liveAt0_0 : ∀ t : Fin cfg0.N, cfg0.idle 0 (grid0.coords t) = false := by decide +kernel
theorem liveAt0_1 : ∀ t : Fin cfg0.N, cfg0.idle 1 (grid0.coords t) = false := by decide +kernel
/-- Where the second condition fails the output window is idle and its block is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-- The output window's one staging buffer as a view, through which its contents are stated. -/
abbrev VO0_2 : View sig .tc .vmem S2x768 .f32 := (Memref.whole cc0_stg2_0 : Memref sig .tc .vmem S2x768 .f32).view
abbrev ms0_0 (t : Fin cfg0.N) : Memref sig .tc .vmem S640x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x768 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2x768 .f32 := win0_2.stage (cfg0.slots t 2)
abbrev hs0_2 (t : Fin cfg0.N) : (ms0_2 t).IsWhole := hstage0_2 ((cfg0.slots t 2).cast nbuf0_2)
/-- The scratch buffer of the two running rows, as a memref and as a view. -/
abbrev scM0_0 : Memref sig .tc .vmem S2x768 .f32 := Memref.whole cc0_scratch0
abbrev VS0_0 : View sig .tc .vmem S2x768 .f32 := scM0_0.view

/-- The core's other scoped buffers that are no staging buffer of this region (the staging buffers of the two
    later regions), each whole at some contents: they ride through this region untouched. -/
def restS (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f))

/-- The class invariant, split: the scratch buffer at some contents, the other scoped buffers, the generator register. -/
theorem PhiA0_eq (c : Dev nD) :
    (Pipeline.ΦA spec0 c : sProp 𝕄)
      = iprop(iprop((∃ d, owns (c : Thread nD τ) scM0_0 fullShare d) ∗ restS c) ∗ (∃ r, prngReg c r)) := by
  unfold Pipeline.ΦA restS; rw [scopedRest0_eq]; simp only [scM0_0, owns_whole]; try rfl

end Cert.Kernel.Fr

end
-- ==== Proof.K.R0RunA.lean ====
/-
  The statistics kernel's body run whole in its FIRST-POINT case (the clearing branch taken, the copying branch not):
  on whole staging memrefs, the two inputs at their contents, the idle output handed back untouched, the scratch
  buffer at anything, the body runs to the continuation with the scratch buffer holding the pieces the run finds.
-/
import proofs.«115421_j19954418057708_1_alg».proof.Proof.K.R0Base

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def kernelRun0_A (c : Dev nD) (i : grid0.Coords) (arg1 : Memref sig .tc .vmem S640x512 .f32) (harg1 : arg1.IsWhole) (arg2 : Memref sig .tc .vmem S512x768 .f32) (harg2 : arg2.IsWhole) (arg3 : Memref sig .tc .vmem S2x768 .f32) (harg3 : arg3.IsWhole) (arg4 : Memref sig .tc .vmem S2x768 .f32) (harg4 : arg4.IsWhole) (hc0 : cond0_0 i) (hc1 : ¬cond0_1 i)
    (x0 : Vec F S640x512 .f32) (x1 : Vec F S512x768 .f32) :
    Σ' (L2 : List (View.Piece (Elt F) S2x768 .f32)), { LS0 : List (View.Piece (Elt F) S2x768 .f32) //
      ∀ (xi2 : Vec F S2x768 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0__stats_kernel i arg1 harg1 arg2 harg2 arg3 harg3 arg4 harg4) K } := by
  refine ⟨[], ?_, fun xi2 E K => ?run⟩
  case run =>
    simp only [cc0__stats_kernel_eq_skeleton]; unfold cc0__stats_kernel_skel
    simp only [k0_part1_eq_skeleton]; unfold k0_part1_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.Kernel.Fr

end
-- ==== Proof.K.R0RunB.lean ====
/-
  The statistics kernel's body run whole in its MIDDLE case (neither branch taken): on whole staging memrefs, the
  two inputs at their contents, the idle output handed back untouched, the scratch buffer at what the point before
  left, the body runs to the continuation with the scratch buffer holding the pieces the run finds.
-/
import proofs.«115421_j19954418057708_1_alg».proof.Proof.K.R0RunA

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def kernelRun0_B (c : Dev nD) (i : grid0.Coords) (arg1 : Memref sig .tc .vmem S640x512 .f32) (harg1 : arg1.IsWhole) (arg2 : Memref sig .tc .vmem S512x768 .f32) (harg2 : arg2.IsWhole) (arg3 : Memref sig .tc .vmem S2x768 .f32) (harg3 : arg3.IsWhole) (arg4 : Memref sig .tc .vmem S2x768 .f32) (harg4 : arg4.IsWhole) (hc0 : ¬cond0_0 i) (hc1 : ¬cond0_1 i)
    (x0 : Vec F S640x512 .f32) (x1 : Vec F S512x768 .f32) (xs0 : Vec F S2x768 .f32) :
    Σ' (L2 : List (View.Piece (Elt F) S2x768 .f32)), { LS0 : List (View.Piece (Elt F) S2x768 .f32) //
      ∀ (xi2 : Vec F S2x768 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0__stats_kernel i arg1 harg1 arg2 harg2 arg3 harg3 arg4 harg4) K } := by
  refine ⟨[], ?_, fun xi2 E K => ?run⟩
  case run =>
    simp only [cc0__stats_kernel_eq_skeleton]; unfold cc0__stats_kernel_skel
    simp only [k0_part1_eq_skeleton]; unfold k0_part1_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.Kernel.Fr

end
-- ==== Proof.K.R0RunC.lean ====
/-
  The statistics kernel's body run whole in its LAST-POINT case (the clearing branch not taken, the copying branch
  taken): on whole staging memrefs, the two inputs at their contents, the output at anything, the scratch buffer at
  what the point before left, the body runs to the continuation with the output and the scratch buffer holding the
  pieces the run finds.
-/
import proofs.«115421_j19954418057708_1_alg».proof.Proof.K.R0RunB

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def kernelRun0_C (c : Dev nD) (i : grid0.Coords) (arg1 : Memref sig .tc .vmem S640x512 .f32) (harg1 : arg1.IsWhole) (arg2 : Memref sig .tc .vmem S512x768 .f32) (harg2 : arg2.IsWhole) (arg3 : Memref sig .tc .vmem S2x768 .f32) (harg3 : arg3.IsWhole) (arg4 : Memref sig .tc .vmem S2x768 .f32) (harg4 : arg4.IsWhole) (hc0 : ¬cond0_0 i) (hc1 : cond0_1 i)
    (x0 : Vec F S640x512 .f32) (x1 : Vec F S512x768 .f32) (xs0 : Vec F S2x768 .f32) :
    Σ' (L2 : List (View.Piece (Elt F) S2x768 .f32)), { LS0 : List (View.Piece (Elt F) S2x768 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc0__stats_kernel i arg1 harg1 arg2 harg2 arg3 harg3 arg4 harg4) K } := by
  refine ⟨?_, ?_, fun E K => ?run⟩
  case run =>
    simp only [cc0__stats_kernel_eq_skeleton]; unfold cc0__stats_kernel_skel
    simp only [k0_part1_eq_skeleton]; unfold k0_part1_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.Kernel.Fr

end
-- ==== Proof.K.Reg0.lean ====
/-
  The first kernel region (the statistics kernel) at a parameter V: what the output block and the scratch buffer
  hold after each grid point (the case the point is in, run at the point's memrefs and input blocks, over what the
  point before left in the scratch buffer), the region invariant that carries the scratch buffer's contents from
  one point to the next, the pipeline's proof data and the body obligation at every point.
-/
import proofs.«115421_j19954418057708_1_alg».proof.Proof.K.R0RunC

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- The first-point case stores nothing into the output block: a placeholder nothing consults. -/
def out0_A_2 (c : Dev nD) (i : grid0.Coords) (arg1 : Memref sig .tc .vmem S640x512 .f32) (harg1 : arg1.IsWhole) (arg2 : Memref sig .tc .vmem S512x768 .f32) (harg2 : arg2.IsWhole) (arg3 : Memref sig .tc .vmem S2x768 .f32) (harg3 : arg3.IsWhole) (arg4 : Memref sig .tc .vmem S2x768 .f32) (harg4 : arg4.IsWhole) (hc0 : cond0_0 i) (hc1 : ¬cond0_1 i)
    (x0 : Vec F S640x512 .f32) (x1 : Vec F S512x768 .f32) : Vec F S2x768 .f32 :=
  VO0_2.read (Elt F) (VO0_2.writes (Elt F) VO0_2.junk (kernelRun0_A c i arg1 harg1 arg2 harg2 arg3 harg3 arg4 harg4 hc0 hc1 x0 x1).1)

/-- The first-point case's stores into the scratch buffer cover it (the two rows, over the clearing store). -/
theorem scover0_A_0 (c : Dev nD) (i : grid0.Coords) (arg1 : Memref sig .tc .vmem S640x512 .f32) (harg1 : arg1.IsWhole) (arg2 : Memref sig .tc .vmem S512x768 .f32) (harg2 : arg2.IsWhole) (arg3 : Memref sig .tc .vmem S2x768 .f32) (harg3 : arg3.IsWhole) (arg4 : Memref sig .tc .vmem S2x768 .f32) (harg4 : arg4.IsWhole) (hc0 : cond0_0 i) (hc1 : ¬cond0_1 i)
    (x0 : Vec F S640x512 .f32) (x1 : Vec F S512x768 .f32) (y : S2x768.Idx) :
    ∃ pc ∈ (kernelRun0_A c i arg1 harg1 arg2 harg2 arg3 harg3 arg4 harg4 hc0 hc1 x0 x1).2.1, y ∈ pc.1.set :=
  View.cover_of_tiledBy (kernelRun0_A c i arg1 harg1 arg2 harg2 arg3 harg3 arg4 harg4 hc0 hc1 x0 x1).2.1 S1x768.size (by sl_kernel_rfl) y

/-- What the first-point case leaves in the scratch buffer. -/
def sout0_A_0 (c : Dev nD) (i : grid0.Coords) (arg1 : Memref sig .tc .vmem S640x512 .f32) (harg1 : arg1.IsWhole) (arg2 : Memref sig .tc .vmem S512x768 .f32) (harg2 : arg2.IsWhole) (arg3 : Memref sig .tc .vmem S2x768 .f32) (harg3 : arg3.IsWhole) (arg4 : Memref sig .tc .vmem S2x768 .f32) (harg4 : arg4.IsWhole) (hc0 : cond0_0 i) (hc1 : ¬cond0_1 i)
    (x0 : Vec F S640x512 .f32) (x1 : Vec F S512x768 .f32) : Vec F S2x768 .f32 :=
  VS0_0.read (Elt F) (VS0_0.writes (Elt F) VS0_0.junk (kernelRun0_A c i arg1 harg1 arg2 harg2 arg3 harg3 arg4 harg4 hc0 hc1 x0 x1).2.1)

def out0_B_2 (c : Dev nD) (i : grid0.Coords) (arg1 : Memref sig .tc .vmem S640x512 .f32) (harg1 : arg1.IsWhole) (arg2 : Memref sig .tc .vmem S512x768 .f32) (harg2 : arg2.IsWhole) (arg3 : Memref sig .tc .vmem S2x768 .f32) (harg3 : arg3.IsWhole) (arg4 : Memref sig .tc .vmem S2x768 .f32) (harg4 : arg4.IsWhole) (hc0 : ¬cond0_0 i) (hc1 : ¬cond0_1 i)
    (x0 : Vec F S640x512 .f32) (x1 : Vec F S512x768 .f32) (xs0 : Vec F S2x768 .f32) : Vec F S2x768 .f32 :=
  VO0_2.read (Elt F) (VO0_2.writes (Elt F) VO0_2.junk (kernelRun0_B c i arg1 harg1 arg2 harg2 arg3 harg3 arg4 harg4 hc0 hc1 x0 x1 xs0).1)

theorem scover0_B_0 (c : Dev nD) (i : grid0.Coords) (arg1 : Memref sig .tc .vmem S640x512 .f32) (harg1 : arg1.IsWhole) (arg2 : Memref sig .tc .vmem S512x768 .f32) (harg2 : arg2.IsWhole) (arg3 : Memref sig .tc .vmem S2x768 .f32) (harg3 : arg3.IsWhole) (arg4 : Memref sig .tc .vmem S2x768 .f32) (harg4 : arg4.IsWhole) (hc0 : ¬cond0_0 i) (hc1 : ¬cond0_1 i)
    (x0 : Vec F S640x512 .f32) (x1 : Vec F S512x768 .f32) (xs0 : Vec F S2x768 .f32) (y : S2x768.Idx) :
    ∃ pc ∈ (kernelRun0_B c i arg1 harg1 arg2 harg2 arg3 harg3 arg4 harg4 hc0 hc1 x0 x1 xs0).2.1, y ∈ pc.1.set :=
  View.cover_of_tiledBy (kernelRun0_B c i arg1 harg1 arg2 harg2 arg3 harg3 arg4 harg4 hc0 hc1 x0 x1 xs0).2.1 S1x768.size (by sl_kernel_rfl) y

/-- What a middle point leaves in the scratch buffer, over what the point before left. -/
def sout0_B_0 (c : Dev nD) (i : grid0.Coords) (arg1 : Memref sig .tc .vmem S640x512 .f32) (harg1 : arg1.IsWhole) (arg2 : Memref sig .tc .vmem S512x768 .f32) (harg2 : arg2.IsWhole) (arg3 : Memref sig .tc .vmem S2x768 .f32) (harg3 : arg3.IsWhole) (arg4 : Memref sig .tc .vmem S2x768 .f32) (harg4 : arg4.IsWhole) (hc0 : ¬cond0_0 i) (hc1 : ¬cond0_1 i)
    (x0 : Vec F S640x512 .f32) (x1 : Vec F S512x768 .f32) (xs0 : Vec F S2x768 .f32) : Vec F S2x768 .f32 :=
  VS0_0.read (Elt F) (VS0_0.writes (Elt F) VS0_0.junk (kernelRun0_B c i arg1 harg1 arg2 harg2 arg3 harg3 arg4 harg4 hc0 hc1 x0 x1 xs0).2.1)

/-- The last-point case's one store into the output block covers it. -/
theorem cover0_C_2 (c : Dev nD) (i : grid0.Coords) (arg1 : Memref sig .tc .vmem S640x512 .f32) (harg1 : arg1.IsWhole) (arg2 : Memref sig .tc .vmem S512x768 .f32) (harg2 : arg2.IsWhole) (arg3 : Memref sig .tc .vmem S2x768 .f32) (harg3 : arg3.IsWhole) (arg4 : Memref sig .tc .vmem S2x768 .f32) (harg4 : arg4.IsWhole) (hc0 : ¬cond0_0 i) (hc1 : cond0_1 i)
    (x0 : Vec F S640x512 .f32) (x1 : Vec F S512x768 .f32) (xs0 : Vec F S2x768 .f32) (y : S2x768.Idx) :
    ∃ pc ∈ (kernelRun0_C c i arg1 harg1 arg2 harg2 arg3 harg3 arg4 harg4 hc0 hc1 x0 x1 xs0).1, y ∈ pc.1.set :=
  View.cover_of_tiledL (kernelRun0_C c i arg1 harg1 arg2 harg2 arg3 harg3 arg4 harg4 hc0 hc1 x0 x1 xs0).1 S2x768.size (by sl_kernel_rfl) y

/-- What the last point leaves in the output block. -/
def out0_C_2 (c : Dev nD) (i : grid0.Coords) (arg1 : Memref sig .tc .vmem S640x512 .f32) (harg1 : arg1.IsWhole) (arg2 : Memref sig .tc .vmem S512x768 .f32) (harg2 : arg2.IsWhole) (arg3 : Memref sig .tc .vmem S2x768 .f32) (harg3 : arg3.IsWhole) (arg4 : Memref sig .tc .vmem S2x768 .f32) (harg4 : arg4.IsWhole) (hc0 : ¬cond0_0 i) (hc1 : cond0_1 i)
    (x0 : Vec F S640x512 .f32) (x1 : Vec F S512x768 .f32) (xs0 : Vec F S2x768 .f32) : Vec F S2x768 .f32 :=
  VO0_2.read (Elt F) (VO0_2.writes (Elt F) VO0_2.junk (kernelRun0_C c i arg1 harg1 arg2 harg2 arg3 harg3 arg4 harg4 hc0 hc1 x0 x1 xs0).1)

theorem scover0_C_0 (c : Dev nD) (i : grid0.Coords) (arg1 : Memref sig .tc .vmem S640x512 .f32) (harg1 : arg1.IsWhole) (arg2 : Memref sig .tc .vmem S512x768 .f32) (harg2 : arg2.IsWhole) (arg3 : Memref sig .tc .vmem S2x768 .f32) (harg3 : arg3.IsWhole) (arg4 : Memref sig .tc .vmem S2x768 .f32) (harg4 : arg4.IsWhole) (hc0 : ¬cond0_0 i) (hc1 : cond0_1 i)
    (x0 : Vec F S640x512 .f32) (x1 : Vec F S512x768 .f32) (xs0 : Vec F S2x768 .f32) (y : S2x768.Idx) :
    ∃ pc ∈ (kernelRun0_C c i arg1 harg1 arg2 harg2 arg3 harg3 arg4 harg4 hc0 hc1 x0 x1 xs0).2.1, y ∈ pc.1.set :=
  View.cover_of_tiledBy (kernelRun0_C c i arg1 harg1 arg2 harg2 arg3 harg3 arg4 harg4 hc0 hc1 x0 x1 xs0).2.1 S1x768.size (by sl_kernel_rfl) y

def sout0_C_0 (c : Dev nD) (i : grid0.Coords) (arg1 : Memref sig .tc .vmem S640x512 .f32) (harg1 : arg1.IsWhole) (arg2 : Memref sig .tc .vmem S512x768 .f32) (harg2 : arg2.IsWhole) (arg3 : Memref sig .tc .vmem S2x768 .f32) (harg3 : arg3.IsWhole) (arg4 : Memref sig .tc .vmem S2x768 .f32) (harg4 : arg4.IsWhole) (hc0 : ¬cond0_0 i) (hc1 : cond0_1 i)
    (x0 : Vec F S640x512 .f32) (x1 : Vec F S512x768 .f32) (xs0 : Vec F S2x768 .f32) : Vec F S2x768 .f32 :=
  VS0_0.read (Elt F) (VS0_0.writes (Elt F) VS0_0.junk (kernelRun0_C c i arg1 harg1 arg2 harg2 arg3 harg3 arg4 harg4 hc0 hc1 x0 x1 xs0).2.1)

/-! ## What the output block and the scratch buffer hold after each point -/

/-- The accumulation: after the body at position n, the output block's staging buffer and the scratch buffer. -/
def outsAt0 (c : Dev nD) : (n : ℕ) → n < cfg0.N → Vec F S2x768 .f32 × Vec F S2x768 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr rfl) (fun h => (fun h => by (try dsimp only at h); omega) ((hcond0_1 ⟨0, hn⟩).mp h)) (iblk0 V c 0 ⟨0, hn⟩) (iblk0 V c 1 ⟨0, hn⟩),
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr rfl) (fun h => (fun h => by (try dsimp only at h); omega) ((hcond0_1 ⟨0, hn⟩).mp h)) (iblk0 V c 0 ⟨0, hn⟩) (iblk0 V c 1 ⟨0, hn⟩))
  | n + 1, hn =>
    if h1 : n + 1 = 46 then
      (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => Nat.succ_ne_zero n ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2,
        sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => Nat.succ_ne_zero n ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => Nat.succ_ne_zero n ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2,
        sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => Nat.succ_ne_zero n ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val = 0) (h1 : ¬t.val = 46) :
    outsAt0 V c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t),
      sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact absurd h0 (Nat.succ_ne_zero n)

theorem outsAt0_B (c : Dev nD) (t : Fin cfg0.N) (h0 : ¬t.val = 0) (h1 : ¬t.val = 46) :
    outsAt0 V c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2,
      sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact absurd rfl h0
  | succ n => exact (dif_neg h1).trans rfl

theorem outsAt0_C (c : Dev nD) (t : Fin cfg0.N) (h0 : ¬t.val = 0) (h1 : t.val = 46) :
    outsAt0 V c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2,
      sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact absurd rfl h0
  | succ n => exact (dif_pos h1).trans rfl

/-! ## The region invariant -/

/-- Before the first point the class's invariant (the scratch buffer at anything); afterwards the scratch buffer at
    what the point before left in it, the other scoped buffers, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ restS c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2) ∗ restS c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ restS c) ∗ (∃ r, prngReg c r)) := by
  cases n with
  | zero => exact absurd rfl hz
  | succ n => rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 47 := lt_of_lt_of_eq t.isLt (show cfg0.N = 47 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val = 0
  · have h1 : ¬t.val = 46 := by omega
    rw [Dat.leavesExact_idle (dat0 V c) 2 t (idleAt0_2 t (fun h => h1 ((hcond0_1 t).mp h))) (noFlush0_2 t (fun h => h1 ((hcond0_1 t).mp h)))]
    rw [outsAt0_A V c t h0 h1]
    unfold sout0_A_0; (try dsimp only)
    rw [PhiS_castSucc V c t, PhiS_zero V c _ _ h0, PhiA0_eq]
    iintro ⟨⟨⟨HS0, Hrest⟩, Hg⟩, Ho, ⟨%d0, H0⟩, ⟨%d1, H1⟩, ⟨%d2, H2⟩⟩
    iapply ((kernelRun0_A c (grid0.coords t) _ _ _ _ _ _ _ _ ((hcond0_0 t).mpr h0) (fun h => h1 ((hcond0_1 t).mp h)) (iblk0 V c 0 t) (iblk0 V c 1 t)).2.2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover0_A_0 c _ _ _ _ _ _ _ _ _ _ _ _ _)
        iexact Hrest
      iexact Hg
    isplitl [Ho]; · iexact Ho
    isplitl [H0]; · iexact H0
    isplitl [H1]; · iexact H1
    iexists _; iexact H2
  · by_cases h1 : t.val = 46
    · rw [show (dat0 V c).leavesExact 2 t = owns (c : Thread nD τ) (ms0_2 t) fullShare ((dat0 V c).after 2 t) from by
        unfold Dat.leavesExact; rw [liveAt0_2 t ((hcond0_1 t).mpr h1)], after0_2]
      rw [outsAt0_C V c t h0 h1]
      unfold out0_C_2 sout0_C_0; (try dsimp only)
      rw [PhiS_castSucc V c t, PhiS_pos V c _ _ h0]
      iintro ⟨⟨⟨HS0, Hrest⟩, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_C_0 c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [Dat.leavesExact_idle (dat0 V c) 2 t (idleAt0_2 t (fun h => h1 ((hcond0_1 t).mp h))) (noFlush0_2 t (fun h => h1 ((hcond0_1 t).mp h)))]
      rw [outsAt0_B V c t h0 h1]
      unfold sout0_B_0; (try dsimp only)
      rw [PhiS_castSucc V c t, PhiS_pos V c _ _ h0]
      iintro ⟨⟨⟨HS0, Hrest⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_B_0 c _ _ _ _ _ _ _ _ _ _ _ _ _ _)
          iexact Hrest
        iexact Hg
      isplitl [Ho]; · iexact Ho
      isplitl [H0]; · iexact H0
      isplitl [H1]; · iexact H1
      iexists _; iexact H2

theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the class's back: the scratch buffer's contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, Hrest⟩, Hg⟩
  isplitl [HS0 Hrest]
  · isplitl [HS0]
    · iexists _; iexact HS0
    iexact Hrest
  iexact Hg

theorem hout0 (c : Dev nD) : (dat0 V c).Φ (Fin.last cfg0.N) ⊢ Pipeline.ΦA spec0 c :=
  Phi_out0 V c _ (by rw [Fin.val_last]; have : cfg0.N = 47 := N_0; omega)

end Cert.Kernel.Fr

end
-- ==== Proof.K.Reg1.lean ====
/-
  The second kernel region (the prototype builder) at a parameter V, the buffer contents the region is
  entered from: at grid point t the body reads 640 rows of the padded vocabulary matrix, the two weight matrices,
  the bias row and the scale and shift rows of the batch normalisation, and stores the 640 normalised prototype
  rows. Stated here: what the body leaves in the output's staging buffer as a function of the six input blocks, the
  body's triple, the pipeline's proof data and the body obligation at every point.
-/
import proofs.«115421_j19954418057708_1_alg».proof.Proof.Gen.Kernel.Launch
import proofs.«115421_j19954418057708_1_alg».proof.Proof.Gen.Kernel.Skeleton
import proofs.«115421_j19954418057708_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S640x512 := Rect.unit (s := S640x512) ![0, 0] S640x512.size inb_S640x512_S640x512_0_0
abbrev r1_1 : Rect S512x768 := Rect.unit (s := S512x768) ![0, 0] S512x768.size inb_S512x768_S512x768_0_0
abbrev r1_2 : Rect S768x768 := Rect.unit (s := S768x768) ![0, 0] S768x768.size inb_S768x768_S768x768_0_0
abbrev r1_3 : Rect S1x768 := Rect.unit (s := S1x768) ![0, 0] S1x768.size inb_S1x768_S1x768_0_0
abbrev r1_4 : Rect S640x768 := Rect.unit (s := S640x768) ![0, 0] S640x768.size inb_S640x768_S640x768_0_0

/-- The output block after the body, from the six input blocks: its one store as a piece. -/
def out1_6 (x0 : Vec F S640x512 .f32) (x1 : Vec F S512x768 .f32) (x2 : Vec F S768x768 .f32) (x3 : Vec F S1x768 .f32) (x4 : Vec F S1x768 .f32) (x5 : Vec F S1x768 .f32) : Vec F S640x768 .f32 :=
  View.canon [⟨r1_4, k1_pay1 (View.ld x0 r1_0) (View.ld x1 r1_1) (View.ld x4 r1_3) (View.ld x5 r1_3) (View.ld x2 r1_2) (View.ld x3 r1_3)⟩]

theorem cover1_6 (p0 : Vec F S640x768 .f32) (y : S640x768.Idx) :
    ∃ pc ∈ ([⟨r1_4, p0⟩] : List (View.Piece (Elt F) S640x768 .f32)), y ∈ pc.1.set :=
  View.cover_of_tiled [⟨r1_4, p0⟩] S640x768.size (by rfl) y

set_option maxHeartbeats 1000000 in
/-- The body on whole staging memrefs, the inputs at read contents and the output at anything, runs to the
    continuation holding the inputs as they were and the output at out1_6 of them. -/
theorem sound_kernel1 (c : Dev nD) (E : Set ℕ) (i : grid1.Coords) (arg0 : Memref sig .tc .vmem S640x512 .f32) (harg0 : arg0.IsWhole) (arg1 : Memref sig .tc .vmem S512x768 .f32) (harg1 : arg1.IsWhole) (arg2 : Memref sig .tc .vmem S768x768 .f32) (harg2 : arg2.IsWhole) (arg3 : Memref sig .tc .vmem S1x768 .f32) (harg3 : arg3.IsWhole) (arg4 : Memref sig .tc .vmem S1x768 .f32) (harg4 : arg4.IsWhole) (arg5 : Memref sig .tc .vmem S1x768 .f32) (harg5 : arg5.IsWhole) (arg6 : Memref sig .tc .vmem S640x768 .f32) (harg6 : arg6.IsWhole)
    (x0 : Vec F S640x512 .f32) (x1 : Vec F S512x768 .f32) (x2 : Vec F S768x768 .f32) (x3 : Vec F S1x768 .f32) (x4 : Vec F S1x768 .f32) (x5 : Vec F S1x768 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out1_6 x0 x1 x2 x3 x4 x5)) -∗ K ⟨⟩))
      ⊢ wp frame (wpE (defs₀ (F := F)) Variants.none c none) E (cc1__proto_kernel i arg0 harg0 arg1 harg1 arg2 harg2 arg3 harg3 arg4 harg4 arg5 harg5 arg6 harg6) K := by
  simp only [cc1__proto_kernel_eq_skeleton]; unfold cc1__proto_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover1_6 _)

/-- The proof data of the second pipeline on core c: the arrays as the region finds them; after the body at
    point t each input's buffer at its block and the output's at out1_6 of the input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.K.Reg2.lean ====
/-
  The third kernel region (the scoring kernel) at a parameter V, the buffer contents the region is entered
  from: at grid point t the body reads the whole matrix of normalised patch rows [8192,768] and the 128
  prototype rows of block t, and stores into the output block [8,128] the maximum over the 1024 patches of each
  batch entry of the products patch row · prototype row. Stated here: what the body leaves in the output's
  staging buffer as a function of the two input blocks, the body's triple, the pipeline's proof data and the
  body obligation at every point.
-/
import proofs.«115421_j19954418057708_1_alg».proof.Proof.Gen.Kernel.Launch
import proofs.«115421_j19954418057708_1_alg».proof.Proof.Gen.Kernel.Skeleton
import proofs.«115421_j19954418057708_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S128x768 := Rect.unit (s := S128x768) ![0, 0] S128x768.size inb_S128x768_S128x768_0_0
abbrev r2_1 : Rect S8192x768 := Rect.unit (s := S8192x768) ![0, 0] S8192x768.size inb_S8192x768_S8192x768_0_0
abbrev r2_2 : Rect S8x128 := Rect.unit (s := S8x128) ![0, 0] S8x128.size inb_S8x128_S8x128_0_0

/-- The output block after the body, from the two input blocks: its one store as a piece. -/
def out2_2 (x0 : Vec F S8192x768 .bf16) (x1 : Vec F S128x768 .f32) : Vec F S8x128 .f32 :=
  View.canon [⟨r2_2, k2_pay1 (View.ld x1 r2_0) (View.ld x0 r2_1)⟩]

theorem cover2_2 (p0 : Vec F S8x128 .f32) (y : S8x128.Idx) :
    ∃ pc ∈ ([⟨r2_2, p0⟩] : List (View.Piece (Elt F) S8x128 .f32)), y ∈ pc.1.set :=
  View.cover_of_tiled [⟨r2_2, p0⟩] S8x128.size (by rfl) y

set_option maxHeartbeats 1000000 in
/-- The body on whole staging memrefs, the inputs at read contents and the output at anything, runs to the
    continuation holding the inputs as they were and the output at out2_2 of them. -/
theorem sound_kernel2 (c : Dev nD) (E : Set ℕ) (i : grid2.Coords) (arg0 : Memref sig .tc .vmem S8192x768 .bf16) (harg0 : arg0.IsWhole) (arg1 : Memref sig .tc .vmem S128x768 .f32) (harg1 : arg1.IsWhole) (arg2 : Memref sig .tc .vmem S8x128 .f32) (harg2 : arg2.IsWhole)
    (x0 : Vec F S8192x768 .bf16) (x1 : Vec F S128x768 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 x0 x1)) -∗ K ⟨⟩))
      ⊢ wp frame (wpE (defs₀ (F := F)) Variants.none c none) E (cc2__main_kernel i arg0 harg0 arg1 harg1 arg2 harg2) K := by
  simp only [cc2__main_kernel_eq_skeleton]; unfold cc2__main_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover2_2 _)

/-- The proof data of the third pipeline on core c: the arrays as the region finds them; after the body at
    point t each input's buffer at its block and the output's at out2_2 of the input blocks. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.K.Run.lean ====
/-
  The whole run of the program: its nine items in order — two short host stretches (the padding of the vocabulary
  matrix), the statistics kernel, the host stretch that turns the two accumulated rows into the scale and shift rows
  of the batch normalisation, the prototype kernel, two host stretches that normalise the patch rows, the scoring kernel,
  and the closing host stretch (the slice to the true vocabulary and the softmax). The buffer contents at every
  boundary between items are a fold from the launch memory: a host stretch applies its operations, a kernel region
  leaves its arrays at what its write-backs make of them and every other buffer as it found it. Every weakly fair
  execution terminates without a fault, and the final memory holds every unscoped buffer at the fold's last value.
-/
import proofs.«115421_j19954418057708_1_alg».proof.Proof.K.Reg0
import proofs.«115421_j19954418057708_1_alg».proof.Proof.K.Reg1
import proofs.«115421_j19954418057708_1_alg».proof.Proof.K.Reg2
import proofs.«115421_j19954418057708_1_alg».proof.Proof.Gen.Kernel.Regions

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev V2 : (c : Dev nD) → (b : Ref sig .tc) → Buf (Elt F) ((c : Thread nD τ).loc b) := fun c b => W2 m ρ c b

/-- At region 0's exit: its arrays at what the pipeline leaves, every other buffer as entered. -/
def W3 (c : Dev nD) : Valuation τ sig (Elt F) :=
  Pipeline.withArrays spec0 c (W2 m ρ c) fun w => (dat0 (V2 m ρ) c).arrAt w cfg0.N
theorem W3_arr (c : Dev nD) (w : Fin cfg0.W) :
    W3 m ρ c (Proc.devRef .tc (Pipeline.arrRef spec0 w)) = (dat0 (V2 m ρ) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m ρ c (Proc.devRef .tc b) = W2 m ρ c (Proc.devRef .tc b) := by
  unfold W3; exact Pipeline.withArrays_of_ne spec0 c _ _ b hb
abbrev V3 : (c : Dev nD) → (b : Ref sig .tc) → Buf (Elt F) ((c : Thread nD τ).loc b) := fun c b => W3 m ρ c b
theorem hF0 (c : Dev nD) (w : Fin cfg0.W) : (dat0 (V2 m ρ) c).arrAt w cfg0.N = V3 m ρ c (Pipeline.arrRef spec0 w) :=
  (W3_arr m ρ c w).symm
theorem hrest0 (c : Dev nD) : ∀ b, b ∉ Finset.univ.image (Pipeline.arrRef spec0) → V3 m ρ c b = V2 m ρ c b :=
  fun b hb => W3_of_ne m ρ c b fun w e => hb (Finset.mem_image.mpr ⟨w, Finset.mem_univ _, e⟩)

abbrev W4 : Dev nD → Valuation τ sig (Elt F) := fun c => StableHlo.after hostOps1 (W3 m ρ c)
abbrev V4 : (c : Dev nD) → (b : Ref sig .tc) → Buf (Elt F) ((c : Thread nD τ).loc b) := fun c b => W4 m ρ c b

/-- At region 1's exit: its arrays at what the pipeline leaves, every other buffer as entered. -/
def W5 (c : Dev nD) : Valuation τ sig (Elt F) :=
  Pipeline.withArrays spec1 c (W4 m ρ c) fun w => (dat1 (V4 m ρ) c).arrAt w cfg1.N
theorem W5_arr (c : Dev nD) (w : Fin cfg1.W) :
    W5 m ρ c (Proc.devRef .tc (Pipeline.arrRef spec1 w)) = (dat1 (V4 m ρ) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
abbrev V5 : (c : Dev nD) → (b : Ref sig .tc) → Buf (Elt F) ((c : Thread nD τ).loc b) := fun c b => W5 m ρ c b
theorem hF1 (c : Dev nD) (w : Fin cfg1.W) : (dat1 (V4 m ρ) c).arrAt w cfg1.N = V5 m ρ c (Pipeline.arrRef spec1 w) :=
  (W5_arr m ρ c w).symm
theorem hrest1 (c : Dev nD) : ∀ b, b ∉ Finset.univ.image (Pipeline.arrRef spec1) → V5 m ρ c b = V4 m ρ c b :=
  fun b hb => W5_of_ne m ρ c b fun w e => hb (Finset.mem_image.mpr ⟨w, Finset.mem_univ _, e⟩)

abbrev W6 : Dev nD → Valuation τ sig (Elt F) := fun c => StableHlo.after hostOps2 (W5 m ρ c)
abbrev W7 : Dev nD → Valuation τ sig (Elt F) := fun c => StableHlo.after hostOps2_1 (W6 m ρ c)
abbrev V7 : (c : Dev nD) → (b : Ref sig .tc) → Buf (Elt F) ((c : Thread nD τ).loc b) := fun c b => W7 m ρ c b

/-- At region 2's exit: its arrays at what the pipeline leaves, every other buffer as entered. -/
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
abbrev V8 : (c : Dev nD) → (b : Ref sig .tc) → Buf (Elt F) ((c : Thread nD τ).loc b) := fun c b => W8 m ρ c b
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)

abbrev W9 : Dev nD → Valuation τ sig (Elt F) := fun c => StableHlo.after hostOps3 (W8 m ρ c)

/-! ## The proof data family and the thread state -/

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V2 m ρ) c
  | ⟨1, _⟩ => fun c => dat1 (V4 m ρ) c
  | ⟨2, _⟩ => fun c => dat2 (V7 m ρ) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W9 m ρ c) ∗ ∃ r, prngReg c r)

/-! ## The regions as segments -/

set_option backward.isDefEq.respectTransparency.types false in
/-- Region 0 over the thread state: entered from every unscoped buffer at W2, left at W3. Its arrays are split
    out of the unscoped buffers and put back at the exit contents; the generator register goes into the region invariant and
    comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V2 m ρ) c).loose
  hwaits := Pipeline.hwaits_of_owed_zero _ _ _ _ L lv 0 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec0 c (V2 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from hout0 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V2 m ρ c) (V3 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W4, left at W5. Its arrays are split
    out of the unscoped buffers and put back at the exit contents; the generator register goes into the region invariant and
    comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m ρ) c).loose
  hwaits := Pipeline.hwaits_of_owed_zero _ _ _ _ L lv 1 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from .rfl).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V4 m ρ c) (V5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at W7, left at W8. Its arrays are split
    out of the unscoped buffers and put back at the exit contents; the generator register goes into the region invariant and
    comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (show (pdats m ρ 2 c).Φ (Fin.last _) ⊢ Pipeline.ΦA spec2 c from .rfl).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The items in order, and the run -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .region (reg0 m ρ),
    .host (hseg hostOps1 hostOps1_sub hostOps1_fresh (W3 m ρ)),
    .region (reg1 m ρ),
    .host (hseg hostOps2 hostOps2_sub hostOps2_fresh (W5 m ρ)),
    .host (hseg hostOps2_1 hostOps2_1_sub hostOps2_1_fresh (W6 m ρ)),
    .region (reg2 m ρ),
    .host (hseg hostOps3 hostOps3_sub hostOps3_fresh (W8 m ρ)) ]

theorem main_run (c : Dev nD) : main (F := F) c = Pipeline.Seg.run (segs m ρ) := (main_chain c).trans (by chain_rfl)

set_option backward.isDefEq.respectTransparency.types false in
/-- From any memory with zero counters every weakly fair execution of the program terminates, nothing faulting, and the
    final memory holds every unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W9 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

end Cert.Kernel.Fr

end
-- ==== Proof.K.Args.lean ====
/-
  The argument arrays reach the end of the run as launched: no host operation writes one, and a kernel region leaves an
  array it only reads at what it found.
-/
import proofs.«115421_j19954418057708_1_alg».proof.Proof.K.Run

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W2_keep (c : Dev nD) (r : Ref sig .tc) (h0 : r ∉ hostOps0_W) (h1 : r ∉ hostOps0_1_W) :
    W2 m ρ c r = m ((c : Thread nD τ).loc r) :=
  (StableHlo.after_of_writes_sub hostOps0_1 _ hostOps0_1_writes h1).trans
    ((StableHlo.after_of_writes_sub hostOps0 _ hostOps0_writes h0).trans rfl)

theorem W9_keep (c : Dev nD) (r : Ref sig .tc) (h0 : r ∉ hostOps0_W) (h01 : r ∉ hostOps0_1_W) (h1 : r ∉ hostOps1_W)
    (h2 : r ∉ hostOps2_W) (h21 : r ∉ hostOps2_1_W) (h3 : r ∉ hostOps3_W)
    (e3 : W3 m ρ c r = W2 m ρ c r) (e5 : W5 m ρ c r = W4 m ρ c r) (e8 : W8 m ρ c r = W7 m ρ c r) :
    W9 m ρ c r = m ((c : Thread nD τ).loc r) :=
  (StableHlo.after_of_writes_sub hostOps3 _ hostOps3_writes h3).trans <| e8.trans <|
    (StableHlo.after_of_writes_sub hostOps2_1 _ hostOps2_1_writes h21).trans <|
    (StableHlo.after_of_writes_sub hostOps2 _ hostOps2_writes h2).trans <| e5.trans <|
    (StableHlo.after_of_writes_sub hostOps1 _ hostOps1_writes h1).trans <| e3.trans <| W2_keep m ρ c r h0 h01

theorem W9_main_arg0 (c : Dev nD) : W9 m ρ c main_arg0 = m ((c : Thread nD τ).loc main_arg0) :=
  W9_keep m ρ c main_arg0 (by decide) (by decide) (by decide) (by decide) (by decide) (by decide)
    (W3_of_ne m ρ c main_arg0 (by decide))
    (W5_of_ne m ρ c main_arg0 (by decide))
    (W8_of_ne m ρ c main_arg0 (by decide))

theorem W9_main_arg1 (c : Dev nD) : W9 m ρ c main_arg1 = m ((c : Thread nD τ).loc main_arg1) :=
  W9_keep m ρ c main_arg1 (by decide) (by decide) (by decide) (by decide) (by decide) (by decide)
    (W3_of_ne m ρ c main_arg1 (by decide))
    (W5_of_ne m ρ c main_arg1 (by decide))
    (W8_of_ne m ρ c main_arg1 (by decide))

theorem W9_main_arg2 (c : Dev nD) : W9 m ρ c main_arg2 = m ((c : Thread nD τ).loc main_arg2) :=
  W9_keep m ρ c main_arg2 (by decide) (by decide) (by decide) (by decide) (by decide) (by decide)
    ((W3_arr m ρ c 1).trans (((dat0 (V2 m ρ) c).arrAt_in 1 rfl _).trans (A_eq0 (V2 m ρ) c 1)))
    ((W5_arr m ρ c 1).trans (((dat1 (V4 m ρ) c).arrAt_in 1 rfl _).trans (A_eq1 (V4 m ρ) c 1)))
    (W8_of_ne m ρ c main_arg2 (by decide))

theorem W9_main_arg3 (c : Dev nD) : W9 m ρ c main_arg3 = m ((c : Thread nD τ).loc main_arg3) :=
  W9_keep m ρ c main_arg3 (by decide) (by decide) (by decide) (by decide) (by decide) (by decide)
    (W3_of_ne m ρ c main_arg3 (by decide))
    (W5_of_ne m ρ c main_arg3 (by decide))
    (W8_of_ne m ρ c main_arg3 (by decide))

theorem W9_main_arg4 (c : Dev nD) : W9 m ρ c main_arg4 = m ((c : Thread nD τ).loc main_arg4) :=
  W9_keep m ρ c main_arg4 (by decide) (by decide) (by decide) (by decide) (by decide) (by decide)
    (W3_of_ne m ρ c main_arg4 (by decide))
    (W5_of_ne m ρ c main_arg4 (by decide))
    (W8_of_ne m ρ c main_arg4 (by decide))

theorem W9_main_arg5 (c : Dev nD) : W9 m ρ c main_arg5 = m ((c : Thread nD τ).loc main_arg5) :=
  W9_keep m ρ c main_arg5 (by decide) (by decide) (by decide) (by decide) (by decide) (by decide)
    (W3_of_ne m ρ c main_arg5 (by decide))
    ((W5_arr m ρ c 2).trans (((dat1 (V4 m ρ) c).arrAt_in 2 rfl _).trans (A_eq1 (V4 m ρ) c 2)))
    (W8_of_ne m ρ c main_arg5 (by decide))

theorem W9_main_arg6 (c : Dev nD) : W9 m ρ c main_arg6 = m ((c : Thread nD τ).loc main_arg6) :=
  W9_keep m ρ c main_arg6 (by decide) (by decide) (by decide) (by decide) (by decide) (by decide)
    (W3_of_ne m ρ c main_arg6 (by decide))
    (W5_of_ne m ρ c main_arg6 (by decide))
    (W8_of_ne m ρ c main_arg6 (by decide))

end Cert.Kernel.Fr

end
-- ==== Proof.KI.R0Base.lean ====
/-
  The first kernel region (the statistics kernel) at a parameter V, the buffer contents the region is entered
  from — what its three control cases share. The body keeps two running rows in a scratch buffer [2,768]: at the
  first grid point it clears them, at every point it adds to row 0 the column sums of the 640 products
  (normalised vocabulary row) · W1 of the point's block and to row 1 the column sums of their squares, and at the
  last point it copies the scratch buffer into the output block. Stated here: the two branch conditions in closed
  form over the grid, where the output window is idle, the memrefs the body is called with, and the region
  invariant split into the scratch buffer and the rest.
-/
import proofs.«115421_j19954418057708_1_alg».proof.Proof.Gen.KernelIdeal.Launch
import proofs.«115421_j19954418057708_1_alg».proof.Proof.Gen.KernelIdeal.Skeleton
import proofs.«115421_j19954418057708_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The first branch condition (the grid coordinate is 0), as the body computes it. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)

/-- The second branch condition (the grid coordinate is 46). -/
abbrev cond0_1 (i : grid0.Coords) : Prop := k0_cond2 i = 1#1
/-- It holds at the last point only. -/
theorem hcond0_1 : ∀ t : Fin cfg0.N, cond0_1 (grid0.coords t) ↔ t.val = 46 :=
  (by decide +kernel : ∀ t : Fin grid0.N, cond0_1 (grid0.coords t) ↔ t.val = 46)

theorem liveAt0_0 : ∀ t : Fin cfg0.N, cfg0.idle 0 (grid0.coords t) = false := by decide +kernel
theorem liveAt0_1 : ∀ t : Fin cfg0.N, cfg0.idle 1 (grid0.coords t) = false := by decide +kernel
/-- Where the second condition fails the output window is idle and its block is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-- The output window's one staging buffer as a view, through which its contents are stated. -/
abbrev VO0_2 : View sig .tc .vmem S2x768 .f32 := (Memref.whole cc0_stg2_0 : Memref sig .tc .vmem S2x768 .f32).view
abbrev ms0_0 (t : Fin cfg0.N) : Memref sig .tc .vmem S640x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x768 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2x768 .f32 := win0_2.stage (cfg0.slots t 2)
abbrev hs0_2 (t : Fin cfg0.N) : (ms0_2 t).IsWhole := hstage0_2 ((cfg0.slots t 2).cast nbuf0_2)
/-- The scratch buffer of the two running rows, as a memref and as a view. -/
abbrev scM0_0 : Memref sig .tc .vmem S2x768 .f32 := Memref.whole cc0_scratch0
abbrev VS0_0 : View sig .tc .vmem S2x768 .f32 := scM0_0.view

/-- The core's other scoped buffers that are no staging buffer of this region (the staging buffers of the two
    later regions), each whole at some contents: they ride through this region untouched. -/
def restS (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f))

/-- The class invariant, split: the scratch buffer at some contents, the other scoped buffers, the generator register. -/
theorem PhiA0_eq (c : Dev nD) :
    (Pipeline.ΦA spec0 c : sProp 𝕄)
      = iprop(iprop((∃ d, owns (c : Thread nD τ) scM0_0 fullShare d) ∗ restS c) ∗ (∃ r, prngReg c r)) := by
  unfold Pipeline.ΦA restS; rw [scopedRest0_eq]; simp only [scM0_0, owns_whole]; try rfl

end Cert.KernelIdeal.Fr

end
-- ==== Proof.KI.R0RunA.lean ====
/-
  The statistics kernel's body run whole in its FIRST-POINT case (the clearing branch taken, the copying branch not):
  on whole staging memrefs, the two inputs at their contents, the idle output handed back untouched, the scratch
  buffer at anything, the body runs to the continuation with the scratch buffer holding the pieces the run finds.
-/
import proofs.«115421_j19954418057708_1_alg».proof.Proof.KI.R0Base

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def kernelRun0_A (c : Dev nD) (i : grid0.Coords) (arg1 : Memref sig .tc .vmem S640x512 .f32) (harg1 : arg1.IsWhole) (arg2 : Memref sig .tc .vmem S512x768 .f32) (harg2 : arg2.IsWhole) (arg3 : Memref sig .tc .vmem S2x768 .f32) (harg3 : arg3.IsWhole) (arg4 : Memref sig .tc .vmem S2x768 .f32) (harg4 : arg4.IsWhole) (hc0 : cond0_0 i) (hc1 : ¬cond0_1 i)
    (x0 : Vec F S640x512 .f32) (x1 : Vec F S512x768 .f32) :
    Σ' (L2 : List (View.Piece (Elt F) S2x768 .f32)), { LS0 : List (View.Piece (Elt F) S2x768 .f32) //
      ∀ (xi2 : Vec F S2x768 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0__stats_kernel i arg1 harg1 arg2 harg2 arg3 harg3 arg4 harg4) K } := by
  refine ⟨[], ?_, fun xi2 E K => ?run⟩
  case run =>
    simp only [cc0__stats_kernel_eq_skeleton]; unfold cc0__stats_kernel_skel
    simp only [k0_part1_eq_skeleton]; unfold k0_part1_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.KernelIdeal.Fr

end
-- ==== Proof.KI.R0RunB.lean ====
/-
  The statistics kernel's body run whole in its MIDDLE case (neither branch taken): on whole staging memrefs, the
  two inputs at their contents, the idle output handed back untouched, the scratch buffer at what the point before
  left, the body runs to the continuation with the scratch buffer holding the pieces the run finds.
-/
import proofs.«115421_j19954418057708_1_alg».proof.Proof.KI.R0RunA

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def kernelRun0_B (c : Dev nD) (i : grid0.Coords) (arg1 : Memref sig .tc .vmem S640x512 .f32) (harg1 : arg1.IsWhole) (arg2 : Memref sig .tc .vmem S512x768 .f32) (harg2 : arg2.IsWhole) (arg3 : Memref sig .tc .vmem S2x768 .f32) (harg3 : arg3.IsWhole) (arg4 : Memref sig .tc .vmem S2x768 .f32) (harg4 : arg4.IsWhole) (hc0 : ¬cond0_0 i) (hc1 : ¬cond0_1 i)
    (x0 : Vec F S640x512 .f32) (x1 : Vec F S512x768 .f32) (xs0 : Vec F S2x768 .f32) :
    Σ' (L2 : List (View.Piece (Elt F) S2x768 .f32)), { LS0 : List (View.Piece (Elt F) S2x768 .f32) //
      ∀ (xi2 : Vec F S2x768 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0__stats_kernel i arg1 harg1 arg2 harg2 arg3 harg3 arg4 harg4) K } := by
  refine ⟨[], ?_, fun xi2 E K => ?run⟩
  case run =>
    simp only [cc0__stats_kernel_eq_skeleton]; unfold cc0__stats_kernel_skel
    simp only [k0_part1_eq_skeleton]; unfold k0_part1_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.KernelIdeal.Fr

end
-- ==== Proof.KI.R0RunC.lean ====
/-
  The statistics kernel's body run whole in its LAST-POINT case (the clearing branch not taken, the copying branch
  taken): on whole staging memrefs, the two inputs at their contents, the output at anything, the scratch buffer at
  what the point before left, the body runs to the continuation with the output and the scratch buffer holding the
  pieces the run finds.
-/
import proofs.«115421_j19954418057708_1_alg».proof.Proof.KI.R0RunB

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def kernelRun0_C (c : Dev nD) (i : grid0.Coords) (arg1 : Memref sig .tc .vmem S640x512 .f32) (harg1 : arg1.IsWhole) (arg2 : Memref sig .tc .vmem S512x768 .f32) (harg2 : arg2.IsWhole) (arg3 : Memref sig .tc .vmem S2x768 .f32) (harg3 : arg3.IsWhole) (arg4 : Memref sig .tc .vmem S2x768 .f32) (harg4 : arg4.IsWhole) (hc0 : ¬cond0_0 i) (hc1 : cond0_1 i)
    (x0 : Vec F S640x512 .f32) (x1 : Vec F S512x768 .f32) (xs0 : Vec F S2x768 .f32) :
    Σ' (L2 : List (View.Piece (Elt F) S2x768 .f32)), { LS0 : List (View.Piece (Elt F) S2x768 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc0__stats_kernel i arg1 harg1 arg2 harg2 arg3 harg3 arg4 harg4) K } := by
  refine ⟨?_, ?_, fun E K => ?run⟩
  case run =>
    simp only [cc0__stats_kernel_eq_skeleton]; unfold cc0__stats_kernel_skel
    simp only [k0_part1_eq_skeleton]; unfold k0_part1_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.KernelIdeal.Fr

end
-- ==== Proof.KI.Reg0.lean ====
/-
  The first kernel region (the statistics kernel) at a parameter V: what the output block and the scratch buffer
  hold after each grid point (the case the point is in, run at the point's memrefs and input blocks, over what the
  point before left in the scratch buffer), the region invariant that carries the scratch buffer's contents from
  one point to the next, the pipeline's proof data and the body obligation at every point.
-/
import proofs.«115421_j19954418057708_1_alg».proof.Proof.KI.R0RunC

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- The first-point case stores nothing into the output block: a placeholder nothing consults. -/
def out0_A_2 (c : Dev nD) (i : grid0.Coords) (arg1 : Memref sig .tc .vmem S640x512 .f32) (harg1 : arg1.IsWhole) (arg2 : Memref sig .tc .vmem S512x768 .f32) (harg2 : arg2.IsWhole) (arg3 : Memref sig .tc .vmem S2x768 .f32) (harg3 : arg3.IsWhole) (arg4 : Memref sig .tc .vmem S2x768 .f32) (harg4 : arg4.IsWhole) (hc0 : cond0_0 i) (hc1 : ¬cond0_1 i)
    (x0 : Vec F S640x512 .f32) (x1 : Vec F S512x768 .f32) : Vec F S2x768 .f32 :=
  VO0_2.read (Elt F) (VO0_2.writes (Elt F) VO0_2.junk (kernelRun0_A c i arg1 harg1 arg2 harg2 arg3 harg3 arg4 harg4 hc0 hc1 x0 x1).1)

/-- The first-point case's stores into the scratch buffer cover it (the two rows, over the clearing store). -/
theorem scover0_A_0 (c : Dev nD) (i : grid0.Coords) (arg1 : Memref sig .tc .vmem S640x512 .f32) (harg1 : arg1.IsWhole) (arg2 : Memref sig .tc .vmem S512x768 .f32) (harg2 : arg2.IsWhole) (arg3 : Memref sig .tc .vmem S2x768 .f32) (harg3 : arg3.IsWhole) (arg4 : Memref sig .tc .vmem S2x768 .f32) (harg4 : arg4.IsWhole) (hc0 : cond0_0 i) (hc1 : ¬cond0_1 i)
    (x0 : Vec F S640x512 .f32) (x1 : Vec F S512x768 .f32) (y : S2x768.Idx) :
    ∃ pc ∈ (kernelRun0_A c i arg1 harg1 arg2 harg2 arg3 harg3 arg4 harg4 hc0 hc1 x0 x1).2.1, y ∈ pc.1.set :=
  View.cover_of_tiledBy (kernelRun0_A c i arg1 harg1 arg2 harg2 arg3 harg3 arg4 harg4 hc0 hc1 x0 x1).2.1 S1x768.size (by sl_kernel_rfl) y

/-- What the first-point case leaves in the scratch buffer. -/
def sout0_A_0 (c : Dev nD) (i : grid0.Coords) (arg1 : Memref sig .tc .vmem S640x512 .f32) (harg1 : arg1.IsWhole) (arg2 : Memref sig .tc .vmem S512x768 .f32) (harg2 : arg2.IsWhole) (arg3 : Memref sig .tc .vmem S2x768 .f32) (harg3 : arg3.IsWhole) (arg4 : Memref sig .tc .vmem S2x768 .f32) (harg4 : arg4.IsWhole) (hc0 : cond0_0 i) (hc1 : ¬cond0_1 i)
    (x0 : Vec F S640x512 .f32) (x1 : Vec F S512x768 .f32) : Vec F S2x768 .f32 :=
  VS0_0.read (Elt F) (VS0_0.writes (Elt F) VS0_0.junk (kernelRun0_A c i arg1 harg1 arg2 harg2 arg3 harg3 arg4 harg4 hc0 hc1 x0 x1).2.1)

def out0_B_2 (c : Dev nD) (i : grid0.Coords) (arg1 : Memref sig .tc .vmem S640x512 .f32) (harg1 : arg1.IsWhole) (arg2 : Memref sig .tc .vmem S512x768 .f32) (harg2 : arg2.IsWhole) (arg3 : Memref sig .tc .vmem S2x768 .f32) (harg3 : arg3.IsWhole) (arg4 : Memref sig .tc .vmem S2x768 .f32) (harg4 : arg4.IsWhole) (hc0 : ¬cond0_0 i) (hc1 : ¬cond0_1 i)
    (x0 : Vec F S640x512 .f32) (x1 : Vec F S512x768 .f32) (xs0 : Vec F S2x768 .f32) : Vec F S2x768 .f32 :=
  VO0_2.read (Elt F) (VO0_2.writes (Elt F) VO0_2.junk (kernelRun0_B c i arg1 harg1 arg2 harg2 arg3 harg3 arg4 harg4 hc0 hc1 x0 x1 xs0).1)

theorem scover0_B_0 (c : Dev nD) (i : grid0.Coords) (arg1 : Memref sig .tc .vmem S640x512 .f32) (harg1 : arg1.IsWhole) (arg2 : Memref sig .tc .vmem S512x768 .f32) (harg2 : arg2.IsWhole) (arg3 : Memref sig .tc .vmem S2x768 .f32) (harg3 : arg3.IsWhole) (arg4 : Memref sig .tc .vmem S2x768 .f32) (harg4 : arg4.IsWhole) (hc0 : ¬cond0_0 i) (hc1 : ¬cond0_1 i)
    (x0 : Vec F S640x512 .f32) (x1 : Vec F S512x768 .f32) (xs0 : Vec F S2x768 .f32) (y : S2x768.Idx) :
    ∃ pc ∈ (kernelRun0_B c i arg1 harg1 arg2 harg2 arg3 harg3 arg4 harg4 hc0 hc1 x0 x1 xs0).2.1, y ∈ pc.1.set :=
  View.cover_of_tiledBy (kernelRun0_B c i arg1 harg1 arg2 harg2 arg3 harg3 arg4 harg4 hc0 hc1 x0 x1 xs0).2.1 S1x768.size (by sl_kernel_rfl) y

/-- What a middle point leaves in the scratch buffer, over what the point before left. -/
def sout0_B_0 (c : Dev nD) (i : grid0.Coords) (arg1 : Memref sig .tc .vmem S640x512 .f32) (harg1 : arg1.IsWhole) (arg2 : Memref sig .tc .vmem S512x768 .f32) (harg2 : arg2.IsWhole) (arg3 : Memref sig .tc .vmem S2x768 .f32) (harg3 : arg3.IsWhole) (arg4 : Memref sig .tc .vmem S2x768 .f32) (harg4 : arg4.IsWhole) (hc0 : ¬cond0_0 i) (hc1 : ¬cond0_1 i)
    (x0 : Vec F S640x512 .f32) (x1 : Vec F S512x768 .f32) (xs0 : Vec F S2x768 .f32) : Vec F S2x768 .f32 :=
  VS0_0.read (Elt F) (VS0_0.writes (Elt F) VS0_0.junk (kernelRun0_B c i arg1 harg1 arg2 harg2 arg3 harg3 arg4 harg4 hc0 hc1 x0 x1 xs0).2.1)

/-- The last-point case's one store into the output block covers it. -/
theorem cover0_C_2 (c : Dev nD) (i : grid0.Coords) (arg1 : Memref sig .tc .vmem S640x512 .f32) (harg1 : arg1.IsWhole) (arg2 : Memref sig .tc .vmem S512x768 .f32) (harg2 : arg2.IsWhole) (arg3 : Memref sig .tc .vmem S2x768 .f32) (harg3 : arg3.IsWhole) (arg4 : Memref sig .tc .vmem S2x768 .f32) (harg4 : arg4.IsWhole) (hc0 : ¬cond0_0 i) (hc1 : cond0_1 i)
    (x0 : Vec F S640x512 .f32) (x1 : Vec F S512x768 .f32) (xs0 : Vec F S2x768 .f32) (y : S2x768.Idx) :
    ∃ pc ∈ (kernelRun0_C c i arg1 harg1 arg2 harg2 arg3 harg3 arg4 harg4 hc0 hc1 x0 x1 xs0).1, y ∈ pc.1.set :=
  View.cover_of_tiledL (kernelRun0_C c i arg1 harg1 arg2 harg2 arg3 harg3 arg4 harg4 hc0 hc1 x0 x1 xs0).1 S2x768.size (by sl_kernel_rfl) y

/-- What the last point leaves in the output block. -/
def out0_C_2 (c : Dev nD) (i : grid0.Coords) (arg1 : Memref sig .tc .vmem S640x512 .f32) (harg1 : arg1.IsWhole) (arg2 : Memref sig .tc .vmem S512x768 .f32) (harg2 : arg2.IsWhole) (arg3 : Memref sig .tc .vmem S2x768 .f32) (harg3 : arg3.IsWhole) (arg4 : Memref sig .tc .vmem S2x768 .f32) (harg4 : arg4.IsWhole) (hc0 : ¬cond0_0 i) (hc1 : cond0_1 i)
    (x0 : Vec F S640x512 .f32) (x1 : Vec F S512x768 .f32) (xs0 : Vec F S2x768 .f32) : Vec F S2x768 .f32 :=
  VO0_2.read (Elt F) (VO0_2.writes (Elt F) VO0_2.junk (kernelRun0_C c i arg1 harg1 arg2 harg2 arg3 harg3 arg4 harg4 hc0 hc1 x0 x1 xs0).1)

theorem scover0_C_0 (c : Dev nD) (i : grid0.Coords) (arg1 : Memref sig .tc .vmem S640x512 .f32) (harg1 : arg1.IsWhole) (arg2 : Memref sig .tc .vmem S512x768 .f32) (harg2 : arg2.IsWhole) (arg3 : Memref sig .tc .vmem S2x768 .f32) (harg3 : arg3.IsWhole) (arg4 : Memref sig .tc .vmem S2x768 .f32) (harg4 : arg4.IsWhole) (hc0 : ¬cond0_0 i) (hc1 : cond0_1 i)
    (x0 : Vec F S640x512 .f32) (x1 : Vec F S512x768 .f32) (xs0 : Vec F S2x768 .f32) (y : S2x768.Idx) :
    ∃ pc ∈ (kernelRun0_C c i arg1 harg1 arg2 harg2 arg3 harg3 arg4 harg4 hc0 hc1 x0 x1 xs0).2.1, y ∈ pc.1.set :=
  View.cover_of_tiledBy (kernelRun0_C c i arg1 harg1 arg2 harg2 arg3 harg3 arg4 harg4 hc0 hc1 x0 x1 xs0).2.1 S1x768.size (by sl_kernel_rfl) y

def sout0_C_0 (c : Dev nD) (i : grid0.Coords) (arg1 : Memref sig .tc .vmem S640x512 .f32) (harg1 : arg1.IsWhole) (arg2 : Memref sig .tc .vmem S512x768 .f32) (harg2 : arg2.IsWhole) (arg3 : Memref sig .tc .vmem S2x768 .f32) (harg3 : arg3.IsWhole) (arg4 : Memref sig .tc .vmem S2x768 .f32) (harg4 : arg4.IsWhole) (hc0 : ¬cond0_0 i) (hc1 : cond0_1 i)
    (x0 : Vec F S640x512 .f32) (x1 : Vec F S512x768 .f32) (xs0 : Vec F S2x768 .f32) : Vec F S2x768 .f32 :=
  VS0_0.read (Elt F) (VS0_0.writes (Elt F) VS0_0.junk (kernelRun0_C c i arg1 harg1 arg2 harg2 arg3 harg3 arg4 harg4 hc0 hc1 x0 x1 xs0).2.1)

/-! ## What the output block and the scratch buffer hold after each point -/

/-- The accumulation: after the body at position n, the output block's staging buffer and the scratch buffer. -/
def outsAt0 (c : Dev nD) : (n : ℕ) → n < cfg0.N → Vec F S2x768 .f32 × Vec F S2x768 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr rfl) (fun h => (fun h => by (try dsimp only at h); omega) ((hcond0_1 ⟨0, hn⟩).mp h)) (iblk0 V c 0 ⟨0, hn⟩) (iblk0 V c 1 ⟨0, hn⟩),
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr rfl) (fun h => (fun h => by (try dsimp only at h); omega) ((hcond0_1 ⟨0, hn⟩).mp h)) (iblk0 V c 0 ⟨0, hn⟩) (iblk0 V c 1 ⟨0, hn⟩))
  | n + 1, hn =>
    if h1 : n + 1 = 46 then
      (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => Nat.succ_ne_zero n ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2,
        sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => Nat.succ_ne_zero n ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => Nat.succ_ne_zero n ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2,
        sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => Nat.succ_ne_zero n ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val = 0) (h1 : ¬t.val = 46) :
    outsAt0 V c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t),
      sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact absurd h0 (Nat.succ_ne_zero n)

theorem outsAt0_B (c : Dev nD) (t : Fin cfg0.N) (h0 : ¬t.val = 0) (h1 : ¬t.val = 46) :
    outsAt0 V c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2,
      sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact absurd rfl h0
  | succ n => exact (dif_neg h1).trans rfl

theorem outsAt0_C (c : Dev nD) (t : Fin cfg0.N) (h0 : ¬t.val = 0) (h1 : t.val = 46) :
    outsAt0 V c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2,
      sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact absurd rfl h0
  | succ n => exact (dif_pos h1).trans rfl

/-! ## The region invariant -/

/-- Before the first point the class's invariant (the scratch buffer at anything); afterwards the scratch buffer at
    what the point before left in it, the other scoped buffers, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ restS c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2) ∗ restS c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ restS c) ∗ (∃ r, prngReg c r)) := by
  cases n with
  | zero => exact absurd rfl hz
  | succ n => rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 47 := lt_of_lt_of_eq t.isLt (show cfg0.N = 47 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val = 0
  · have h1 : ¬t.val = 46 := by omega
    rw [Dat.leavesExact_idle (dat0 V c) 2 t (idleAt0_2 t (fun h => h1 ((hcond0_1 t).mp h))) (noFlush0_2 t (fun h => h1 ((hcond0_1 t).mp h)))]
    rw [outsAt0_A V c t h0 h1]
    unfold sout0_A_0; (try dsimp only)
    rw [PhiS_castSucc V c t, PhiS_zero V c _ _ h0, PhiA0_eq]
    iintro ⟨⟨⟨HS0, Hrest⟩, Hg⟩, Ho, ⟨%d0, H0⟩, ⟨%d1, H1⟩, ⟨%d2, H2⟩⟩
    iapply ((kernelRun0_A c (grid0.coords t) _ _ _ _ _ _ _ _ ((hcond0_0 t).mpr h0) (fun h => h1 ((hcond0_1 t).mp h)) (iblk0 V c 0 t) (iblk0 V c 1 t)).2.2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover0_A_0 c _ _ _ _ _ _ _ _ _ _ _ _ _)
        iexact Hrest
      iexact Hg
    isplitl [Ho]; · iexact Ho
    isplitl [H0]; · iexact H0
    isplitl [H1]; · iexact H1
    iexists _; iexact H2
  · by_cases h1 : t.val = 46
    · rw [show (dat0 V c).leavesExact 2 t = owns (c : Thread nD τ) (ms0_2 t) fullShare ((dat0 V c).after 2 t) from by
        unfold Dat.leavesExact; rw [liveAt0_2 t ((hcond0_1 t).mpr h1)], after0_2]
      rw [outsAt0_C V c t h0 h1]
      unfold out0_C_2 sout0_C_0; (try dsimp only)
      rw [PhiS_castSucc V c t, PhiS_pos V c _ _ h0]
      iintro ⟨⟨⟨HS0, Hrest⟩, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_C_0 c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [Dat.leavesExact_idle (dat0 V c) 2 t (idleAt0_2 t (fun h => h1 ((hcond0_1 t).mp h))) (noFlush0_2 t (fun h => h1 ((hcond0_1 t).mp h)))]
      rw [outsAt0_B V c t h0 h1]
      unfold sout0_B_0; (try dsimp only)
      rw [PhiS_castSucc V c t, PhiS_pos V c _ _ h0]
      iintro ⟨⟨⟨HS0, Hrest⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_B_0 c _ _ _ _ _ _ _ _ _ _ _ _ _ _)
          iexact Hrest
        iexact Hg
      isplitl [Ho]; · iexact Ho
      isplitl [H0]; · iexact H0
      isplitl [H1]; · iexact H1
      iexists _; iexact H2

theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the class's back: the scratch buffer's contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, Hrest⟩, Hg⟩
  isplitl [HS0 Hrest]
  · isplitl [HS0]
    · iexists _; iexact HS0
    iexact Hrest
  iexact Hg

theorem hout0 (c : Dev nD) : (dat0 V c).Φ (Fin.last cfg0.N) ⊢ Pipeline.ΦA spec0 c :=
  Phi_out0 V c _ (by rw [Fin.val_last]; have : cfg0.N = 47 := N_0; omega)

end Cert.KernelIdeal.Fr

end
-- ==== Proof.KI.Reg1.lean ====
/-
  The second kernel region (the prototype builder) at a parameter V, the buffer contents the region is
  entered from: at grid point t the body reads 640 rows of the padded vocabulary matrix, the two weight matrices,
  the bias row and the scale and shift rows of the batch normalisation, and stores the 640 normalised prototype
  rows. Stated here: what the body leaves in the output's staging buffer as a function of the six input blocks, the
  body's triple, the pipeline's proof data and the body obligation at every point.
-/
import proofs.«115421_j19954418057708_1_alg».proof.Proof.Gen.KernelIdeal.Launch
import proofs.«115421_j19954418057708_1_alg».proof.Proof.Gen.KernelIdeal.Skeleton
import proofs.«115421_j19954418057708_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S640x512 := Rect.unit (s := S640x512) ![0, 0] S640x512.size inb_S640x512_S640x512_0_0
abbrev r1_1 : Rect S512x768 := Rect.unit (s := S512x768) ![0, 0] S512x768.size inb_S512x768_S512x768_0_0
abbrev r1_2 : Rect S768x768 := Rect.unit (s := S768x768) ![0, 0] S768x768.size inb_S768x768_S768x768_0_0
abbrev r1_3 : Rect S1x768 := Rect.unit (s := S1x768) ![0, 0] S1x768.size inb_S1x768_S1x768_0_0
abbrev r1_4 : Rect S640x768 := Rect.unit (s := S640x768) ![0, 0] S640x768.size inb_S640x768_S640x768_0_0

/-- The output block after the body, from the six input blocks: its one store as a piece. -/
def out1_6 (x0 : Vec F S640x512 .f32) (x1 : Vec F S512x768 .f32) (x2 : Vec F S768x768 .f32) (x3 : Vec F S1x768 .f32) (x4 : Vec F S1x768 .f32) (x5 : Vec F S1x768 .f32) : Vec F S640x768 .f32 :=
  View.canon [⟨r1_4, k1_pay1 (View.ld x0 r1_0) (View.ld x1 r1_1) (View.ld x4 r1_3) (View.ld x5 r1_3) (View.ld x2 r1_2) (View.ld x3 r1_3)⟩]

theorem cover1_6 (p0 : Vec F S640x768 .f32) (y : S640x768.Idx) :
    ∃ pc ∈ ([⟨r1_4, p0⟩] : List (View.Piece (Elt F) S640x768 .f32)), y ∈ pc.1.set :=
  View.cover_of_tiled [⟨r1_4, p0⟩] S640x768.size (by rfl) y

set_option maxHeartbeats 1000000 in
/-- The body on whole staging memrefs, the inputs at read contents and the output at anything, runs to the
    continuation holding the inputs as they were and the output at out1_6 of them. -/
theorem sound_kernel1 (c : Dev nD) (E : Set ℕ) (i : grid1.Coords) (arg0 : Memref sig .tc .vmem S640x512 .f32) (harg0 : arg0.IsWhole) (arg1 : Memref sig .tc .vmem S512x768 .f32) (harg1 : arg1.IsWhole) (arg2 : Memref sig .tc .vmem S768x768 .f32) (harg2 : arg2.IsWhole) (arg3 : Memref sig .tc .vmem S1x768 .f32) (harg3 : arg3.IsWhole) (arg4 : Memref sig .tc .vmem S1x768 .f32) (harg4 : arg4.IsWhole) (arg5 : Memref sig .tc .vmem S1x768 .f32) (harg5 : arg5.IsWhole) (arg6 : Memref sig .tc .vmem S640x768 .f32) (harg6 : arg6.IsWhole)
    (x0 : Vec F S640x512 .f32) (x1 : Vec F S512x768 .f32) (x2 : Vec F S768x768 .f32) (x3 : Vec F S1x768 .f32) (x4 : Vec F S1x768 .f32) (x5 : Vec F S1x768 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out1_6 x0 x1 x2 x3 x4 x5)) -∗ K ⟨⟩))
      ⊢ wp frame (wpE (defs₀ (F := F)) Variants.none c none) E (cc1__proto_kernel i arg0 harg0 arg1 harg1 arg2 harg2 arg3 harg3 arg4 harg4 arg5 harg5 arg6 harg6) K := by
  simp only [cc1__proto_kernel_eq_skeleton]; unfold cc1__proto_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover1_6 _)

/-- The proof data of the second pipeline on core c: the arrays as the region finds them; after the body at
    point t each input's buffer at its block and the output's at out1_6 of the input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.Reg2.lean ====
/-
  The third kernel region (the scoring kernel) at a parameter V, the buffer contents the region is entered
  from: at grid point t the body reads the whole matrix of normalised patch rows [8192,768] and the 128
  prototype rows of block t, and stores into the output block [8,128] the maximum over the 1024 patches of each
  batch entry of the products patch row · prototype row. Stated here: what the body leaves in the output's
  staging buffer as a function of the two input blocks, the body's triple, the pipeline's proof data and the
  body obligation at every point.
-/
import proofs.«115421_j19954418057708_1_alg».proof.Proof.Gen.KernelIdeal.Launch
import proofs.«115421_j19954418057708_1_alg».proof.Proof.Gen.KernelIdeal.Skeleton
import proofs.«115421_j19954418057708_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S128x768 := Rect.unit (s := S128x768) ![0, 0] S128x768.size inb_S128x768_S128x768_0_0
abbrev r2_1 : Rect S8192x768 := Rect.unit (s := S8192x768) ![0, 0] S8192x768.size inb_S8192x768_S8192x768_0_0
abbrev r2_2 : Rect S8x128 := Rect.unit (s := S8x128) ![0, 0] S8x128.size inb_S8x128_S8x128_0_0

/-- The output block after the body, from the two input blocks: its one store as a piece. -/
def out2_2 (x0 : Vec F S8192x768 .bf16) (x1 : Vec F S128x768 .f32) : Vec F S8x128 .f32 :=
  View.canon [⟨r2_2, k2_pay1 (View.ld x1 r2_0) (View.ld x0 r2_1)⟩]

theorem cover2_2 (p0 : Vec F S8x128 .f32) (y : S8x128.Idx) :
    ∃ pc ∈ ([⟨r2_2, p0⟩] : List (View.Piece (Elt F) S8x128 .f32)), y ∈ pc.1.set :=
  View.cover_of_tiled [⟨r2_2, p0⟩] S8x128.size (by rfl) y

set_option maxHeartbeats 1000000 in
/-- The body on whole staging memrefs, the inputs at read contents and the output at anything, runs to the
    continuation holding the inputs as they were and the output at out2_2 of them. -/
theorem sound_kernel2 (c : Dev nD) (E : Set ℕ) (i : grid2.Coords) (arg0 : Memref sig .tc .vmem S8192x768 .bf16) (harg0 : arg0.IsWhole) (arg1 : Memref sig .tc .vmem S128x768 .f32) (harg1 : arg1.IsWhole) (arg2 : Memref sig .tc .vmem S8x128 .f32) (harg2 : arg2.IsWhole)
    (x0 : Vec F S8192x768 .bf16) (x1 : Vec F S128x768 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 x0 x1)) -∗ K ⟨⟩))
      ⊢ wp frame (wpE (defs₀ (F := F)) Variants.none c none) E (cc2__main_kernel i arg0 harg0 arg1 harg1 arg2 harg2) K := by
  simp only [cc2__main_kernel_eq_skeleton]; unfold cc2__main_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover2_2 _)

/-- The proof data of the third pipeline on core c: the arrays as the region finds them; after the body at
    point t each input's buffer at its block and the output's at out2_2 of the input blocks. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KI.Run.lean ====
/-
  The whole run of the program: its nine items in order — two short host stretches (the padding of the vocabulary
  matrix), the statistics kernel, the host stretch that turns the two accumulated rows into the scale and shift rows
  of the batch normalisation, the prototype kernel, two host stretches that normalise the patch rows, the scoring kernel,
  and the closing host stretch (the slice to the true vocabulary and the softmax). The buffer contents at every
  boundary between items are a fold from the launch memory: a host stretch applies its operations, a kernel region
  leaves its arrays at what its write-backs make of them and every other buffer as it found it. Every weakly fair
  execution terminates without a fault, and the final memory holds every unscoped buffer at the fold's last value.
-/
import proofs.«115421_j19954418057708_1_alg».proof.Proof.KI.Reg0
import proofs.«115421_j19954418057708_1_alg».proof.Proof.KI.Reg1
import proofs.«115421_j19954418057708_1_alg».proof.Proof.KI.Reg2
import proofs.«115421_j19954418057708_1_alg».proof.Proof.Gen.KernelIdeal.Regions

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev V2 : (c : Dev nD) → (b : Ref sig .tc) → Buf (Elt F) ((c : Thread nD τ).loc b) := fun c b => W2 m ρ c b

/-- At region 0's exit: its arrays at what the pipeline leaves, every other buffer as entered. -/
def W3 (c : Dev nD) : Valuation τ sig (Elt F) :=
  Pipeline.withArrays spec0 c (W2 m ρ c) fun w => (dat0 (V2 m ρ) c).arrAt w cfg0.N
theorem W3_arr (c : Dev nD) (w : Fin cfg0.W) :
    W3 m ρ c (Proc.devRef .tc (Pipeline.arrRef spec0 w)) = (dat0 (V2 m ρ) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m ρ c (Proc.devRef .tc b) = W2 m ρ c (Proc.devRef .tc b) := by
  unfold W3; exact Pipeline.withArrays_of_ne spec0 c _ _ b hb
abbrev V3 : (c : Dev nD) → (b : Ref sig .tc) → Buf (Elt F) ((c : Thread nD τ).loc b) := fun c b => W3 m ρ c b
theorem hF0 (c : Dev nD) (w : Fin cfg0.W) : (dat0 (V2 m ρ) c).arrAt w cfg0.N = V3 m ρ c (Pipeline.arrRef spec0 w) :=
  (W3_arr m ρ c w).symm
theorem hrest0 (c : Dev nD) : ∀ b, b ∉ Finset.univ.image (Pipeline.arrRef spec0) → V3 m ρ c b = V2 m ρ c b :=
  fun b hb => W3_of_ne m ρ c b fun w e => hb (Finset.mem_image.mpr ⟨w, Finset.mem_univ _, e⟩)

abbrev W4 : Dev nD → Valuation τ sig (Elt F) := fun c => StableHlo.after hostOps1 (W3 m ρ c)
abbrev V4 : (c : Dev nD) → (b : Ref sig .tc) → Buf (Elt F) ((c : Thread nD τ).loc b) := fun c b => W4 m ρ c b

/-- At region 1's exit: its arrays at what the pipeline leaves, every other buffer as entered. -/
def W5 (c : Dev nD) : Valuation τ sig (Elt F) :=
  Pipeline.withArrays spec1 c (W4 m ρ c) fun w => (dat1 (V4 m ρ) c).arrAt w cfg1.N
theorem W5_arr (c : Dev nD) (w : Fin cfg1.W) :
    W5 m ρ c (Proc.devRef .tc (Pipeline.arrRef spec1 w)) = (dat1 (V4 m ρ) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
abbrev V5 : (c : Dev nD) → (b : Ref sig .tc) → Buf (Elt F) ((c : Thread nD τ).loc b) := fun c b => W5 m ρ c b
theorem hF1 (c : Dev nD) (w : Fin cfg1.W) : (dat1 (V4 m ρ) c).arrAt w cfg1.N = V5 m ρ c (Pipeline.arrRef spec1 w) :=
  (W5_arr m ρ c w).symm
theorem hrest1 (c : Dev nD) : ∀ b, b ∉ Finset.univ.image (Pipeline.arrRef spec1) → V5 m ρ c b = V4 m ρ c b :=
  fun b hb => W5_of_ne m ρ c b fun w e => hb (Finset.mem_image.mpr ⟨w, Finset.mem_univ _, e⟩)

abbrev W6 : Dev nD → Valuation τ sig (Elt F) := fun c => StableHlo.after hostOps2 (W5 m ρ c)
abbrev W7 : Dev nD → Valuation τ sig (Elt F) := fun c => StableHlo.after hostOps2_1 (W6 m ρ c)
abbrev V7 : (c : Dev nD) → (b : Ref sig .tc) → Buf (Elt F) ((c : Thread nD τ).loc b) := fun c b => W7 m ρ c b

/-- At region 2's exit: its arrays at what the pipeline leaves, every other buffer as entered. -/
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
abbrev V8 : (c : Dev nD) → (b : Ref sig .tc) → Buf (Elt F) ((c : Thread nD τ).loc b) := fun c b => W8 m ρ c b
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)

abbrev W9 : Dev nD → Valuation τ sig (Elt F) := fun c => StableHlo.after hostOps3 (W8 m ρ c)

/-! ## The proof data family and the thread state -/

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V2 m ρ) c
  | ⟨1, _⟩ => fun c => dat1 (V4 m ρ) c
  | ⟨2, _⟩ => fun c => dat2 (V7 m ρ) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W9 m ρ c) ∗ ∃ r, prngReg c r)

/-! ## The regions as segments -/

set_option backward.isDefEq.respectTransparency.types false in
/-- Region 0 over the thread state: entered from every unscoped buffer at W2, left at W3. Its arrays are split
    out of the unscoped buffers and put back at the exit contents; the generator register goes into the region invariant and
    comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V2 m ρ) c).loose
  hwaits := Pipeline.hwaits_of_owed_zero _ _ _ _ L lv 0 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec0 c (V2 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from hout0 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V2 m ρ c) (V3 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W4, left at W5. Its arrays are split
    out of the unscoped buffers and put back at the exit contents; the generator register goes into the region invariant and
    comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m ρ) c).loose
  hwaits := Pipeline.hwaits_of_owed_zero _ _ _ _ L lv 1 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from .rfl).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V4 m ρ c) (V5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at W7, left at W8. Its arrays are split
    out of the unscoped buffers and put back at the exit contents; the generator register goes into the region invariant and
    comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (show (pdats m ρ 2 c).Φ (Fin.last _) ⊢ Pipeline.ΦA spec2 c from .rfl).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The items in order, and the run -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .region (reg0 m ρ),
    .host (hseg hostOps1 hostOps1_sub hostOps1_fresh (W3 m ρ)),
    .region (reg1 m ρ),
    .host (hseg hostOps2 hostOps2_sub hostOps2_fresh (W5 m ρ)),
    .host (hseg hostOps2_1 hostOps2_1_sub hostOps2_1_fresh (W6 m ρ)),
    .region (reg2 m ρ),
    .host (hseg hostOps3 hostOps3_sub hostOps3_fresh (W8 m ρ)) ]

theorem main_run (c : Dev nD) : main (F := F) c = Pipeline.Seg.run (segs m ρ) := (main_chain c).trans (by chain_rfl)

set_option backward.isDefEq.respectTransparency.types false in
/-- From any memory with zero counters every weakly fair execution of the program terminates, nothing faulting, and the
    final memory holds every unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W9 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

end Cert.KernelIdeal.Fr

end
-- ==== Proof.KI.Args.lean ====
/-
  The argument arrays reach the end of the run as launched: no host operation writes one, and a kernel region leaves an
  array it only reads at what it found.
-/
import proofs.«115421_j19954418057708_1_alg».proof.Proof.KI.Run

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W2_keep (c : Dev nD) (r : Ref sig .tc) (h0 : r ∉ hostOps0_W) (h1 : r ∉ hostOps0_1_W) :
    W2 m ρ c r = m ((c : Thread nD τ).loc r) :=
  (StableHlo.after_of_writes_sub hostOps0_1 _ hostOps0_1_writes h1).trans
    ((StableHlo.after_of_writes_sub hostOps0 _ hostOps0_writes h0).trans rfl)

theorem W9_keep (c : Dev nD) (r : Ref sig .tc) (h0 : r ∉ hostOps0_W) (h01 : r ∉ hostOps0_1_W) (h1 : r ∉ hostOps1_W)
    (h2 : r ∉ hostOps2_W) (h21 : r ∉ hostOps2_1_W) (h3 : r ∉ hostOps3_W)
    (e3 : W3 m ρ c r = W2 m ρ c r) (e5 : W5 m ρ c r = W4 m ρ c r) (e8 : W8 m ρ c r = W7 m ρ c r) :
    W9 m ρ c r = m ((c : Thread nD τ).loc r) :=
  (StableHlo.after_of_writes_sub hostOps3 _ hostOps3_writes h3).trans <| e8.trans <|
    (StableHlo.after_of_writes_sub hostOps2_1 _ hostOps2_1_writes h21).trans <|
    (StableHlo.after_of_writes_sub hostOps2 _ hostOps2_writes h2).trans <| e5.trans <|
    (StableHlo.after_of_writes_sub hostOps1 _ hostOps1_writes h1).trans <| e3.trans <| W2_keep m ρ c r h0 h01

theorem W9_main_arg0 (c : Dev nD) : W9 m ρ c main_arg0 = m ((c : Thread nD τ).loc main_arg0) :=
  W9_keep m ρ c main_arg0 (by decide) (by decide) (by decide) (by decide) (by decide) (by decide)
    (W3_of_ne m ρ c main_arg0 (by decide))
    (W5_of_ne m ρ c main_arg0 (by decide))
    (W8_of_ne m ρ c main_arg0 (by decide))

theorem W9_main_arg1 (c : Dev nD) : W9 m ρ c main_arg1 = m ((c : Thread nD τ).loc main_arg1) :=
  W9_keep m ρ c main_arg1 (by decide) (by decide) (by decide) (by decide) (by decide) (by decide)
    (W3_of_ne m ρ c main_arg1 (by decide))
    (W5_of_ne m ρ c main_arg1 (by decide))
    (W8_of_ne m ρ c main_arg1 (by decide))

theorem W9_main_arg2 (c : Dev nD) : W9 m ρ c main_arg2 = m ((c : Thread nD τ).loc main_arg2) :=
  W9_keep m ρ c main_arg2 (by decide) (by decide) (by decide) (by decide) (by decide) (by decide)
    ((W3_arr m ρ c 1).trans (((dat0 (V2 m ρ) c).arrAt_in 1 rfl _).trans (A_eq0 (V2 m ρ) c 1)))
    ((W5_arr m ρ c 1).trans (((dat1 (V4 m ρ) c).arrAt_in 1 rfl _).trans (A_eq1 (V4 m ρ) c 1)))
    (W8_of_ne m ρ c main_arg2 (by decide))

theorem W9_main_arg3 (c : Dev nD) : W9 m ρ c main_arg3 = m ((c : Thread nD τ).loc main_arg3) :=
  W9_keep m ρ c main_arg3 (by decide) (by decide) (by decide) (by decide) (by decide) (by decide)
    (W3_of_ne m ρ c main_arg3 (by decide))
    (W5_of_ne m ρ c main_arg3 (by decide))
    (W8_of_ne m ρ c main_arg3 (by decide))

theorem W9_main_arg4 (c : Dev nD) : W9 m ρ c main_arg4 = m ((c : Thread nD τ).loc main_arg4) :=
  W9_keep m ρ c main_arg4 (by decide) (by decide) (by decide) (by decide) (by decide) (by decide)
    (W3_of_ne m ρ c main_arg4 (by decide))
    (W5_of_ne m ρ c main_arg4 (by decide))
    (W8_of_ne m ρ c main_arg4 (by decide))

theorem W9_main_arg5 (c : Dev nD) : W9 m ρ c main_arg5 = m ((c : Thread nD τ).loc main_arg5) :=
  W9_keep m ρ c main_arg5 (by decide) (by decide) (by decide) (by decide) (by decide) (by decide)
    (W3_of_ne m ρ c main_arg5 (by decide))
    ((W5_arr m ρ c 2).trans (((dat1 (V4 m ρ) c).arrAt_in 2 rfl _).trans (A_eq1 (V4 m ρ) c 2)))
    (W8_of_ne m ρ c main_arg5 (by decide))

theorem W9_main_arg6 (c : Dev nD) : W9 m ρ c main_arg6 = m ((c : Thread nD τ).loc main_arg6) :=
  W9_keep m ρ c main_arg6 (by decide) (by decide) (by decide) (by decide) (by decide) (by decide)
    (W3_of_ne m ρ c main_arg6 (by decide))
    (W5_of_ne m ρ c main_arg6 (by decide))
    (W8_of_ne m ρ c main_arg6 (by decide))

end Cert.KernelIdeal.Fr

end
-- ==== Proof.KI.Host.lean ====
/-
  The host stretches of the kernel's program, read over the extended reals. Between the kernel regions the program
  pads the vocabulary matrix with 80 zero rows; turns the two accumulated rows S into the batch normalisation's rows —
  mean = S₀ / 30000, scale = γ / √(S₁ / 30000 − mean² + ε), shift = β − mean · scale —; normalises the patch rows and
  regroups them as 8192 rows; and after the scoring kernel keeps the first 30000 columns and applies the softmax of the
  scores divided by the temperature. Each array a kernel region is entered with, and the program's result, is written
  here as those operations applied to the argument arrays and to what the earlier regions leave.
-/
import proofs.«115421_j19954418057708_1_alg».proof.Proof.KI.Run
import Idealize.ShloMosaic.Lib.StableHlo.Run
import Idealize.ShloMosaic.PureOps.Ideal

set_option maxRecDepth 16384

noncomputable section

open Idealize.ShloMosaic Idealize.ShloMosaic.TcCoe Idealize.SL.Sem Idealize.ShloMosaic.StableHlo
open Idealize.ShloMosaic.Pipeline (Dat)

namespace Cert.KernelIdeal.Fr

open Cert.KernelIdeal Cert.KernelIdeal.Gen

/-! ## The host operations as functions -/

/-- The vocabulary matrix with 80 zero rows below it. -/
def padX (x : FVec Ideal S30000x512 .f32) : FVec Ideal S30080x512 .f32 :=
  pad S30080x512 ![0, 0] ![80, 0] ![0, 0] x (sitofp (F := Ideal) .f32 (constantI S_ 32 0#32)) pads_S30000x512_S30080x512_0800_000 h_S_

def kMean (S : FVec Ideal S2x768 .f32) : FVec Ideal S768 .f32 :=
  Host.divf (shapeCast S768 (extractStridedSlice S1x768 ![0, 0] S slices_S2x768_S1x768_0_0) shapeCasts_S1x768_S768)
    (broadcastInDim S768 ![] bcast_S_S768 (constant (F := Ideal) S_ .f32 0x46EA6000#32))

def kEx2 (S : FVec Ideal S2x768 .f32) : FVec Ideal S768 .f32 :=
  Host.divf (shapeCast S768 (extractStridedSlice S1x768 ![1, 0] S slices_S2x768_S1x768_1_0) shapeCasts_S1x768_S768)
    (broadcastInDim S768 ![] bcast_S_S768 (constant (F := Ideal) S_ .f32 0x46EA6000#32))

def kScale (S : FVec Ideal S2x768 .f32) (g : FVec Ideal S768 .f32) : FVec Ideal S768 .f32 :=
  Host.divf g (Host.sqrt (addf (subf (kEx2 S) (mulf (kMean S) (kMean S)))
    (broadcastInDim S768 ![] bcast_S_S768 (constant (F := Ideal) S_ .f32 0x3727C5AC#32))))

def kShift (S : FVec Ideal S2x768 .f32) (g b : FVec Ideal S768 .f32) : FVec Ideal S768 .f32 :=
  subf b (mulf (kMean S) (kScale S g))

/-- The patch rows, each divided by the larger of its norm and the floor, regrouped as 8192 rows. -/
def ptnK (a : FVec Ideal S8x1024x768 .f32) : FVec Ideal S8192x768 .bf16 :=
  truncf .bf16 (shapeCast S8192x768 (Host.divf a (broadcastInDim S8x1024x768 ![0, 1, 2] bcast_S8x1024x1_S8x1024x768_0_1_2
    (maximumf (Host.sqrt (broadcastInDim S8x1024x1 ![0, 1] bcast_S8x1024_S8x1024x1_0_1
      (Host.reduceAdd (mulf a a) (constant (F := Ideal) S_ .f32 0x00000000#32) reducesTo_S8x1024x768_S8x1024_d2 h_S_)))
      (broadcastInDim S8x1024x1 ![] bcast_S_S8x1024x1 (constant (F := Ideal) S_ .f32 0x2B8CBCCC#32)))))
    shapeCasts_S8x1024x768_S8192x768) bitsLt_bf16_f32

/-- The softmax of the scores divided by the temperature. -/
def tailK (L : FVec Ideal S8x30000 .f32) : FVec Ideal S8x30000 .f32 :=
  Host.divf
    (Host.exp (subf (Host.divf L (broadcastInDim S8x30000 ![] bcast_S_S8x30000 (constant (F := Ideal) S_ .f32 0x3E4CCCCD#32)))
      (broadcastInDim S8x30000 ![0, 1] bcast_S8x1_S8x30000_0_1 (broadcastInDim S8x1 ![0] bcast_S8_S8x1_0
        (maximumf (broadcastInDim S8 ![] bcast_S_S8 (constant (F := Ideal) S_ .f32 0xFF800000#32))
          (Host.reduce FloatOps.maximumf (Host.divf L (broadcastInDim S8x30000 ![] bcast_S_S8x30000 (constant (F := Ideal) S_ .f32 0x3E4CCCCD#32)))
            (constant (F := Ideal) S_ .f32 0xFF800000#32) reducesTo_S8x30000_S8_d1 h_S_))))))
    (broadcastInDim S8x30000 ![0, 1] bcast_S8x1_S8x30000_0_1 (broadcastInDim S8x1 ![0] bcast_S8_S8x1_0
      (Host.reduceAdd
        (Host.exp (subf (Host.divf L (broadcastInDim S8x30000 ![] bcast_S_S8x30000 (constant (F := Ideal) S_ .f32 0x3E4CCCCD#32)))
          (broadcastInDim S8x30000 ![0, 1] bcast_S8x1_S8x30000_0_1 (broadcastInDim S8x1 ![0] bcast_S8_S8x1_0
            (maximumf (broadcastInDim S8 ![] bcast_S_S8 (constant (F := Ideal) S_ .f32 0xFF800000#32))
              (Host.reduce FloatOps.maximumf (Host.divf L (broadcastInDim S8x30000 ![] bcast_S_S8x30000 (constant (F := Ideal) S_ .f32 0x3E4CCCCD#32)))
                (constant (F := Ideal) S_ .f32 0xFF800000#32) reducesTo_S8x30000_S8_d1 h_S_))))))
        (constant (F := Ideal) S_ .f32 0x00000000#32) reducesTo_S8x30000_S8_d1 h_S_)))

variable (m : (ℓ : Loc nD τ sig) → Buf (Elt Ideal) ℓ) (ρ : Dev nD → PrngReg)

/-! ## What the first region is entered with -/

theorem V2_v0 (c : Dev nD) : V2 m ρ c main_v0 = padX (m ((c : Thread nD τ).loc main_arg1)) := by
  show StableHlo.after hostOps0_1 (StableHlo.after hostOps0 (W0 m ρ c)) (Proc.devRef .tc main_v0) = _
  after_results
  rfl

theorem W2_of (c : Dev nD) (r : Ref sig .tc) (h0 : r ∉ hostOps0_W) (h1 : r ∉ hostOps0_1_W) :
    W2 m ρ c r = m ((c : Thread nD τ).loc r) :=
  (StableHlo.after_of_writes_sub hostOps0_1 _ hostOps0_1_writes h1).trans
    ((StableHlo.after_of_writes_sub hostOps0 _ hostOps0_writes h0).trans rfl)

/-! ## After the first region -/

theorem W3_v1 (c : Dev nD) : W3 m ρ c main_v1 = (dat0 (V2 m ρ) c).arrAt 2 cfg0.N := W3_arr m ρ c 2

theorem W3_v0 (c : Dev nD) : W3 m ρ c main_v0 = padX (m ((c : Thread nD τ).loc main_arg1)) :=
  (W3_arr m ρ c 0).trans (((dat0 (V2 m ρ) c).arrAt_in 0 rfl _).trans ((A_eq0 (V2 m ρ) c 0).trans (V2_v0 m ρ c)))

theorem W3_arg2 (c : Dev nD) : W3 m ρ c main_arg2 = m ((c : Thread nD τ).loc main_arg2) :=
  (W3_arr m ρ c 1).trans (((dat0 (V2 m ρ) c).arrAt_in 1 rfl _).trans ((A_eq0 (V2 m ρ) c 1).trans (W2_of m ρ c main_arg2 (by decide) (by decide))))

theorem W3_of (c : Dev nD) (r : Ref sig .tc) (hr : ∀ w, Pipeline.arrRef spec0 w ≠ r) (h0 : r ∉ hostOps0_W) (h1 : r ∉ hostOps0_1_W) :
    W3 m ρ c r = m ((c : Thread nD τ).loc r) :=
  (W3_of_ne m ρ c r hr).trans (W2_of m ρ c r h0 h1)

/-! ## What the second region is entered with -/

theorem V4_of (c : Dev nD) (r : Ref sig .tc) (h : r ∉ hostOps1_W) : V4 m ρ c r = W3 m ρ c r :=
  StableHlo.after_of_writes_sub hostOps1 _ hostOps1_writes h

set_option maxHeartbeats 1000000 in
theorem V4_v18 (c : Dev nD) : V4 m ρ c main_v18
    = shapeCast S1x768 (kScale (W3 m ρ c main_v1) (W3 m ρ c main_arg3)) shapeCasts_S768_S1x768 := by
  show StableHlo.after hostOps1 (W3 m ρ c) (Proc.devRef .tc main_v18) = _
  generalize W3 m ρ c = X
  after_results_simp
  rfl

set_option maxHeartbeats 1000000 in
theorem V4_v19 (c : Dev nD) : V4 m ρ c main_v19
    = shapeCast S1x768 (kShift (W3 m ρ c main_v1) (W3 m ρ c main_arg3) (W3 m ρ c main_arg4)) shapeCasts_S768_S1x768 := by
  show StableHlo.after hostOps1 (W3 m ρ c) (Proc.devRef .tc main_v19) = _
  generalize W3 m ρ c = X
  after_results_simp
  rfl

set_option maxHeartbeats 1000000 in
theorem V4_v20 (c : Dev nD) : V4 m ρ c main_v20 = shapeCast S1x768 (W3 m ρ c main_arg6) shapeCasts_S768_S1x768 := by
  show StableHlo.after hostOps1 (W3 m ρ c) (Proc.devRef .tc main_v20) = _
  generalize W3 m ρ c = X
  after_results_simp
  rfl

/-! ## After the second region, and what the third is entered with -/

theorem W5_v21 (c : Dev nD) : W5 m ρ c main_v21 = (dat1 (V4 m ρ) c).arrAt 6 cfg1.N := W5_arr m ρ c 6

theorem W5_arg0 (c : Dev nD) : W5 m ρ c main_arg0 = m ((c : Thread nD τ).loc main_arg0) :=
  (W5_of_ne m ρ c main_arg0 (by decide)).trans ((V4_of m ρ c main_arg0 (by decide)).trans (W3_of m ρ c main_arg0 (by decide) (by decide) (by decide)))

set_option maxHeartbeats 1000000 in
theorem V7_v28 (c : Dev nD) : V7 m ρ c main_v28 = ptnK (W5 m ρ c main_arg0) := by
  show StableHlo.after hostOps2_1 (StableHlo.after hostOps2 (W5 m ρ c)) (Proc.devRef .tc main_v28) = _
  generalize W5 m ρ c = X
  after_results_simp
  rfl

theorem V7_v21 (c : Dev nD) : V7 m ρ c main_v21 = W5 m ρ c main_v21 :=
  (StableHlo.after_of_writes_sub hostOps2_1 _ hostOps2_1_writes (by decide)).trans
    (StableHlo.after_of_writes_sub hostOps2 _ hostOps2_writes (by decide))

/-! ## After the third region, and the result -/

theorem W8_v29 (c : Dev nD) : W8 m ρ c main_v29 = (dat2 (V7 m ρ) c).arrAt 2 cfg2.N := W8_arr m ρ c 2

set_option maxHeartbeats 1000000 in
theorem W9_v43 (c : Dev nD) : W9 m ρ c main_v43
    = tailK (extractStridedSlice S8x30000 ![0, 0] (W8 m ρ c main_v29) slices_S8x30080_S8x30000_0_0) := by
  show StableHlo.after hostOps3 (W8 m ρ c) (Proc.devRef .tc main_v43) = _
  generalize W8 m ρ c = X
  after_results_simp
  rfl

/-- The arguments reach the end as launched. -/
theorem W9_arg (c : Dev nD) (r : Ref sig .tc) (h0 : r ∉ hostOps0_W) (h01 : r ∉ hostOps0_1_W) (h1 : r ∉ hostOps1_W)
    (h2 : r ∉ hostOps2_W) (h21 : r ∉ hostOps2_1_W) (h3 : r ∉ hostOps3_W)
    (e3 : W3 m ρ c r = W2 m ρ c r) (e5 : W5 m ρ c r = W4 m ρ c r) (e8 : W8 m ρ c r = W7 m ρ c r) :
    W9 m ρ c r = m ((c : Thread nD τ).loc r) :=
  (StableHlo.after_of_writes_sub hostOps3 _ hostOps3_writes h3).trans <| e8.trans <|
    (StableHlo.after_of_writes_sub hostOps2_1 _ hostOps2_1_writes h21).trans <|
    (StableHlo.after_of_writes_sub hostOps2 _ hostOps2_writes h2).trans <| e5.trans <|
    (StableHlo.after_of_writes_sub hostOps1 _ hostOps1_writes h1).trans <| e3.trans <| W2_of m ρ c r h0 h01

end Cert.KernelIdeal.Fr

end
-- ==== Proof.KI.Val0a.lean ====
/-
  The statistics kernel's scratch buffer point by point. One grid point's update of the two running rows, as a
  function of the point's two input blocks and of what the scratch buffer held: row 0 gets the column sums of the
  block's products added, row 1 the column sums of their squares. Each of the three control cases leaves the
  scratch buffer at that update (the first-point case from the cleared buffer), and the last-point case copies the
  updated buffer into the output block. So after point n the scratch buffer holds the n+1 updates applied in order
  to the cleared buffer.
-/
import proofs.«115421_j19954418057708_1_alg».proof.Proof.KI.Reg0
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic
open Idealize.ShloMosaic.Pipeline (Dat)

namespace Cert.KernelIdeal.Fr

open Cert.KernelIdeal Cert.KernelIdeal.Gen

variable {F : FTy → Type} [FloatOps F]

abbrev rRow0 : Rect S2x768 := Rect.unit (s := S2x768) ![0, 0] S1x768.size inb_S2x768_S1x768_0_0
abbrev rRow1 : Rect S2x768 := Rect.unit (s := S2x768) ![1, 0] S1x768.size inb_S2x768_S1x768_1_0
abbrev rBlkA : Rect S640x512 := Rect.unit (s := S640x512) ![0, 0] S640x512.size inb_S640x512_S640x512_0_0
abbrev rBlkB : Rect S512x768 := Rect.unit (s := S512x768) ![0, 0] S512x768.size inb_S512x768_S512x768_0_0
abbrev rAll : Rect S2x768 := Rect.unit (s := S2x768) ![0, 0] S2x768.size inb_S2x768_S2x768_0_0

/-- One grid point's update of the two running rows. -/
def step0 (x0 : Vec F S640x512 .f32) (x1 : Vec F S512x768 .f32) (xs : Vec F S2x768 .f32) : Vec F S2x768 .f32 :=
  View.canon [⟨rRow1, k0_pay4 (View.ld x0 rBlkA) (View.ld x1 rBlkB) (View.ld xs rRow1)⟩,
    ⟨rRow0, k0_pay3 (View.ld x0 rBlkA) (View.ld x1 rBlkB) (View.ld xs rRow0)⟩]

/-- A middle point leaves the scratch buffer updated. -/
theorem soutB_eq (c : Dev nD) (i : grid0.Coords) (arg1 : Memref sig .tc .vmem S640x512 .f32) (harg1 : arg1.IsWhole) (arg2 : Memref sig .tc .vmem S512x768 .f32) (harg2 : arg2.IsWhole) (arg3 : Memref sig .tc .vmem S2x768 .f32) (harg3 : arg3.IsWhole) (arg4 : Memref sig .tc .vmem S2x768 .f32) (harg4 : arg4.IsWhole) (hc0 : ¬cond0_0 i) (hc1 : ¬cond0_1 i)
    (x0 : Vec F S640x512 .f32) (x1 : Vec F S512x768 .f32) (xs0 : Vec F S2x768 .f32) :
    sout0_B_0 c i arg1 harg1 arg2 harg2 arg3 harg3 arg4 harg4 hc0 hc1 x0 x1 xs0 = step0 x0 x1 xs0 := by
  unfold sout0_B_0
  rw [View.read_writes_eq_canon _ _ _ (scover0_B_0 c i arg1 harg1 arg2 harg2 arg3 harg3 arg4 harg4 hc0 hc1 x0 x1 xs0)]
  unfold kernelRun0_B
  dsimp only
  try sl_unfold_words
  simp only [View.readAt_eq_ld, harg1.read_unread, harg2.read_unread, harg4.read_unread]
  rfl

/-- The last point leaves the scratch buffer updated too, -/
theorem soutC_eq (c : Dev nD) (i : grid0.Coords) (arg1 : Memref sig .tc .vmem S640x512 .f32) (harg1 : arg1.IsWhole) (arg2 : Memref sig .tc .vmem S512x768 .f32) (harg2 : arg2.IsWhole) (arg3 : Memref sig .tc .vmem S2x768 .f32) (harg3 : arg3.IsWhole) (arg4 : Memref sig .tc .vmem S2x768 .f32) (harg4 : arg4.IsWhole) (hc0 : ¬cond0_0 i) (hc1 : cond0_1 i)
    (x0 : Vec F S640x512 .f32) (x1 : Vec F S512x768 .f32) (xs0 : Vec F S2x768 .f32) :
    sout0_C_0 c i arg1 harg1 arg2 harg2 arg3 harg3 arg4 harg4 hc0 hc1 x0 x1 xs0 = step0 x0 x1 xs0 := by
  unfold sout0_C_0
  rw [View.read_writes_eq_canon _ _ _ (scover0_C_0 c i arg1 harg1 arg2 harg2 arg3 harg3 arg4 harg4 hc0 hc1 x0 x1 xs0)]
  unfold kernelRun0_C
  dsimp only
  try sl_unfold_words
  simp only [View.readAt_eq_ld, harg1.read_unread, harg2.read_unread, harg4.read_unread]
  rfl

theorem hz2 : (![0, 0] : Fin 2 → Nat) = fun _ => 0 := funext fun a => by fin_cases a <;> rfl

/-- A row's position inside the scratch buffer: local (u, q) of row o sits at (o + u, q). -/
theorem emb_row_val (o : Fin 2 → ℕ) (inb : ∀ a, o a + S1x768.size a ≤ S2x768.size a) (x : S1x768.Idx) (a : Fin 2) :
    ((Rect.unit (s := S2x768) o S1x768.size inb).emb x a).val = o a + (x a).val := by
  simp only [Rect.emb_apply, Rect.off_unit, Rect.stride_unit, Nat.one_mul]

theorem row1_not_mem_row0 (x : S1x768.Idx) : rRow1.emb x ∉ rRow0.set := by
  intro h
  have h0 := (Rect.mem_set_unit.mp h) 0
  have e := emb_row_val ![1, 0] inb_S2x768_S1x768_1_0 x 0
  have hx : (x 0).val < 1 := (x 0).isLt
  change _ ∧ ((rRow1.emb x) 0).val < 0 + 1 at h0
  change ((rRow1.emb x) 0).val = 1 + (x 0).val at e
  omega

theorem row0_not_mem_row1 (x : S1x768.Idx) : rRow0.emb x ∉ rRow1.set := by
  intro h
  have h0 := (Rect.mem_set_unit.mp h) 0
  have e := emb_row_val ![0, 0] inb_S2x768_S1x768_0_0 x 0
  have hx : (x 0).val < 1 := (x 0).isLt
  change 1 ≤ ((rRow0.emb x) 0).val ∧ _ at h0
  change ((rRow0.emb x) 0).val = 0 + (x 0).val at e
  omega

/-- A load of row 0 after a store of the whole buffer reads the stored buffer's row 0. -/
theorem cov_row0 {κ : Kind} {sp : Space} (v : View sig κ sp S2x768 .f32) (p : Vec F S2x768 .f32) :
    v.readCov [⟨rAll, p⟩] rRow0.toLoadRect = View.ld p rRow0 := by
  rw [View.readCov_eq_canon_ld _ _ _ (fun y => ⟨_, List.mem_singleton_self _, View.mem_set_unit_zero hz2 inb_S2x768_S2x768_0_0 y⟩),
    View.canon_unit_zero hz2]

/-- A load of row 1 after a store of the whole buffer and then a store of row 0 reads the whole store's row 1. -/
theorem cov_row1 {κ : Kind} {sp : Space} (v : View sig κ sp S2x768 .f32) (p : Vec F S2x768 .f32) (q : Vec F S1x768 .f32) :
    v.readCov [⟨rRow0, q⟩, ⟨rAll, p⟩] rRow1.toLoadRect = View.ld p rRow1 := by
  rw [View.readCov_eq_canon']
  funext j
  show View.canon [⟨rRow0, q⟩, ⟨rAll, p⟩] (rRow1.emb j) = p (rRow1.emb j)
  rw [View.canon_cons_of_not_mem (⟨rRow0, q⟩ : View.Piece (Elt F) S2x768 .f32) [⟨rAll, p⟩] (row1_not_mem_row0 j), View.canon_unit_zero hz2]

/-- The two row stores cover the buffer, so an earlier store of the whole buffer does not show. -/
theorem rows_cover (p4 p3 : Vec F S1x768 .f32) (y : S2x768.Idx) :
    ∃ pc ∈ ([⟨rRow1, p4⟩, ⟨rRow0, p3⟩] : List (View.Piece (Elt F) S2x768 .f32)), y ∈ pc.1.set :=
  View.cover_of_tiled [⟨rRow1, p4⟩, ⟨rRow0, p3⟩] S1x768.size (by rfl) y

theorem canon3_eq (p4 p3 : Vec F S1x768 .f32) (pw : Vec F S2x768 .f32) :
    View.canon [⟨rRow1, p4⟩, ⟨rRow0, p3⟩, ⟨rAll, pw⟩] = View.canon [⟨rRow1, p4⟩, ⟨rRow0, p3⟩] := by
  funext y
  by_cases h1 : y ∈ rRow1.set
  · obtain ⟨x, rfl⟩ := rRow1.exists_idx_of_mem h1
    rw [show rRow1.idx x = rRow1.emb x from rfl, View.canon_cons_emb, View.canon_cons_emb]
  · rw [View.canon_cons_of_not_mem (⟨rRow1, p4⟩ : View.Piece (Elt F) S2x768 .f32) [⟨rRow0, p3⟩, ⟨rAll, pw⟩] h1,
      View.canon_cons_of_not_mem (⟨rRow1, p4⟩ : View.Piece (Elt F) S2x768 .f32) [⟨rRow0, p3⟩] h1]
    have h0 : y ∈ rRow0.set := by
      obtain ⟨pc, hpc, hy⟩ := rows_cover p4 p3 y
      rcases List.mem_cons.mp hpc with rfl | hpc'
      · exact absurd hy h1
      · rcases List.mem_cons.mp hpc' with rfl | hpc''
        · exact hy
        · exact absurd hpc'' List.not_mem_nil
    obtain ⟨x, rfl⟩ := rRow0.exists_idx_of_mem h0
    rw [show rRow0.idx x = rRow0.emb x from rfl, View.canon_cons_emb, View.canon_cons_emb]

/-- The first point leaves the scratch buffer at the update of the cleared buffer. -/
theorem soutA_eq (c : Dev nD) (i : grid0.Coords) (arg1 : Memref sig .tc .vmem S640x512 .f32) (harg1 : arg1.IsWhole) (arg2 : Memref sig .tc .vmem S512x768 .f32) (harg2 : arg2.IsWhole) (arg3 : Memref sig .tc .vmem S2x768 .f32) (harg3 : arg3.IsWhole) (arg4 : Memref sig .tc .vmem S2x768 .f32) (harg4 : arg4.IsWhole) (hc0 : cond0_0 i) (hc1 : ¬cond0_1 i)
    (x0 : Vec F S640x512 .f32) (x1 : Vec F S512x768 .f32) :
    sout0_A_0 c i arg1 harg1 arg2 harg2 arg3 harg3 arg4 harg4 hc0 hc1 x0 x1 = step0 x0 x1 (k0_pay1 (F := F)) := by
  unfold sout0_A_0
  rw [View.read_writes_eq_canon _ _ _ (scover0_A_0 c i arg1 harg1 arg2 harg2 arg3 harg3 arg4 harg4 hc0 hc1 x0 x1)]
  unfold kernelRun0_A
  dsimp only
  try sl_unfold_words
  simp only [View.readAt_eq_ld, harg1.read_unread, harg2.read_unread]
  rw [cov_row0, cov_row1]
  unfold step0
  exact canon3_eq _ _ _

/-- What the last point stores into the output block: the updated scratch buffer. -/
theorem outC_eq (c : Dev nD) (i : grid0.Coords) (arg1 : Memref sig .tc .vmem S640x512 .f32) (harg1 : arg1.IsWhole) (arg2 : Memref sig .tc .vmem S512x768 .f32) (harg2 : arg2.IsWhole) (arg3 : Memref sig .tc .vmem S2x768 .f32) (harg3 : arg3.IsWhole) (arg4 : Memref sig .tc .vmem S2x768 .f32) (harg4 : arg4.IsWhole) (hc0 : ¬cond0_0 i) (hc1 : cond0_1 i)
    (x0 : Vec F S640x512 .f32) (x1 : Vec F S512x768 .f32) (xs0 : Vec F S2x768 .f32) :
    out0_C_2 c i arg1 harg1 arg2 harg2 arg3 harg3 arg4 harg4 hc0 hc1 x0 x1 xs0 = step0 x0 x1 xs0 := by
  unfold out0_C_2
  rw [View.read_writes_eq_canon _ _ _ (cover0_C_2 c i arg1 harg1 arg2 harg2 arg3 harg3 arg4 harg4 hc0 hc1 x0 x1 xs0)]
  unfold kernelRun0_C
  dsimp only
  try sl_unfold_words
  rw [View.canon_unit_zero hz2]
  simp only [View.readAt_eq_ld, harg1.read_unread, harg2.read_unread, harg4.read_unread]
  rw [View.readCov_eq_canon_ld _ _ _ (rows_cover _ _), View.ld_unit_zero hz2]
  rfl

/-! ## The scratch buffer after each point -/

variable (V : (c : Dev nD) → (b : Ref sig .tc) → Buf (Elt F) ((c : Thread nD τ).loc b))

/-- The updates of the points 0 … n applied in order to the cleared buffer. -/
def accAt (c : Dev nD) : (n : ℕ) → n < cfg0.N → Vec F S2x768 .f32
  | 0, hn => step0 (iblk0 V c 0 ⟨0, hn⟩) (iblk0 V c 1 ⟨0, hn⟩) (k0_pay1 (F := F))
  | n + 1, hn => step0 (iblk0 V c 0 ⟨n + 1, hn⟩) (iblk0 V c 1 ⟨n + 1, hn⟩) (accAt c n (Nat.lt_of_succ_lt hn))

/-- After point n the scratch buffer holds that. -/
theorem sout_eq_accAt (c : Dev nD) : ∀ (n : ℕ) (hn : n < cfg0.N), (outsAt0 V c n hn).2 = accAt V c n hn
  | 0, hn => by
    rw [outsAt0_A V c ⟨0, hn⟩ rfl (show ¬ (0 : ℕ) = 46 from by decide)]
    dsimp only
    rw [soutA_eq]
    rfl
  | n + 1, hn => by
    have ih := sout_eq_accAt c n (Nat.lt_of_succ_lt hn)
    by_cases h1 : n + 1 = 46
    · rw [outsAt0_C V c ⟨n + 1, hn⟩ (Nat.succ_ne_zero n) h1]
      dsimp only
      rw [soutC_eq]
      show step0 _ _ (outsAt0 V c n _).2 = step0 _ _ (accAt V c n _)
      rw [ih]
    · rw [outsAt0_B V c ⟨n + 1, hn⟩ (Nat.succ_ne_zero n) h1]
      dsimp only
      rw [soutB_eq]
      show step0 _ _ (outsAt0 V c n _).2 = step0 _ _ (accAt V c n _)
      rw [ih]

/-- The output block after the last point is the scratch buffer after it. -/
theorem out_last (c : Dev nD) (hn : 46 < cfg0.N) : (outsAt0 V c 46 hn).1 = accAt V c 46 hn := by
  rw [outsAt0_C V c ⟨46, hn⟩ (show ¬ (46 : ℕ) = 0 from by decide) rfl]
  dsimp only
  rw [outC_eq]
  show step0 _ _ (outsAt0 V c 45 _).2 = step0 _ _ (accAt V c 45 _)
  rw [sout_eq_accAt V c 45 _]

end Cert.KernelIdeal.Fr

end
-- ==== Proof.LibColumn.lean ====
/-
  Layout facts about columns and rows, independent of any program.

  A column is an array of shape [a, 1]. Broadcasting it to [a, b] repeats each row's single entry across the b
  positions of that row, so the entry at (p, c) is the column's entry at row p. Casting a vector of shape [a] to the
  column shape [a, 1] keeps the row-major order, so the entry at (i, 0) is the vector's entry at i.

  The host spells the same repetitions with an explicit map from the operand's axes to the result's axes: a vector
  [b] placed on axis 1 of [1, b] is read at its own position; a vector [a] placed on axis 0 of [a, 1] likewise; a row
  [1, b] or a column [a, 1] repeated to [a, b] is read at the one row, or the one column, it has; a scalar repeated to
  any shape is read at its one entry.
-/
import Idealize.ShloMosaic.Lib.ValueIdx
import Idealize.ShloMosaic.Lib.Pipeline.Value

noncomputable section

namespace Cert.Lib

open Idealize.ShloMosaic Idealize.ShloMosaic.ValueIdx

variable {α : Type}

/-- A column [a, 1] broadcast to [a, b] reads, at (p, c), the column's entry at row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [a] cast to the column shape [a, 1] reads, at (i, u), the vector's entry at i. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A vector [b] placed on axis 1 of [1, b] reads, at (u, q), the vector's entry at q. -/
theorem broadcastInDim_b_1b_apply {b : ℕ} (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply ![1] h x (ix2 u q) (ix1 q) fun ax => ?_
  match ax with
  | ⟨0, _⟩ =>
    show q.val = if b = 1 then 0 else q.val
    split
    · have := q.isLt; omega
    · rfl

/-- A vector [a] placed on axis 0 of [a, 1] reads, at (p, u), the vector's entry at p. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- A row [1, b] repeated to [a, b], axes kept in place, reads at (p, q) the row's entry at q. -/
theorem broadcastInDim_1b_ab_apply {a b : ℕ} (x : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h x (ix2 p q) = x (ix2 (0 : Fin 1) q) := by
  refine broadcastInDim_apply ![0, 1] h x (ix2 p q) (ix2 (0 : Fin 1) q) fun ax => ?_
  match ax with
  | ⟨0, _⟩ => rfl
  | ⟨1, _⟩ =>
    show q.val = if b = 1 then 0 else q.val
    split
    · have := q.isLt; omega
    · rfl

/-- A column [a, 1] repeated to [a, b], axes kept in place, reads at (p, q) the column's entry at p. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h x (ix2 p q) = x (ix2 p (0 : Fin 1)) := by
  refine broadcastInDim_apply ![0, 1] h x (ix2 p q) (ix2 p (0 : Fin 1)) fun ax => ?_
  match ax with
  | ⟨0, _⟩ =>
    show p.val = if a = 1 then 0 else p.val
    split
    · have := p.isLt; omega
    · rfl
  | ⟨1, _⟩ => rfl

/-- A scalar repeated to any shape reads, everywhere, its one entry. -/
theorem broadcastInDim_scalar_apply {s : Shape} (x : (⟨0, ![]⟩ : Shape).Idx → α)
    (h : (⟨0, ![]⟩ : Shape).BroadcastsInDim s ![]) (i : s.Idx) :
    broadcastInDim s ![] h x i = x ix0 :=
  broadcastInDim_apply ![] h x i ix0 fun ax => ax.elim0

end Cert.Lib

end
-- ==== Proof.LibUnitRows.lean ====
/-
  Rows divided by the larger of their Euclidean norm and a constant, read at an index. Independent of any program.

  For a matrix x of shape [R, K] and a float word w, row r's entry k of the normalised matrix is
      x (r, k) / max (√(Σ_k' x (r, k')²)) w
  on the extended reals. A kernel spells it with a lane sum of the squares, a cast of the sums to a column [R, 1], the
  square root, the maximum with a splat of w, the column broadcast along the rows and a division; a host program with
  a reduce-add from a zero initial value, the sums placed as a column, the square root, the maximum with w repeated,
  the column repeated along the rows and a division. Both read, at (r, k), that one quotient. The sum over the second
  axis of a matrix, at row r, is the sum over k of its entries (r, k) — from a neutral accumulator in a kernel, from a
  zero initial value on the host; the host's sum over the first axis, at column j, is the sum over r of the entries (r, j).
-/
import proofs.«115421_j19954418057708_1_alg».proof.Proof.LibColumn
import Idealize.ShloMosaic.Lib.ValueIdx
import Idealize.ShloMosaic.Lib.Pipeline.Value
import Idealize.ShloMosaic.Lib.IdealHost
import Idealize.ShloMosaic.PureOps.Ideal
import Idealize.ShloMosaic.PureOps.Ideal.Laws

noncomputable section

namespace Cert.Lib

open Idealize.ShloMosaic Idealize.ShloMosaic.ValueIdx

/-- Entry k of a row divided by the larger of its Euclidean norm and the word w. -/
def unitRow {K : ℕ} (w : BitVec 32) (x : Fin K → EReal) (k : Fin K) : EReal :=
  Ideal.div (x k) (max (Ideal.sqrt (∑ k', x k' * x k')) (Ideal.ofBits .f32 w))

/-- A kernel's sum over the second axis of a matrix, at row r. -/
theorem rowsum_apply {R K : ℕ} {φ : FTy} (src : FVec Ideal ⟨2, ![R, K]⟩ φ) (acc : BitVec φ.bits)
    (h : (⟨2, ![R, K]⟩ : Shape).Reduces [(1 : Fin 2)] ⟨1, ![R]⟩) (hφ : FKind.Formats φ) (hacc : acc = FKind.add.neutral φ hφ)
    (r : Fin R) :
    multiReduction .add [(1 : Fin 2)] ⟨1, ![R]⟩ src acc h hφ hacc (ix1 r) = ∑ k : Fin K, src (ix2 r k) := by
  refine (Ideal.multiReduction_add_single src acc h hφ hacc (ix1 r)).trans ?_
  refine Finset.sum_congr rfl fun k _ => congrArg src (funext fun ax => Fin.ext ?_)
  rw [Shape.Reduces.lift_val]
  match ax with
  | ⟨0, _⟩ => rfl
  | ⟨1, _⟩ => rfl

/-- The host's sum over the second axis of a matrix from a zero initial value, at row r. -/
theorem hostRowsum_apply {R K : ℕ} (x : FVec Ideal ⟨2, ![R, K]⟩ .f32)
    (h' : (⟨2, ![R, K]⟩ : Shape).ReducesTo [(1 : Fin 2)] ⟨1, ![R]⟩) (h : (⟨2, ![R, K]⟩ : Shape).Reduces [(1 : Fin 2)] ⟨1, ![R]⟩)
    (hu : 0 < (⟨0, ![]⟩ : Shape).numel) (r : Fin R) :
    Host.reduceAdd x (constant (F := Ideal) ⟨0, ![]⟩ .f32 0x00000000#32) h' hu (ix1 r) = ∑ k : Fin K, x (ix2 r k) := by
  rw [hostReduceAdd_apply, Ideal.hostReduceAdd_single h' h]
  rw [show (constant (F := Ideal) ⟨0, ![]⟩ .f32 0x00000000#32) (Shape.Idx.first hu) = (0 : EReal) from Ideal.ofBits_zero_f32, zero_add]
  refine Finset.sum_congr rfl fun k _ => congrArg x (funext fun ax => Fin.ext ?_)
  rw [Shape.Reduces.lift_val]
  match ax with
  | ⟨0, _⟩ => rfl
  | ⟨1, _⟩ => rfl

/-- The host's sum over the first axis of a matrix from a zero initial value, at column j. -/
theorem hostColsum_apply {R K : ℕ} (x : FVec Ideal ⟨2, ![R, K]⟩ .f32)
    (h' : (⟨2, ![R, K]⟩ : Shape).ReducesTo [(0 : Fin 2)] ⟨1, ![K]⟩) (h : (⟨2, ![R, K]⟩ : Shape).Reduces [(0 : Fin 2)] ⟨1, ![K]⟩)
    (hu : 0 < (⟨0, ![]⟩ : Shape).numel) (j : Fin K) :
    Host.reduceAdd x (constant (F := Ideal) ⟨0, ![]⟩ .f32 0x00000000#32) h' hu (ix1 j) = ∑ r : Fin R, x (ix2 r j) := by
  rw [hostReduceAdd_apply, Ideal.hostReduceAdd_single h' h]
  rw [show (constant (F := Ideal) ⟨0, ![]⟩ .f32 0x00000000#32) (Shape.Idx.first hu) = (0 : EReal) from Ideal.ofBits_zero_f32, zero_add]
  refine Finset.sum_congr rfl fun r _ => congrArg x (funext fun ax => Fin.ext ?_)
  rw [Shape.Reduces.lift_val]
  match ax with
  | ⟨0, _⟩ => rfl
  | ⟨1, _⟩ => rfl

/-- A kernel's normalisation of the rows of a matrix, at (r, k). -/
theorem unitRows_kernel_apply {R K : ℕ} (x : FVec Ideal ⟨2, ![R, K]⟩ .f32) (w : BitVec 32)
    (red : (⟨2, ![R, K]⟩ : Shape).Reduces [(1 : Fin 2)] ⟨1, ![R]⟩) (sc : (⟨1, ![R]⟩ : Shape).ShapeCasts ⟨2, ![R, 1]⟩)
    (bc : (⟨2, ![R, 1]⟩ : Shape).Broadcasts ⟨2, ![R, K]⟩) (hφ : FKind.Formats .f32)
    (hacc : (0x00000000#32 : BitVec 32) = FKind.add.neutral .f32 hφ) (r : Fin R) (k : Fin K) :
    divf x (broadcastTo ⟨2, ![R, K]⟩ (maximumf (sqrt (shapeCast ⟨2, ![R, 1]⟩
        (multiReduction .add [(1 : Fin 2)] ⟨1, ![R]⟩ (mulf x x) 0x00000000#32 red hφ hacc) sc))
        (broadcast ⟨2, ![R, 1]⟩ (Scalar.ofBits .f32 w : Ideal .f32))) bc) (ix2 r k)
      = unitRow w (fun k => x (ix2 r k)) k := by
  show Ideal.div (x (ix2 r k)) _ = _
  rw [broadcastTo_a1_ab_apply _ bc r k]
  unfold unitRow
  refine congrArg₂ Ideal.div rfl (congrArg₂ max (congrArg Ideal.sqrt ?_) rfl)
  exact (shapeCast_a_a1_apply _ sc r 0).trans (rowsum_apply _ _ red hφ hacc r)

/-- The host's normalisation of the rows of a matrix, at (r, k). -/
theorem unitRows_host_apply {R K : ℕ} (x : FVec Ideal ⟨2, ![R, K]⟩ .f32) (w : BitVec 32)
    (h' : (⟨2, ![R, K]⟩ : Shape).ReducesTo [(1 : Fin 2)] ⟨1, ![R]⟩) (h : (⟨2, ![R, K]⟩ : Shape).Reduces [(1 : Fin 2)] ⟨1, ![R]⟩)
    (hu : 0 < (⟨0, ![]⟩ : Shape).numel)
    (b1 : (⟨1, ![R]⟩ : Shape).BroadcastsInDim ⟨2, ![R, 1]⟩ ![0]) (b0 : (⟨0, ![]⟩ : Shape).BroadcastsInDim ⟨2, ![R, 1]⟩ ![])
    (b2 : (⟨2, ![R, 1]⟩ : Shape).BroadcastsInDim ⟨2, ![R, K]⟩ ![0, 1]) (r : Fin R) (k : Fin K) :
    Host.divf x (broadcastInDim ⟨2, ![R, K]⟩ ![0, 1] b2 (maximumf (Host.sqrt (broadcastInDim ⟨2, ![R, 1]⟩ ![0] b1
        (Host.reduceAdd (mulf x x) (constant (F := Ideal) ⟨0, ![]⟩ .f32 0x00000000#32) h' hu)))
        (broadcastInDim ⟨2, ![R, 1]⟩ ![] b0 (constant (F := Ideal) ⟨0, ![]⟩ .f32 w)))) (ix2 r k)
      = unitRow w (fun k => x (ix2 r k)) k := by
  show Ideal.div (x (ix2 r k)) _ = _
  rw [broadcastInDim_a1_ab_apply _ b2 r k]
  unfold unitRow
  refine congrArg₂ Ideal.div rfl (congrArg₂ max (congrArg Ideal.sqrt ?_) ?_)
  · exact (broadcastInDim_a_a1_apply _ b1 r 0).trans (hostRowsum_apply (mulf x x) h' h hu r)
  · exact Cert.Lib.broadcastInDim_scalar_apply _ b0 _

end Cert.Lib

end
-- ==== Proof.LibPlainDot.lean ====
/-
  The product of an [M, K] matrix with a [K, N] matrix, contracted on the left operand's second axis and the right
  operand's first, read at an output index. Independent of any program.

  With no batch axis the contraction index has one coordinate, running over the K shared positions; at the output index
  (p, q) the left operand is read at (p, k) and the right at (k, q). So the contraction's sum over its own index type is
  the familiar sum over k of l (p, k) · r (k, q).
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- The dimension numbers of a plain matrix product [M, K] × [K, N] → [M, N]. -/
abbrev plainDot (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- THE CONTRACTION AS A SUM OVER k: at the output index (p, q) the product's terms are l (p, k) · r (k, q). -/
theorem plainDot_sum {M K N : Nat}
    (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (p : Fin M) (q : Fin N) :
    ∑ k : (plainDot M K N wf).contr.Idx,
        l ((plainDot M K N wf).lhsIdx (ix2 p q) k) * r ((plainDot M K N wf).rhsIdx (ix2 p q) k)
      = ∑ k : Fin K, l (ix2 p k) * r (ix2 k q) := by
  rw [← Equiv.sum_comp (contrEquiv1 (plainDot M K N wf) K rfl rfl).symm]
  refine Finset.sum_congr rfl fun k _ => ?_
  have hk := contrEquiv1_symm_val (plainDot M K N wf) K rfl rfl k
  have el : (plainDot M K N wf).lhsIdx (ix2 p q) ((contrEquiv1 (plainDot M K N wf) K rfl rfl).symm k) = ix2 p k :=
    funext fun a => Fin.ext (by
      match a with
      | ⟨0, _⟩ =>
        show ((plainDot M K N wf).lhsIdx (ix2 p q) ((contrEquiv1 (plainDot M K N wf) K rfl rfl).symm k) 0).val = p.val
        unfold DotDims.lhsIdx
        rw [dif_neg (show ¬ (0 : Fin 2) ∈ ([] : List (Fin 2)) from List.not_mem_nil),
          dif_pos (show (0 : Fin 2) ∈ ([0] : List (Fin 2)) from List.mem_singleton.mpr rfl)]
        rfl
      | ⟨1, _⟩ => exact ((plainDot M K N wf).lhsIdx_val_of_single rfl (ix2 p q) _).trans hk)
  have er : (plainDot M K N wf).rhsIdx (ix2 p q) ((contrEquiv1 (plainDot M K N wf) K rfl rfl).symm k) = ix2 k q :=
    funext fun a => Fin.ext (by
      match a with
      | ⟨0, _⟩ => exact ((plainDot M K N wf).rhsIdx_val_of_single rfl (ix2 p q) _).trans hk
      | ⟨1, _⟩ =>
        show ((plainDot M K N wf).rhsIdx (ix2 p q) ((contrEquiv1 (plainDot M K N wf) K rfl rfl).symm k) 1).val = q.val
        unfold DotDims.rhsIdx
        rw [dif_neg (show ¬ (1 : Fin 2) ∈ ([] : List (Fin 2)) from List.not_mem_nil),
          dif_pos (show (1 : Fin 2) ∈ ([1] : List (Fin 2)) from List.mem_singleton.mpr rfl)]
        rfl)
  rw [el, er]

/-- A kernel's matrix product into a zero accumulator, at (p, q). -/
theorem matmul_zero_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDot M K N wf) prec l r (constant (F := Ideal) ⟨2, ![M, N]⟩ .f32 0x00000000#32) (ix2 p q)
      = ∑ k : Fin K, l (ix2 p k) * r (ix2 k q) := by
  rw [Ideal.matmul_constant_zero_apply]
  exact plainDot_sum wf l r p q

/-- The host's matrix product, at (p, q). -/
theorem dotGeneral_plain_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule) (l : FVec Ideal ⟨2, ![M, K]⟩ φ₁) (r : FVec Ideal ⟨2, ![K, N]⟩ φ₂)
    (p : Fin M) (q : Fin N) :
    FloatOps.dotGeneral (plainDot M K N wf) prec sched l r (ix2 p q)
      = ∑ k : Fin K, l (ix2 p k) * r (ix2 k q) := by
  rw [Ideal.dotGeneral_apply]
  exact plainDot_sum wf l r p q

end Cert.Lib

end
-- ==== Proof.LibTile.lean ====
/-
  A tile of rows of a two-layer affine map, read at an index. Independent of any program.

  For a tile of R rows: the sum of two matrix products into zero accumulators — the first's left operand scaled row by
  row by a column [R, 1] — plus a bias row [1, D], at (r, q), is  Σ_k (a (r, k) · col (r, 0)) · Wl (k, q) + Σ_k f (r, k) · Wr (k, q) + b (0, q);
  and a tile's column sum over its R rows, kept as a one-row array [1, D], at (0, q), is  Σ_r X (r, q).
-/
import proofs.«115421_j19954418057708_1_alg».proof.Proof.LibPlainDot
import proofs.«115421_j19954418057708_1_alg».proof.Proof.LibColumn
import Idealize.ShloMosaic.Lib.ValueLayout
import Idealize.ShloMosaic.Lib.Pipeline.Value
import Idealize.ShloMosaic.PureOps.Ideal.Laws

noncomputable section

namespace Cert.Lib

open Idealize.ShloMosaic Idealize.ShloMosaic.ValueIdx

/-- The linear combination of a tile at (r, q): the aggregate's row r is scaled by the column's entry r before the
    product with Wl; the bias row enters at q. -/
theorem tile_lin_apply {R K D : ℕ}
    (wf : DotDims.WF ⟨2, ![R, K]⟩ ⟨2, ![K, D]⟩ ⟨2, ![R, D]⟩ [1] [0] [0] [1] [] [])
    (bc : (⟨2, ![R, 1]⟩ : Shape).Broadcasts ⟨2, ![R, K]⟩) (br : (⟨2, ![1, D]⟩ : Shape).Broadcasts ⟨2, ![R, D]⟩)
    (aggr feat : FVec Ideal ⟨2, ![R, K]⟩ .f32) (dinv : FVec Ideal ⟨2, ![R, 1]⟩ .f32)
    (Wl Wr : FVec Ideal ⟨2, ![K, D]⟩ .f32) (b : FVec Ideal ⟨2, ![1, D]⟩ .f32) (r : Fin R) (q : Fin D) :
    addf (addf (matmul (plainDot R K D wf) none (mulf aggr (broadcastTo ⟨2, ![R, K]⟩ dinv bc)) Wl
                  (constant (F := Ideal) ⟨2, ![R, D]⟩ .f32 0x00000000#32))
               (matmul (plainDot R K D wf) none feat Wr (constant (F := Ideal) ⟨2, ![R, D]⟩ .f32 0x00000000#32)))
         (broadcastTo ⟨2, ![R, D]⟩ b br) (ix2 r q)
      = ((∑ k : Fin K, (aggr (ix2 r k) * dinv (ix2 r 0)) * Wl (ix2 k q)) + ∑ k : Fin K, feat (ix2 r k) * Wr (ix2 k q))
          + b (ix2 0 q) := by
  rw [addf_apply, addf_apply]
  have e1 := matmul_zero_apply wf none (mulf aggr (broadcastTo ⟨2, ![R, K]⟩ dinv bc)) Wl r q
  have e2 := matmul_zero_apply wf none feat Wr r q
  have e3 := broadcastTo_1b_ab_apply b br r q
  refine (congrArg₂ (· + ·) (congrArg₂ (· + ·) e1 e2) e3).trans ?_
  refine congrArg (· + _) (congrArg (· + _) (Finset.sum_congr rfl fun k _ => ?_))
  rw [mulf_apply, broadcastTo_a1_ab_apply dinv bc r k]

/-- A tile's column sum, kept as one row, at (0, q). -/
theorem tile_colsum_apply {R D : ℕ} (red : (⟨2, ![R, D]⟩ : Shape).Reduces [0] ⟨1, ![D]⟩)
    (sc : (⟨1, ![D]⟩ : Shape).ShapeCasts ⟨2, ![1, D]⟩) (X : FVec Ideal ⟨2, ![R, D]⟩ .f32)
    (hφ : FKind.Formats .f32) (hacc : (0x00000000#32 : BitVec 32) = FKind.add.neutral .f32 hφ) (q : Fin D) :
    shapeCast ⟨2, ![1, D]⟩ (multiReduction .add [0] ⟨1, ![D]⟩ X 0x00000000#32 red hφ hacc) sc (ix2 0 q)
      = ∑ r : Fin R, X (ix2 r q) := by
  rw [shapeCast_a_1a_apply _ sc 0 q, Ideal.multiReduction_add_single X _ red hφ hacc (ix1 q)]
  refine Finset.sum_congr rfl fun k _ => congrArg X (funext fun a => Fin.ext ?_)
  match a with
  | ⟨0, _⟩ => rfl
  | ⟨1, _⟩ => rfl

end Cert.Lib

end
-- ==== Proof.LibTileSum.lean ====
/-
  Two small facts about sums and columns, independent of any program.

  A sum over the first m·n naturals can be taken tile by tile: n consecutive tiles of m positions each, tile s holding
  the positions m·s, m·s + 1, …, m·s + (m − 1). Only commutativity and associativity of the addition are used, so the
  fact holds in every commutative additive monoid — the extended reals included, infinities and all.

  A column of shape [a, 1] cast to the vector shape [a] keeps the row-major order, so the vector's entry at i is the
  column's entry at (i, 0).
-/
import Idealize.ShloMosaic.Lib.ValueIdx
import Idealize.ShloMosaic.Lib.Pipeline.Value

noncomputable section

namespace Cert.Lib

open Idealize.ShloMosaic Idealize.ShloMosaic.ValueIdx

/-- The first m·n naturals, summed tile by tile. -/
theorem sum_range_tiles {β : Type*} [AddCommMonoid β] (g : ℕ → β) (m : ℕ) : ∀ n : ℕ,
    ∑ s ∈ Finset.range n, ∑ q ∈ Finset.range m, g (m * s + q) = ∑ k ∈ Finset.range (m * n), g k
  | 0 => by simp
  | n + 1 => by
    rw [Finset.sum_range_succ, sum_range_tiles g m n, Nat.mul_succ, Finset.sum_range_add]

/-- The same with each tile's positions and the whole range as finite index types. -/
theorem sum_fin_tiles {β : Type*} [AddCommMonoid β] (g : ℕ → β) (m n : ℕ) {N : ℕ} (hN : m * n = N) :
    ∑ s ∈ Finset.range n, ∑ q : Fin m, g (m * s + q.val) = ∑ k : Fin N, g k.val := by
  subst hN
  rw [← Finset.sum_range (fun k => g k), ← sum_range_tiles g m n]
  exact Finset.sum_congr rfl fun s _ => (Finset.sum_range (fun q => g (m * s + q))).symm

variable {α : Type}

/-- A column [a, 1] cast to the vector shape [a] reads, at i, the column's entry at (i, 0). -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Cert.Lib

end
-- ==== Proof.KI.Val0b.lean ====
/-
  What the statistics kernel leaves in its output array, over the extended reals. For a block x0 of 640 rows and the
  weight matrix x1, write h (r, j) = Σ_k u (r, k) · x1 (k, j), u the block's rows divided by the larger of their
  Euclidean norm and the small constant. One grid point adds Σ_r h (r, j) to row 0 of the scratch buffer and
  Σ_r h (r, j)² to row 1. The point's first block is rows 640 t … 640 t + 639 of the padded vocabulary matrix and its
  second the whole weight matrix, so after the last point row 0 holds the sum of h over all 30080 padded rows and row 1
  the sum of h²; the last point copies the buffer into the output block, which is the whole output array.
-/
import proofs.«115421_j19954418057708_1_alg».proof.Proof.KI.Val0a
import proofs.«115421_j19954418057708_1_alg».proof.Proof.LibUnitRows
import proofs.«115421_j19954418057708_1_alg».proof.Proof.LibTile
import proofs.«115421_j19954418057708_1_alg».proof.Proof.LibTileSum
import Idealize.ShloMosaic.Lib.ValueLayout

set_option maxRecDepth 16384

noncomputable section

open Idealize.ShloMosaic Idealize.ShloMosaic.TcCoe Idealize.SL.Sem Idealize.ShloMosaic.Tactic
open Idealize.ShloMosaic.Pipeline (Dat)
open Idealize.ShloMosaic.ValueIdx
namespace Cert.KernelIdeal.Fr

open Cert.KernelIdeal Cert.KernelIdeal.Gen

open Cert.Lib

/-- The products of a block's normalised rows with the weight matrix. -/
def hT (x0 : Vec Ideal S640x512 .f32) (x1 : Vec Ideal S512x768 .f32) (r : Fin 640) (j : Fin 768) : EReal :=
  ∑ k : Fin 512, unitRow 0x2B8CBCCC#32 (fun k => x0 (ix2 r k)) k * x1 (ix2 k j)

theorem pay2_apply (x0 : Vec Ideal S640x512 .f32) (x1 : Vec Ideal S512x768 .f32) (r : Fin 640) (j : Fin 768) :
    k0_pay2 x0 x1 (ix2 r j) = hT x0 x1 r j := by
  unfold k0_pay2
  simp only [shapeCast_self]
  refine (matmul_zero_apply dot_S640x512_S512x768_S640x768_1_0_0_1_n_n.wf none _ _ r j).trans ?_
  unfold hT
  refine Finset.sum_congr rfl fun k _ => congrArg (· * _) ?_
  exact unitRows_kernel_apply x0 0x2B8CBCCC#32 reduces_S640x512_S640 shapeCasts_S640_S640x1 broadcasts_S640x1_S640x512 (.inl rfl) rfl r k

theorem ix2_row0 (j : Fin 768) : (ix2 (0 : Fin 2) j : S2x768.Idx) = rRow0.emb (ix2 (0 : Fin 1) j) :=
  funext fun a => Fin.ext (by
    rw [emb_row_val]
    match a with
    | ⟨0, _⟩ => rfl
    | ⟨1, _⟩ => show j.val = 0 + j.val; omega)

theorem ix2_row1 (j : Fin 768) : (ix2 (1 : Fin 2) j : S2x768.Idx) = rRow1.emb (ix2 (0 : Fin 1) j) :=
  funext fun a => Fin.ext (by
    rw [emb_row_val]
    match a with
    | ⟨0, _⟩ => rfl
    | ⟨1, _⟩ => show j.val = 0 + j.val; omega)

/-- One point's update, read in row 0: the column sums of the products are added. -/
theorem step0_row0 (x0 : Vec Ideal S640x512 .f32) (x1 : Vec Ideal S512x768 .f32) (xs : Vec Ideal S2x768 .f32) (j : Fin 768) :
    step0 x0 x1 xs (ix2 0 j) = xs (ix2 0 j) + ∑ r : Fin 640, hT x0 x1 r j := by
  unfold step0
  rw [ix2_row0, View.canon_cons_of_not_mem (⟨rRow1, _⟩ : View.Piece (Elt Ideal) S2x768 .f32) _ (row0_not_mem_row1 _), View.canon_cons_emb]
  rw [View.ld_unit_zero hz2, View.ld_unit_zero hz2]
  unfold k0_pay3
  simp only [shapeCast_self]
  show View.ld xs rRow0 (ix2 0 j) + _ = _
  refine congrArg₂ (· + ·) rfl ?_
  refine (tile_colsum_apply reduces_S640x768_S768 shapeCasts_S768_S1x768 (k0_pay2 x0 x1) (.inl rfl) rfl j).trans ?_
  exact Finset.sum_congr rfl fun r _ => pay2_apply x0 x1 r j

/-- One point's update, read in row 1: the column sums of the squared products are added. -/
theorem step0_row1 (x0 : Vec Ideal S640x512 .f32) (x1 : Vec Ideal S512x768 .f32) (xs : Vec Ideal S2x768 .f32) (j : Fin 768) :
    step0 x0 x1 xs (ix2 1 j) = xs (ix2 1 j) + ∑ r : Fin 640, hT x0 x1 r j * hT x0 x1 r j := by
  unfold step0
  rw [ix2_row1, View.canon_cons_emb]
  rw [View.ld_unit_zero hz2, View.ld_unit_zero hz2]
  unfold k0_pay4
  simp only [shapeCast_self]
  show View.ld xs rRow1 (ix2 0 j) + _ = _
  refine congrArg₂ (· + ·) rfl ?_
  refine (tile_colsum_apply reduces_S640x768_S768 shapeCasts_S768_S1x768 (mulf (k0_pay2 x0 x1) (k0_pay2 x0 x1)) (.inl rfl) rfl j).trans ?_
  exact Finset.sum_congr rfl fun r _ => by rw [mulf_apply, pay2_apply]

/-! ## The scratch buffer after each point, read at an index -/

variable (V : (c : Dev nD) → (b : Ref sig .tc) → Buf (Elt Ideal) ((c : Thread nD τ).loc b))

/-- What point t adds to row 0 at column j (zero past the grid), and to row 1. -/
def colS (c : Dev nD) (j : Fin 768) (t : ℕ) : EReal :=
  if ht : t < cfg0.N then ∑ r : Fin 640, hT (iblk0 V c 0 ⟨t, ht⟩) (iblk0 V c 1 ⟨t, ht⟩) r j else 0
def colQ (c : Dev nD) (j : Fin 768) (t : ℕ) : EReal :=
  if ht : t < cfg0.N then ∑ r : Fin 640, hT (iblk0 V c 0 ⟨t, ht⟩) (iblk0 V c 1 ⟨t, ht⟩) r j * hT (iblk0 V c 0 ⟨t, ht⟩) (iblk0 V c 1 ⟨t, ht⟩) r j else 0

theorem pay1_apply (i : S2x768.Idx) : (k0_pay1 (F := Ideal)) i = 0 := by
  unfold k0_pay1
  simp only [shapeCast_self]
  exact Ideal.ofBits_zero_f32

theorem accAt_row0 (c : Dev nD) (j : Fin 768) : ∀ (n : ℕ) (hn : n < cfg0.N),
    accAt V c n hn (ix2 0 j) = ∑ t ∈ Finset.range (n + 1), colS V c j t
  | 0, hn => by
    show step0 _ _ _ (ix2 0 j) = _
    rw [step0_row0, pay1_apply, zero_add, Finset.sum_range_one]
    unfold colS
    rw [dif_pos hn]
  | n + 1, hn => by
    show step0 _ _ (accAt V c n _) (ix2 0 j) = _
    rw [step0_row0, accAt_row0 c j n _]
    refine Eq.trans ?_ (Finset.sum_range_succ (fun t => colS V c j t) (n + 1)).symm
    refine congrArg₂ (· + ·) rfl ?_
    unfold colS
    rw [dif_pos hn]

theorem accAt_row1 (c : Dev nD) (j : Fin 768) : ∀ (n : ℕ) (hn : n < cfg0.N),
    accAt V c n hn (ix2 1 j) = ∑ t ∈ Finset.range (n + 1), colQ V c j t
  | 0, hn => by
    show step0 _ _ _ (ix2 1 j) = _
    rw [step0_row1, pay1_apply, zero_add, Finset.sum_range_one]
    unfold colQ
    rw [dif_pos hn]
  | n + 1, hn => by
    show step0 _ _ (accAt V c n _) (ix2 1 j) = _
    rw [step0_row1, accAt_row1 c j n _]
    refine Eq.trans ?_ (Finset.sum_range_succ (fun t => colQ V c j t) (n + 1)).symm
    refine congrArg₂ (· + ·) rfl ?_
    unfold colQ
    rw [dif_pos hn]

/-! ## The blocks as rows of the arrays -/

theorem idx0_facts : ∀ t : Fin cfg0.N, win0_0.index t (0 : Fin 2) = t.val ∧ win0_0.index t (1 : Fin 2) = 0
    ∧ win0_1.index t (0 : Fin 2) = 0 ∧ win0_1.index t (1 : Fin 2) = 0 :=
  (by decide +kernel : ∀ t : Fin grid0.N, _)

/-- The first window's block at point t is rows 640 t … 640 t + 639 of the padded vocabulary matrix. -/
theorem iblk0_0_apply (c : Dev nD) (t : Fin cfg0.N) (r : Fin 640) (k : Fin 512) (hv : 640 * t.val + r.val < 30080) :
    (iblk0 V c 0 t : Vec Ideal S640x512 .f32) (ix2 r k)
      = (V c main_v0 : S30080x512.Idx → EReal) (ix2 ⟨640 * t.val + r.val, hv⟩ k) := by
  obtain ⟨e0, e1, -, -⟩ := idx0_facts t
  unfold iblk0
  rw [View.read_apply]
  show V c main_v0 _ = V c main_v0 _
  refine congrArg (V c main_v0) (funext fun a => Fin.ext ?_)
  match a with
  | ⟨0, _⟩ => show win0_0.index t 0 * 640 + 1 * r.val = 640 * t.val + r.val; rw [e0]; omega
  | ⟨1, _⟩ => show win0_0.index t 1 * 512 + 1 * k.val = k.val; rw [e1]; omega

/-- The second window's block at every point is the whole weight matrix. -/
theorem iblk0_1_apply (c : Dev nD) (t : Fin cfg0.N) (k : Fin 512) (j : Fin 768) :
    (iblk0 V c 1 t : Vec Ideal S512x768 .f32) (ix2 k j) = (V c main_arg2 : S512x768.Idx → EReal) (ix2 k j) := by
  obtain ⟨-, -, e0, e1⟩ := idx0_facts t
  unfold iblk0
  rw [View.read_apply]
  show V c main_arg2 _ = V c main_arg2 _
  refine congrArg (V c main_arg2) (funext fun a => Fin.ext ?_)
  match a with
  | ⟨0, _⟩ => show win0_1.index t 0 * 512 + 1 * k.val = k.val; rw [e0]; omega
  | ⟨1, _⟩ => show win0_1.index t 1 * 768 + 1 * j.val = j.val; rw [e1]; omega

/-- The products of the padded matrix's normalised rows with the weight matrix. -/
def hRows (X : S30080x512.Idx → EReal) (W : S512x768.Idx → EReal) (v : Fin 30080) (j : Fin 768) : EReal :=
  ∑ k : Fin 512, unitRow 0x2B8CBCCC#32 (fun k => X (ix2 v k)) k * W (ix2 k j)

theorem hT_block (c : Dev nD) (t : Fin cfg0.N) (r : Fin 640) (j : Fin 768) (hv : 640 * t.val + r.val < 30080) :
    hT (iblk0 V c 0 t) (iblk0 V c 1 t) r j = hRows (V c main_v0) (V c main_arg2) ⟨640 * t.val + r.val, hv⟩ j := by
  unfold hT hRows
  have e : (fun k => (iblk0 V c 0 t : Vec Ideal S640x512 .f32) (ix2 r k))
      = fun k => (V c main_v0 : S30080x512.Idx → EReal) (ix2 ⟨640 * t.val + r.val, hv⟩ k) :=
    funext fun k => iblk0_0_apply V c t r k hv
  refine Finset.sum_congr rfl fun k _ => ?_
  rw [iblk0_1_apply V c t k j]
  exact congrArg (fun f => unitRow 0x2B8CBCCC#32 f k * _) e

/-! ## The output array -/

theorem h46 : 46 < cfg0.N := by rw [show cfg0.N = 47 from N_0]; decide
abbrev tLast : Fin cfg0.N := ⟨46, h46⟩

/-- The one write-back, at the last point, writes the scratch buffer as the last point leaves it. -/
theorem flushed0_eq (c : Dev nD) (t : Fin cfg0.N) (hf : (cfg0.win 2).flush t = true) :
    (dat0 V c).flushed 2 t = ((cfg0.win 2).blk t).view.read (Elt Ideal) (accAt V c 46 h46) := by
  have hN : cfg0.N = 47 := N_0
  have h1 : t.val = 46 := by have := (flush0_2 t).mp hf; have := t.isLt; omega
  obtain rfl : t = tLast := Fin.ext h1
  show (cfg0.win 2).cut (grid0.coords tLast) ((dat0 V c).after 2 tLast) = _
  rw [after0_2, out_last]
  have hz' : (fun a => win0_2.index tLast a * main_v1.ty.shape.size a) = fun _ => 0 := funext fun a => by fin_cases a <;> decide +kernel
  exact (Memref.read_access_unit_zero (Elt Ideal) main_v1 hz' (fun a => by rw [congrFun hz' a]; simp) (accAt V c 46 h46)).symm

/-- So the output array ends holding it: the last point's block is the whole array. -/
theorem final0 (c : Dev nD) : (dat0 V c).arrAt 2 cfg0.N = accAt V c 46 h46 :=
  (dat0 V c).arrAt_eq_of_cover 2 (accAt V c 46 h46) (flushed0_eq V c) fun i =>
    ⟨tLast, (flush0_2 tLast).mpr rfl, by
      show i ∈ ((View.whole main_v1).slice (win0_2.rect tLast)).set
      rw [View.set_slice_whole, Rect.mem_set_unit]
      intro a
      have h0 : (i 0 : Nat) < 2 := (i 0).isLt
      have h1 : (i 1 : Nat) < 768 := (i 1).isLt
      match a with
      | ⟨0, _⟩ => show win0_2.index tLast 0 * win0_2.size 0 ≤ (i 0 : Nat) ∧ (i 0 : Nat) < win0_2.index tLast 0 * win0_2.size 0 + win0_2.xsize (grid0.coords tLast) 0
                  rw [show win0_2.index tLast 0 * win0_2.size 0 = 0 from by decide +kernel, show win0_2.xsize (grid0.coords tLast) 0 = 2 from by decide +kernel]; omega
      | ⟨1, _⟩ => show win0_2.index tLast 1 * win0_2.size 1 ≤ (i 1 : Nat) ∧ (i 1 : Nat) < win0_2.index tLast 1 * win0_2.size 1 + win0_2.xsize (grid0.coords tLast) 1
                  rw [show win0_2.index tLast 1 * win0_2.size 1 = 0 from by decide +kernel, show win0_2.xsize (grid0.coords tLast) 1 = 768 from by decide +kernel]; omega⟩

/-- The sum over the grid's points of the sums over a block's rows is the sum over all the padded rows. -/
theorem tiles_sum (c : Dev nD) (j : Fin 768) (f : EReal → EReal) (hf0 : True) :
    ∑ t ∈ Finset.range 47, (if ht : t < cfg0.N then ∑ r : Fin 640, f (hT (iblk0 V c 0 ⟨t, ht⟩) (iblk0 V c 1 ⟨t, ht⟩) r j) else 0)
      = ∑ v : Fin 30080, f (hRows (V c main_v0) (V c main_arg2) v j) := by
  have hN : cfg0.N = 47 := N_0
  have key := sum_fin_tiles (fun v => if hv : v < 30080 then f (hRows (V c main_v0) (V c main_arg2) ⟨v, hv⟩ j) else 0) 640 47
    (show 640 * 47 = 30080 from by norm_num)
  refine Eq.trans (Finset.sum_congr rfl fun t ht => ?_) (key.trans (Finset.sum_congr rfl fun v _ => ?_))
  · have ht' : t < 47 := Finset.mem_range.mp ht
    rw [dif_pos (by omega : t < cfg0.N)]
    refine Finset.sum_congr rfl fun r _ => ?_
    have hv : 640 * t + r.val < 30080 := by have := r.isLt; omega
    rw [dif_pos hv]
    exact congrArg f (hT_block V c ⟨t, by omega⟩ r j hv)
  · rw [dif_pos v.isLt]

/-- Row 0 of the statistics array: the sum over all padded rows of the products; row 1: of their squares. -/
theorem final0_row0 (c : Dev nD) (j : Fin 768) :
    (dat0 V c).arrAt 2 cfg0.N (ix2 (0 : Fin 2) j) = ∑ v : Fin 30080, hRows (V c main_v0) (V c main_arg2) v j := by
  rw [final0, accAt_row0]
  exact tiles_sum V c j id trivial

theorem final0_row1 (c : Dev nD) (j : Fin 768) :
    (dat0 V c).arrAt 2 cfg0.N (ix2 (1 : Fin 2) j)
      = ∑ v : Fin 30080, hRows (V c main_v0) (V c main_arg2) v j * hRows (V c main_v0) (V c main_arg2) v j := by
  rw [final0, accAt_row1]
  exact tiles_sum V c j (fun x => x * x) trivial

end Cert.KernelIdeal.Fr

end
-- ==== Proof.KI.Val1a.lean ====
/-
  What the prototype kernel stores for one block of 640 rows, over the extended reals. With h the products of the
  block's normalised rows with the first weight matrix, the block's row r becomes
      y (r, j) = max (h (r, j) · scale (j) + shift (j)) 0,    z (r, i) = Σ_j y (r, j) · W2 (j, i) + b2 (i),
  and the stored row is z (r, ·) divided by the larger of its Euclidean norm and the small constant.
-/
import proofs.«115421_j19954418057708_1_alg».proof.Proof.KI.Val0b

set_option maxRecDepth 16384

noncomputable section

open Idealize.ShloMosaic Idealize.ShloMosaic.TcCoe Idealize.SL.Sem Idealize.ShloMosaic.Tactic
open Idealize.ShloMosaic.Pipeline (Dat)
open Idealize.ShloMosaic.ValueIdx
namespace Cert.KernelIdeal.Fr

open Cert.KernelIdeal Cert.KernelIdeal.Gen

open Cert.Lib

/-- The matrix product of a block's normalised rows with the weight matrix, in the kernel's spelling, at (r, j). -/
theorem hmat_apply (x0 : Vec Ideal S640x512 .f32) (x1 : Vec Ideal S512x768 .f32) (r : Fin 640) (j : Fin 768) :
    matmul dot_S640x512_S512x768_S640x768_1_0_0_1_n_n none
      (truncf .bf16 (divf x0 (broadcastTo S640x512 (maximumf (sqrt (shapeCast S640x1
        (multiReduction .add [1] S640 (mulf x0 x0) 0x00000000#32 reduces_S640x512_S640 (.inl rfl) rfl) shapeCasts_S640_S640x1))
        (broadcast S640x1 (Scalar.ofBits .f32 0x2B8CBCCC#32 : Ideal .f32))) broadcasts_S640x1_S640x512)) bitsLt_bf16_f32)
      (truncf .bf16 x1 bitsLt_bf16_f32) (constant S640x768 .f32 0x00000000#32) (ix2 r j) = hT x0 x1 r j := by
  refine (matmul_zero_apply dot_S640x512_S512x768_S640x768_1_0_0_1_n_n.wf none _ _ r j).trans ?_
  unfold hT
  refine Finset.sum_congr rfl fun k _ => congrArg (· * _) ?_
  exact unitRows_kernel_apply x0 0x2B8CBCCC#32 reduces_S640x512_S640 shapeCasts_S640_S640x1 broadcasts_S640x1_S640x512 (.inl rfl) rfl r k

/-- The hidden layer of a block: the products scaled, shifted and clipped at zero. -/
def yT (x0 : Vec Ideal S640x512 .f32) (x1 : Vec Ideal S512x768 .f32) (sc sh : Vec Ideal S1x768 .f32) (r : Fin 640) (j : Fin 768) : EReal :=
  max (hT x0 x1 r j * sc (ix2 0 j) + sh (ix2 0 j)) (Ideal.ofBits .f32 0x00000000#32)

/-- The second layer of a block. -/
def zT (x0 : Vec Ideal S640x512 .f32) (x1 : Vec Ideal S512x768 .f32) (x2 : Vec Ideal S768x768 .f32) (x3 sc sh : Vec Ideal S1x768 .f32)
    (r : Fin 640) (i : Fin 768) : EReal :=
  (∑ j : Fin 768, yT x0 x1 sc sh r j * x2 (ix2 j i)) + x3 (ix2 0 i)

/-- What the body stores, at (r, i). -/
theorem pay1k_apply (x0 : Vec Ideal S640x512 .f32) (x1 : Vec Ideal S512x768 .f32) (sc sh : Vec Ideal S1x768 .f32)
    (x2 : Vec Ideal S768x768 .f32) (x3 : Vec Ideal S1x768 .f32) (r : Fin 640) (i : Fin 768) :
    k1_pay1 x0 x1 sc sh x2 x3 (ix2 r i) = unitRow 0x2B8CBCCC#32 (fun i => zT x0 x1 x2 x3 sc sh r i) i := by
  unfold k1_pay1
  simp only [shapeCast_self]
  refine (unitRows_kernel_apply _ 0x2B8CBCCC#32 reduces_S640x768_S640 shapeCasts_S640_S640x1 broadcasts_S640x1_S640x768 (.inl rfl) rfl r i).trans ?_
  refine congrArg (fun f => unitRow 0x2B8CBCCC#32 f i) (funext fun i' => ?_)
  unfold zT
  refine congrArg₂ (· + ·) ((matmul_zero_apply dot_S640x768_S768x768_S640x768_1_0_0_1_n_n.wf none _ _ r i').trans
    (Finset.sum_congr rfl fun j _ => congrArg (· * _) ?_)) (broadcastTo_1b_ab_apply x3 broadcasts_S1x768_S640x768 r i')
  unfold yT
  refine congrArg₂ max (congrArg₂ (· + ·) (congrArg₂ (· * ·) (hmat_apply x0 x1 r j) (broadcastTo_1b_ab_apply sc broadcasts_S1x768_S640x768 r j))
    (broadcastTo_1b_ab_apply sh broadcasts_S1x768_S640x768 r j)) rfl

end Cert.KernelIdeal.Fr

end
-- ==== Proof.KI.Val1b.lean ====
/-
  What the prototype kernel leaves in its output array, over the extended reals. Block t of the first window is rows
  640 t … 640 t + 639 of the padded vocabulary matrix, the other five windows' blocks are their whole arrays, and block t
  of the output is rows 640 t … 640 t + 639 of the prototype array; the 47 output blocks tile it. So row v of the
  prototype array is the normalised second layer of row v of the padded vocabulary matrix.
-/
import proofs.«115421_j19954418057708_1_alg».proof.Proof.KI.Val1a
import proofs.«115421_j19954418057708_1_alg».proof.Proof.KI.Reg1

set_option maxRecDepth 16384

noncomputable section

open Idealize.ShloMosaic Idealize.ShloMosaic.TcCoe Idealize.SL.Sem Idealize.ShloMosaic.Tactic
open Idealize.ShloMosaic.Pipeline (Dat)
open Idealize.ShloMosaic.ValueIdx
namespace Cert.KernelIdeal.Fr

open Cert.KernelIdeal Cert.KernelIdeal.Gen

open Cert.Lib

variable (V : (c : Dev nD) → (b : Ref sig .tc) → Buf (Elt Ideal) ((c : Thread nD τ).loc b))

theorem idx1_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The first window's block at point t is rows 640 t … 640 t + 639 of the padded vocabulary matrix. -/
theorem iblk1_0_apply (c : Dev nD) (t : Fin cfg1.N) (r : Fin 640) (k : Fin 512) (hv : 640 * t.val + r.val < 30080) :
    (iblk1 V c 0 t : Vec Ideal S640x512 .f32) (ix2 r k)
      = (V c main_v0 : S30080x512.Idx → EReal) (ix2 ⟨640 * t.val + r.val, hv⟩ k) := by
  obtain ⟨e0, e1, -⟩ := idx1_facts t
  unfold iblk1
  rw [View.read_apply]
  show V c main_v0 _ = V c main_v0 _
  refine congrArg (V c main_v0) (funext fun a => Fin.ext ?_)
  match a with
  | ⟨0, _⟩ => show win1_0.index t 0 * 640 + 1 * r.val = 640 * t.val + r.val; rw [e0]; omega
  | ⟨1, _⟩ => show win1_0.index t 1 * 512 + 1 * k.val = k.val; rw [e1]; omega

/-- Window 1's block at every point is its whole array. -/
theorem iblk1_1_eq (c : Dev nD) (t : Fin cfg1.N) :
    (iblk1 V c 1 t : Vec Ideal S512x768 .f32) = (V c main_arg2 : S512x768.Idx → EReal) := by
  have hf := idx1_facts t
  have e0 : win1_1.index t (0 : Fin 2) = 0 := hf.2.2.1
  have e1 : win1_1.index t (1 : Fin 2) = 0 := hf.2.2.2.1
  funext y
  unfold iblk1
  rw [View.read_apply]
  show V c main_arg2 _ = V c main_arg2 y
  refine congrArg (V c main_arg2) (funext fun a => Fin.ext ?_)
  match a with
  | ⟨0, _⟩ => show win1_1.index t 0 * 512 + 1 * (y 0).val = (y 0).val; rw [e0]; omega
  | ⟨1, _⟩ => show win1_1.index t 1 * 768 + 1 * (y 1).val = (y 1).val; rw [e1]; omega

/-- Window 2's block at every point is its whole array. -/
theorem iblk1_2_eq (c : Dev nD) (t : Fin cfg1.N) :
    (iblk1 V c 2 t : Vec Ideal S768x768 .f32) = (V c main_arg5 : S768x768.Idx → EReal) := by
  have hf := idx1_facts t
  have e0 : win1_2.index t (0 : Fin 2) = 0 := hf.2.2.2.2.1
  have e1 : win1_2.index t (1 : Fin 2) = 0 := hf.2.2.2.2.2.1
  funext y
  unfold iblk1
  rw [View.read_apply]
  show V c main_arg5 _ = V c main_arg5 y
  refine congrArg (V c main_arg5) (funext fun a => Fin.ext ?_)
  match a with
  | ⟨0, _⟩ => show win1_2.index t 0 * 768 + 1 * (y 0).val = (y 0).val; rw [e0]; omega
  | ⟨1, _⟩ => show win1_2.index t 1 * 768 + 1 * (y 1).val = (y 1).val; rw [e1]; omega

/-- Window 3's block at every point is its whole array. -/
theorem iblk1_3_eq (c : Dev nD) (t : Fin cfg1.N) :
    (iblk1 V c 3 t : Vec Ideal S1x768 .f32) = (V c main_v20 : S1x768.Idx → EReal) := by
  have hf := idx1_facts t
  have e0 : win1_3.index t (0 : Fin 2) = 0 := hf.2.2.2.2.2.2.1
  have e1 : win1_3.index t (1 : Fin 2) = 0 := hf.2.2.2.2.2.2.2.1
  funext y
  unfold iblk1
  rw [View.read_apply]
  show V c main_v20 _ = V c main_v20 y
  refine congrArg (V c main_v20) (funext fun a => Fin.ext ?_)
  match a with
  | ⟨0, _⟩ => show win1_3.index t 0 * 1 + 1 * (y 0).val = (y 0).val; rw [e0]; omega
  | ⟨1, _⟩ => show win1_3.index t 1 * 768 + 1 * (y 1).val = (y 1).val; rw [e1]; omega

/-- Window 4's block at every point is its whole array. -/
theorem iblk1_4_eq (c : Dev nD) (t : Fin cfg1.N) :
    (iblk1 V c 4 t : Vec Ideal S1x768 .f32) = (V c main_v18 : S1x768.Idx → EReal) := by
  have hf := idx1_facts t
  have e0 : win1_4.index t (0 : Fin 2) = 0 := hf.2.2.2.2.2.2.2.2.1
  have e1 : win1_4.index t (1 : Fin 2) = 0 := hf.2.2.2.2.2.2.2.2.2.1
  funext y
  unfold iblk1
  rw [View.read_apply]
  show V c main_v18 _ = V c main_v18 y
  refine congrArg (V c main_v18) (funext fun a => Fin.ext ?_)
  match a with
  | ⟨0, _⟩ => show win1_4.index t 0 * 1 + 1 * (y 0).val = (y 0).val; rw [e0]; omega
  | ⟨1, _⟩ => show win1_4.index t 1 * 768 + 1 * (y 1).val = (y 1).val; rw [e1]; omega

/-- Window 5's block at every point is its whole array. -/
theorem iblk1_5_eq (c : Dev nD) (t : Fin cfg1.N) :
    (iblk1 V c 5 t : Vec Ideal S1x768 .f32) = (V c main_v19 : S1x768.Idx → EReal) := by
  have hf := idx1_facts t
  have e0 : win1_5.index t (0 : Fin 2) = 0 := hf.2.2.2.2.2.2.2.2.2.2.1
  have e1 : win1_5.index t (1 : Fin 2) = 0 := hf.2.2.2.2.2.2.2.2.2.2.2.1
  funext y
  unfold iblk1
  rw [View.read_apply]
  show V c main_v19 _ = V c main_v19 y
  refine congrArg (V c main_v19) (funext fun a => Fin.ext ?_)
  match a with
  | ⟨0, _⟩ => show win1_5.index t 0 * 1 + 1 * (y 0).val = (y 0).val; rw [e0]; omega
  | ⟨1, _⟩ => show win1_5.index t 1 * 768 + 1 * (y 1).val = (y 1).val; rw [e1]; omega

/-- Row v of the prototype array as a function of the arrays the region is entered with. -/
def protoRows (X : S30080x512.Idx → EReal) (W1 : S512x768.Idx → EReal) (W2 : S768x768.Idx → EReal) (b2 sc sh : S1x768.Idx → EReal)
    (v : Fin 30080) (i : Fin 768) : EReal :=
  unitRow 0x2B8CBCCC#32 (fun i => (∑ j : Fin 768,
    max (hRows X W1 v j * sc (ix2 0 j) + sh (ix2 0 j)) (Ideal.ofBits .f32 0x00000000#32) * W2 (ix2 j i)) + b2 (ix2 0 i)) i

def G1 (X : S30080x512.Idx → EReal) (W1 : S512x768.Idx → EReal) (W2 : S768x768.Idx → EReal) (b2 sc sh : S1x768.Idx → EReal) :
    S30080x768.Idx → EReal :=
  fun idx => protoRows X W1 W2 b2 sc sh ⟨(idx 0).val, idx2_lt0 idx⟩ ⟨(idx 1).val, idx2_lt1 idx⟩

theorem G1_at (X : S30080x512.Idx → EReal) (W1 : S512x768.Idx → EReal) (W2 : S768x768.Idx → EReal) (b2 sc sh : S1x768.Idx → EReal)
    (idx : S30080x768.Idx) (v : Fin 30080) (i : Fin 768) (h0 : (idx 0).val = v.val) (h1 : (idx 1).val = i.val) :
    G1 X W1 W2 b2 sc sh idx = protoRows X W1 W2 b2 sc sh v i := by
  unfold G1
  have ev : (⟨(idx 0).val, idx2_lt0 idx⟩ : Fin 30080) = v := Fin.ext h0
  have ei : (⟨(idx 1).val, idx2_lt1 idx⟩ : Fin 768) = i := Fin.ext h1
  rw [ev, ei]

theorem hT_block1 (c : Dev nD) (t : Fin cfg1.N) (x1 : Vec Ideal S512x768 .f32) (r : Fin 640) (j : Fin 768) (hv : 640 * t.val + r.val < 30080) :
    hT (iblk1 V c 0 t) x1 r j = hRows (V c main_v0) x1 ⟨640 * t.val + r.val, hv⟩ j := by
  unfold hT hRows
  have e : (fun k => (iblk1 V c 0 t : Vec Ideal S640x512 .f32) (ix2 r k))
      = fun k => (V c main_v0 : S30080x512.Idx → EReal) (ix2 ⟨640 * t.val + r.val, hv⟩ k) :=
    funext fun k => iblk1_0_apply V c t r k hv
  exact Finset.sum_congr rfl fun k _ => congrArg (fun f => unitRow 0x2B8CBCCC#32 f k * _) e

/-- What point t writes back is block t of the prototype array's function. -/
theorem flushed1_eq (c : Dev nD) (t : Fin cfg1.N) (hf : (cfg1.win 6).flush t = true) :
    (dat1 V c).flushed 6 t = ((cfg1.win 6).blk t).view.read (Elt Ideal)
      (G1 (V c main_v0) (V c main_arg2) (V c main_arg5) (V c main_v20) (V c main_v18) (V c main_v19)) := by
  have hN : cfg1.N = 47 := N_1
  have hfa := idx1_facts t
  have e60 : win1_6.index t (0 : Fin 2) = t.val := hfa.2.2.2.2.2.2.2.2.2.2.2.2.1
  have e61 : win1_6.index t (1 : Fin 2) = 0 := hfa.2.2.2.2.2.2.2.2.2.2.2.2.2
  show (cfg1.win 6).cut (grid1.coords t) ((dat1 V c).after 6 t) = _
  rw [after1_6]
  unfold out1_6
  rw [View.canon_unit_zero hz2]
  simp only [View.ld_unit_zero (S := S640x512) hz2 inb_S640x512_S640x512_0_0, View.ld_unit_zero (S := S512x768) hz2 inb_S512x768_S512x768_0_0,
    View.ld_unit_zero (S := S768x768) hz2 inb_S768x768_S768x768_0_0, View.ld_unit_zero (S := S1x768) hz2 inb_S1x768_S1x768_0_0]
  rw [iblk1_1_eq, iblk1_2_eq, iblk1_3_eq, iblk1_4_eq, iblk1_5_eq]
  funext y
  obtain ⟨r, i, rfl⟩ : ∃ (r : Fin 640) (i : Fin 768), y = ix2 r i := ⟨y 0, y 1, eq_ix2 y⟩
  have hv : 640 * t.val + r.val < 30080 := by have := t.isLt; have := r.isLt; omega
  refine (pay1k_apply _ _ _ _ _ _ r i).trans ?_
  rw [View.read_apply]
  refine Eq.trans ?_ (G1_at _ _ _ _ _ _ _ ⟨640 * t.val + r.val, hv⟩ i ?_ ?_).symm
  · unfold protoRows zT yT
    refine congrArg (fun f => unitRow 0x2B8CBCCC#32 f i) (funext fun i' => ?_)
    refine congrArg₂ (· + ·) (Finset.sum_congr rfl fun j _ => ?_) rfl
    rw [hT_block1 V c t _ r j hv]
  · show win1_6.index t 0 * 640 + 1 * r.val = 640 * t.val + r.val
    rw [e60]; omega
  · show win1_6.index t 1 * 768 + 1 * i.val = i.val
    rw [e61]; omega

theorem mem_blk1 (t : Fin cfg1.N) (i : S30080x768.Idx) :
    i ∈ ((cfg1.win 6).blk t).view.set ↔ ∀ a : Fin 2, win1_6.index t a * S640x768.size a ≤ (i a).val ∧ (i a).val < win1_6.index t a * S640x768.size a + S640x768.size a := by
  show i ∈ ((View.whole main_v21).slice (win1_6.rect t)).set ↔ _
  rw [View.set_slice_whole, Rect.mem_set_unit]
  exact Iff.rfl

/-- The prototype array after the region: row v is the normalised second layer of the padded matrix's row v. -/
theorem final1 (c : Dev nD) : (dat1 V c).arrAt 6 cfg1.N
    = G1 (V c main_v0) (V c main_arg2) (V c main_arg5) (V c main_v20) (V c main_v18) (V c main_v19) :=
  (dat1 V c).arrAt_eq_of_cover 6 _ (flushed1_eq V c) fun i => by
    have hN : cfg1.N = 47 := N_1
    have hi0 : (i 0).val < 30080 := idx2_lt0 i
    have hi1 : (i 1).val < 768 := idx2_lt1 i
    have hq : (i 0).val / 640 < cfg1.N := by rw [hN]; omega
    have hfa := idx1_facts ⟨(i 0).val / 640, hq⟩
    have e60 : win1_6.index ⟨(i 0).val / 640, hq⟩ (0 : Fin 2) = (i 0).val / 640 := hfa.2.2.2.2.2.2.2.2.2.2.2.2.1
    have e61 : win1_6.index ⟨(i 0).val / 640, hq⟩ (1 : Fin 2) = 0 := hfa.2.2.2.2.2.2.2.2.2.2.2.2.2
    refine ⟨⟨(i 0).val / 640, hq⟩, flush1_6 _, ?_⟩
    rw [mem_blk1]
    intro a
    match a with
    | ⟨0, _⟩ =>
      show win1_6.index ⟨(i 0).val / 640, hq⟩ 0 * 640 ≤ (i 0).val ∧ (i 0).val < win1_6.index ⟨(i 0).val / 640, hq⟩ 0 * 640 + 640
      rw [e60]; omega
    | ⟨1, _⟩ =>
      show win1_6.index ⟨(i 0).val / 640, hq⟩ 1 * 768 ≤ (i 1).val ∧ (i 1).val < win1_6.index ⟨(i 0).val / 640, hq⟩ 1 * 768 + 768
      rw [e61]; omega

end Cert.KernelIdeal.Fr

end
-- ==== Proof.LibGram.lean ====
/-
  The product of an [M, K] matrix with the transpose of an [N, K] matrix — both operands contracted on their second
  axis — read at an output index. Independent of any program.

  With no batch axis the contraction index has one coordinate, running over the K shared positions; at the output
  index (p, q) the left operand is read at (p, k) and the right at (q, k). So the contraction's sum over its own index
  type is the sum over k of l (p, k) · r (q, k): the inner product of row p of the left operand with row q of the
  right one.
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- The dimension numbers of a product of rows with rows, [M, K] × [N, K] → [M, N]. -/
abbrev rowsDot (M K N : Nat)
    (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

/-- THE CONTRACTION AS A SUM OVER k: at the output index (p, q) the product's terms are l (p, k) · r (q, k). -/
theorem rowsDot_sum {M K N : Nat}
    (wf : DotDims.WF ⟨2, ![M, K]⟩ ⟨2, ![N, K]⟩ ⟨2, ![M, N]⟩ [1] [1] [0] [0] [] [])
    (l : (⟨2, ![M, K]⟩ : Shape).Idx → EReal) (r : (⟨2, ![N, K]⟩ : Shape).Idx → EReal) (p : Fin M) (q : Fin N) :
    ∑ k : (rowsDot M K N wf).contr.Idx,
        l ((rowsDot M K N wf).lhsIdx (ix2 p q) k) * r ((rowsDot M K N wf).rhsIdx (ix2 p q) k)
      = ∑ k : Fin K, l (ix2 p k) * r (ix2 q k) := by
  rw [← Equiv.sum_comp (contrEquiv1 (rowsDot M K N wf) K rfl rfl).symm]
  refine Finset.sum_congr rfl fun k _ => ?_
  have hk := contrEquiv1_symm_val (rowsDot M K N wf) K rfl rfl k
  have el : (rowsDot M K N wf).lhsIdx (ix2 p q) ((contrEquiv1 (rowsDot M K N wf) K rfl rfl).symm k) = ix2 p k :=
    funext fun a => Fin.ext (by
      match a with
      | ⟨0, _⟩ =>
        show ((rowsDot M K N wf).lhsIdx (ix2 p q) ((contrEquiv1 (rowsDot M K N wf) K rfl rfl).symm k) 0).val = p.val
        unfold DotDims.lhsIdx
        rw [dif_neg (show ¬ (0 : Fin 2) ∈ ([] : List (Fin 2)) from List.not_mem_nil),
          dif_pos (show (0 : Fin 2) ∈ ([0] : List (Fin 2)) from List.mem_singleton.mpr rfl)]
        rfl
      | ⟨1, _⟩ => exact ((rowsDot M K N wf).lhsIdx_val_of_single rfl (ix2 p q) _).trans hk)
  have er : (rowsDot M K N wf).rhsIdx (ix2 p q) ((contrEquiv1 (rowsDot M K N wf) K rfl rfl).symm k) = ix2 q k :=
    funext fun a => Fin.ext (by
      match a with
      | ⟨0, _⟩ =>
        show ((rowsDot M K N wf).rhsIdx (ix2 p q) ((contrEquiv1 (rowsDot M K N wf) K rfl rfl).symm k) 0).val = q.val
        unfold DotDims.rhsIdx
        rw [dif_neg (show ¬ (0 : Fin 2) ∈ ([] : List (Fin 2)) from List.not_mem_nil),
          dif_pos (show (0 : Fin 2) ∈ ([0] : List (Fin 2)) from List.mem_singleton.mpr rfl)]
        rfl
      | ⟨1, _⟩ => exact ((rowsDot M K N wf).rhsIdx_val_of_single rfl (ix2 p q) _).trans hk)
  rw [el, er]

/-- A kernel's product of rows with rows into a zero accumulator, at (p, q). -/
theorem matmul_rows_zero_apply {M K N : Nat} {φ₁ φ₂ : FTy}
    (wf : DotDims.WF ⟨2, ![M, K]⟩ ⟨2, ![N, K]⟩ ⟨2, ![M, N]⟩ [1] [1] [0] [0] [] [])
    (prec : Option ContractPrecision) (l : FVec Ideal ⟨2, ![M, K]⟩ φ₁) (r : FVec Ideal ⟨2, ![N, K]⟩ φ₂)
    (p : Fin M) (q : Fin N) :
    FloatOps.matmul (rowsDot M K N wf) prec l r (constant (F := Ideal) ⟨2, ![M, N]⟩ .f32 0x00000000#32) (ix2 p q)
      = ∑ k : Fin K, l (ix2 p k) * r (ix2 q k) := by
  rw [Ideal.matmul_constant_zero_apply]
  exact rowsDot_sum wf l r p q

/-- The host's product of rows with rows, at (p, q). -/
theorem dotGeneral_rows_apply {M K N : Nat} {φ₁ φ₂ : FTy}
    (wf : DotDims.WF ⟨2, ![M, K]⟩ ⟨2, ![N, K]⟩ ⟨2, ![M, N]⟩ [1] [1] [0] [0] [] [])
    (prec : Option ContractPrecision) (sched : HostSchedule) (l : FVec Ideal ⟨2, ![M, K]⟩ φ₁) (r : FVec Ideal ⟨2, ![N, K]⟩ φ₂)
    (p : Fin M) (q : Fin N) :
    FloatOps.dotGeneral (rowsDot M K N wf) prec sched l r (ix2 p q)
      = ∑ k : Fin K, l (ix2 p k) * r (ix2 q k) := by
  rw [Ideal.dotGeneral_apply]
  exact rowsDot_sum wf l r p q

end Cert.Lib

end
-- ==== Proof.KI.Val2.lean ====
/-
  What the scoring kernel leaves in its output array, over the extended reals. At grid point t the body multiplies the
  8192 normalised patch rows with the 128 prototype rows of block t (row with row), regroups the 8192 rows as 8 batch
  entries of 1024 patches, and keeps for each batch entry and prototype the largest product over the patches, from
  minus infinity. Block t of the output is columns 128 t … 128 t + 127 of the score array, and the 235 blocks tile it. So
  entry (b, v) of the score array is the maximum over the 1024 patches n of Σ_d patch (1024 b + n, d) · prototype (v, d).
-/
import proofs.«115421_j19954418057708_1_alg».proof.Proof.KI.Val0b
import proofs.«115421_j19954418057708_1_alg».proof.Proof.KI.Reg2
import proofs.«115421_j19954418057708_1_alg».proof.Proof.LibGram

set_option maxRecDepth 16384

noncomputable section

open Idealize.ShloMosaic Idealize.ShloMosaic.TcCoe Idealize.SL.Sem Idealize.ShloMosaic.Tactic
open Idealize.ShloMosaic.Pipeline (Dat)
open Idealize.ShloMosaic.ValueIdx
namespace Cert.KernelIdeal.Fr

open Cert.KernelIdeal Cert.KernelIdeal.Gen

open Cert.Lib

/-- A matrix [a·b, c] regrouped as a stack [a, b, c]: entry (r, i, j) is row r·b + i, column j. -/
theorem cast_rows_to_stack {a b c n : ℕ} (hn : n = a * b) {α : Type} (x : (⟨2, ![n, c]⟩ : Shape).Idx → α)
    (h : (⟨2, ![n, c]⟩ : Shape).ShapeCasts ⟨3, ![a, b, c]⟩) (r : Fin a) (i : Fin b) (j : Fin c) (hl : r.val * b + i.val < n) :
    shapeCast ⟨3, ![a, b, c]⟩ x h (ix3 r i j) = x (ix2 ⟨r.val * b + i.val, hl⟩ j) :=
  shapeCast_apply x h _ _ (by
    rw [Shape.rowMajor_val_three, Shape.rowMajor_val_two]
    show (r.val * b + i.val) * c + j.val = (r.val * b + i.val) * c + j.val
    rfl)

/-- The largest product over a batch entry's patches, from minus infinity. -/
def scoreOf (P : S8192x768.Idx → EReal) (Q : Fin 768 → EReal) (b : Fin 8) : EReal :=
  (Finset.univ : Finset (Fin 1024)).fold max (Ideal.ofBits .f32 0xFF800000#32)
    (fun n => ∑ d : Fin 768, P (ix2 ⟨b.val * 1024 + n.val, by have := b.isLt; have := n.isLt; omega⟩ d) * Q d)

/-- What the body stores, at (b, q). -/
theorem pay2k_apply (x1 : Vec Ideal S128x768 .f32) (x0 : Vec Ideal S8192x768 .bf16) (b : Fin 8) (q : Fin 128) :
    k2_pay1 x1 x0 (ix2 b q) = scoreOf x0 (fun d => x1 (ix2 q d)) b := by
  unfold k2_pay1
  simp only [shapeCast_self]
  refine (Ideal.multiReduction_maximumf_single _ _ reduces_S8x1024x128_S8x128 (.inl rfl) rfl (ix2 b q)).trans ?_
  unfold scoreOf
  refine congrArg (fun g => (Finset.univ : Finset (Fin 1024)).fold max _ g) (funext fun n => ?_)
  show shapeCast S8x1024x128 _ shapeCasts_S8192x128_S8x1024x128 (reduces_S8x1024x128_S8x128.lift (ix2 b q) n) = _
  have el : reduces_S8x1024x128_S8x128.lift (ix2 b q) n = ix3 b n q := funext fun ax => Fin.ext (by
    rw [Shape.Reduces.lift_val]
    match ax with
    | ⟨0, _⟩ => rfl
    | ⟨1, _⟩ => rfl
    | ⟨2, _⟩ => rfl)
  rw [el]
  refine (cast_rows_to_stack (a := 8) (b := 1024) (c := 128) (n := 8192) (by norm_num) _ shapeCasts_S8192x128_S8x1024x128 b n q
    (by have := b.isLt; have hn : n.val < 1024 := n.isLt; omega)).trans ?_
  exact matmul_rows_zero_apply dot_S8192x768_S128x768_S8192x128_1_1_0_0_n_n.wf none x0 (truncf .bf16 x1 bitsLt_bf16_f32) _ q

variable (V : (c : Dev nD) → (b : Ref sig .tc) → Buf (Elt Ideal) ((c : Thread nD τ).loc b))

theorem idx2_facts : ∀ t : Fin cfg2.N,
    win2_0.index t (0 : Fin 2) = 0 ∧ win2_0.index t (1 : Fin 2) = 0
    ∧ win2_1.index t (0 : Fin 2) = t.val ∧ win2_1.index t (1 : Fin 2) = 0
    ∧ win2_2.index t (0 : Fin 2) = 0 ∧ win2_2.index t (1 : Fin 2) = t.val :=
  (by decide +kernel : ∀ t : Fin grid2.N, _)

/-- The first window's block at every point is the whole matrix of patch rows. -/
theorem iblk2_0_eq (c : Dev nD) (t : Fin cfg2.N) :
    (iblk2 V c 0 t : Vec Ideal S8192x768 .bf16) = (V c main_v28 : S8192x768.Idx → EReal) := by
  obtain ⟨e0, e1, -⟩ := idx2_facts t
  funext y
  unfold iblk2
  rw [View.read_apply]
  show V c main_v28 _ = V c main_v28 y
  refine congrArg (V c main_v28) (funext fun a => Fin.ext ?_)
  match a with
  | ⟨0, _⟩ => show win2_0.index t 0 * 8192 + 1 * (y 0).val = (y 0).val; rw [e0]; omega
  | ⟨1, _⟩ => show win2_0.index t 1 * 768 + 1 * (y 1).val = (y 1).val; rw [e1]; omega

/-- The second window's block at point t is rows 128 t … 128 t + 127 of the prototype array. -/
theorem iblk2_1_apply (c : Dev nD) (t : Fin cfg2.N) (q : Fin 128) (d : Fin 768) (hv : 128 * t.val + q.val < 30080) :
    (iblk2 V c 1 t : Vec Ideal S128x768 .f32) (ix2 q d)
      = (V c main_v21 : S30080x768.Idx → EReal) (ix2 ⟨128 * t.val + q.val, hv⟩ d) := by
  obtain ⟨-, -, e0, e1, -⟩ := idx2_facts t
  unfold iblk2
  rw [View.read_apply]
  show V c main_v21 _ = V c main_v21 _
  refine congrArg (V c main_v21) (funext fun a => Fin.ext ?_)
  match a with
  | ⟨0, _⟩ => show win2_1.index t 0 * 128 + 1 * q.val = 128 * t.val + q.val; rw [e0]; omega
  | ⟨1, _⟩ => show win2_1.index t 1 * 768 + 1 * d.val = d.val; rw [e1]; omega

/-- The score array as a function of the arrays the region is entered with. -/
def G2 (P : S8192x768.Idx → EReal) (Q : S30080x768.Idx → EReal) : S8x30080.Idx → EReal :=
  fun idx => scoreOf P (fun d => Q (ix2 ⟨(idx 1).val, idx2_lt1 idx⟩ d)) ⟨(idx 0).val, idx2_lt0 idx⟩

theorem G2_at (P : S8192x768.Idx → EReal) (Q : S30080x768.Idx → EReal) (idx : S8x30080.Idx) (b : Fin 8) (v : Fin 30080)
    (h0 : (idx 0).val = b.val) (h1 : (idx 1).val = v.val) : G2 P Q idx = scoreOf P (fun d => Q (ix2 v d)) b := by
  unfold G2
  have eb : (⟨(idx 0).val, idx2_lt0 idx⟩ : Fin 8) = b := Fin.ext h0
  have ev : (⟨(idx 1).val, idx2_lt1 idx⟩ : Fin 30080) = v := Fin.ext h1
  rw [eb, ev]

theorem flushed2_eq (c : Dev nD) (t : Fin cfg2.N) (hf : (cfg2.win 2).flush t = true) :
    (dat2 V c).flushed 2 t = ((cfg2.win 2).blk t).view.read (Elt Ideal) (G2 (V c main_v28) (V c main_v21)) := by
  have hN : cfg2.N = 235 := N_2
  obtain ⟨-, -, -, -, e20, e21⟩ := idx2_facts t
  show (cfg2.win 2).cut (grid2.coords t) ((dat2 V c).after 2 t) = _
  rw [after2_2]
  unfold out2_2
  rw [View.canon_unit_zero hz2]
  simp only [View.ld_unit_zero (S := S8192x768) hz2 inb_S8192x768_S8192x768_0_0, View.ld_unit_zero (S := S128x768) hz2 inb_S128x768_S128x768_0_0]
  rw [iblk2_0_eq]
  funext y
  obtain ⟨b, q, rfl⟩ : ∃ (b : Fin 8) (q : Fin 128), y = ix2 b q := ⟨y 0, y 1, eq_ix2 y⟩
  have hv : 128 * t.val + q.val < 30080 := by have := t.isLt; have := q.isLt; omega
  refine (pay2k_apply _ _ b q).trans ?_
  rw [View.read_apply]
  refine Eq.trans ?_ (G2_at _ _ _ b ⟨128 * t.val + q.val, hv⟩ ?_ ?_).symm
  · exact congrArg (fun f => scoreOf (V c main_v28) f b) (funext fun d => iblk2_1_apply V c t q d hv)
  · show win2_2.index t 0 * 8 + 1 * b.val = b.val
    rw [e20]; omega
  · show win2_2.index t 1 * 128 + 1 * q.val = 128 * t.val + q.val
    rw [e21]; omega

theorem mem_blk2 (t : Fin cfg2.N) (i : S8x30080.Idx) :
    i ∈ ((cfg2.win 2).blk t).view.set ↔ ∀ a : Fin 2, win2_2.index t a * S8x128.size a ≤ (i a).val ∧ (i a).val < win2_2.index t a * S8x128.size a + S8x128.size a := by
  show i ∈ ((View.whole main_v29).slice (win2_2.rect t)).set ↔ _
  rw [View.set_slice_whole, Rect.mem_set_unit]
  exact Iff.rfl

/-- The score array after the region. -/
theorem final2 (c : Dev nD) : (dat2 V c).arrAt 2 cfg2.N = G2 (V c main_v28) (V c main_v21) :=
  (dat2 V c).arrAt_eq_of_cover 2 _ (flushed2_eq V c) fun (i : S8x30080.Idx) => by
    have hN : cfg2.N = 235 := N_2
    have hi0 : (i 0).val < 8 := idx2_lt0 i
    have hi1 : (i 1).val < 30080 := idx2_lt1 i
    have hq : (i 1).val / 128 < cfg2.N := by rw [hN]; omega
    obtain ⟨-, -, -, -, e20, e21⟩ := idx2_facts ⟨(i 1).val / 128, hq⟩
    have e21' : win2_2.index ⟨(i 1).val / 128, hq⟩ (1 : Fin 2) = (i 1).val / 128 := e21
    refine ⟨⟨(i 1).val / 128, hq⟩, flush2_2 _, ?_⟩
    rw [mem_blk2]
    intro a
    match a with
    | ⟨0, _⟩ =>
      show win2_2.index ⟨(i 1).val / 128, hq⟩ 0 * 8 ≤ (i 0).val ∧ (i 0).val < win2_2.index ⟨(i 1).val / 128, hq⟩ 0 * 8 + 8
      rw [e20]; omega
    | ⟨1, _⟩ =>
      show win2_2.index ⟨(i 1).val / 128, hq⟩ 1 * 128 ≤ (i 1).val ∧ (i 1).val < win2_2.index ⟨(i 1).val / 128, hq⟩ 1 * 128 + 128
      rw [e21']; omega

end Cert.KernelIdeal.Fr

end
-- ==== Proof.LibRowCast.lean ====
/-
  A vector of shape [b] cast to the one-row shape [1, b] keeps the row-major order, so the row's entry at (0, q) is the
  vector's entry at q. Independent of any program.
-/
import Idealize.ShloMosaic.Lib.ValueIdx
import Idealize.ShloMosaic.Lib.Pipeline.Value

noncomputable section

namespace Cert.Lib

open Idealize.ShloMosaic Idealize.ShloMosaic.ValueIdx

/-- A vector [b] cast to the row shape [1, b] reads, at (u, q), the vector's entry at q. -/
theorem shapeCast_b_1b_apply {α : Type} {b : ℕ} (x : (⟨1, ![b]⟩ : Shape).Idx → α)
    (h : (⟨1, ![b]⟩ : Shape).ShapeCasts ⟨2, ![1, b]⟩) (u : Fin 1) (q : Fin b) :
    shapeCast ⟨2, ![1, b]⟩ x h (ix2 u q) = x (ix1 q) :=
  shapeCast_apply x h _ _ (by
    have hu : u.val = 0 := by omega
    rw [Shape.rowMajor_val_two, Shape.rowMajor_val_one]
    show q.val = u.val * b + q.val
    rw [hu, Nat.zero_mul, Nat.zero_add])

end Cert.Lib

end
-- ==== Proof.LibScore.lean ====
/-
  Scores of a stack of rows against the rows of a matrix, read at an index. Independent of any program.

  The product of a stack [a, b, k] with a matrix [n, k], both contracted on their last axis, has at (r, i, v) the inner
  product of the stack's row (r, i, ·) with the matrix's row (v, ·). A reduction of a stack [a, b, c] over its middle
  axis by a commutative, associative operation is, at (r, j), the fold of the operation over the b entries (r, i, j),
  from the initial value. A matrix [a·b, c] regrouped as a stack [a, b, c] has at (r, i, j) the matrix's entry in row
  r·b + i, and a stack flattened to such a matrix the other way round.
-/
import Idealize.ShloMosaic.Lib.ValueIdx
import Idealize.ShloMosaic.Lib.Pipeline.Value
import Idealize.ShloMosaic.PureOps.Ideal
import Idealize.ShloMosaic.PureOps.Ideal.Laws
import Idealize.ShloMosaic.PureOps.Reduce

noncomputable section

namespace Cert.Lib

open Idealize.ShloMosaic Idealize.ShloMosaic.ValueIdx

/-- The host's product of a stack's rows with a matrix's rows, at (r, i, v). -/
theorem dotGeneral_stackRows_apply {a b n k : ℕ} {φ₁ φ₂ : FTy}
    (w : DotDims.WF ⟨3, ![a, b, k]⟩ ⟨2, ![n, k]⟩ ⟨3, ![a, b, n]⟩ [2] [1] [0, 1] [0] [] [])
    (prec : Option ContractPrecision) (A : FVec Ideal ⟨3, ![a, b, k]⟩ φ₁) (B : FVec Ideal ⟨2, ![n, k]⟩ φ₂)
    (r : Fin a) (i : Fin b) (v : Fin n) :
    Host.dotGeneral (⟨[2], [1], [0, 1], [0], [], [], w⟩ : DotDims _ _ _) prec A B (ix3 r i v)
      = ∑ c : Fin k, A (ix3 r i c) * B (ix2 v c) := by
  show FloatOps.dotGeneral _ prec _ A B (ix3 r i v) = _
  rw [Ideal.dotGeneral_apply,
    ← Equiv.sum_comp (contrEquiv1 (⟨[2], [1], [0, 1], [0], [], [], w⟩ : DotDims _ _ _) k rfl rfl).symm]
  refine Finset.sum_congr rfl fun c _ => ?_
  have c3 := contrEquiv1_symm_val
    (⟨[2], [1], [0, 1], [0], [], [], w⟩ : DotDims ⟨3, ![a, b, k]⟩ ⟨2, ![n, k]⟩ ⟨3, ![a, b, n]⟩) k rfl rfl c
  have l3 : (⟨[2], [1], [0, 1], [0], [], [], w⟩ : DotDims ⟨3, ![a, b, k]⟩ ⟨2, ![n, k]⟩ ⟨3, ![a, b, n]⟩).lhsIdx (ix3 r i v)
      ((contrEquiv1 _ k rfl rfl).symm c) = ix3 r i c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [1], [0, 1], [0], [], [], w⟩ : DotDims ⟨3, ![a, b, k]⟩ ⟨2, ![n, k]⟩ ⟨3, ![a, b, n]⟩).rhsIdx (ix3 r i v)
      ((contrEquiv1 _ k rfl rfl).symm c) = ix2 v c := by
    funext ax; apply Fin.ext
    match ax with
    | ⟨0, _⟩ => simp [DotDims.rhsIdx]; rfl
    | ⟨1, _⟩ => simp [DotDims.rhsIdx]; exact c3
  rw [l3, r3]

/-- The host's reduction of a stack over its middle axis, at (r, j): the fold over the entries (r, i, j). -/
theorem reduce_mid_apply {α : Type} {a b c : ℕ} {u : Shape} (f : α → α → α) [Std.Commutative f] [Std.Associative f]
    (x : (⟨3, ![a, b, c]⟩ : Shape).Idx → α) (init : u.Idx → α)
    (h' : (⟨3, ![a, b, c]⟩ : Shape).ReducesTo [(1 : Fin 3)] ⟨2, ![a, c]⟩)
    (h : (⟨3, ![a, b, c]⟩ : Shape).Reduces [(1 : Fin 3)] ⟨2, ![a, c]⟩) (hu : 0 < u.numel) (r : Fin a) (j : Fin c) :
    Host.reduce f x init h' hu (ix2 r j)
      = (Finset.univ : Finset (Fin b)).fold f (init (Shape.Idx.first hu)) (fun i => x (ix3 r i j)) := by
  rw [Host.reduce_eq_fold_single f x init h' h hu (ix2 r j)]
  refine congrArg (fun g => (Finset.univ : Finset (Fin b)).fold f (init (Shape.Idx.first hu)) g) (funext fun k => ?_)
  refine congrArg x (funext fun ax => Fin.ext ?_)
  rw [Shape.Reduces.lift_val]
  match ax with
  | ⟨0, _⟩ => rfl
  | ⟨1, _⟩ => rfl
  | ⟨2, _⟩ => rfl

/-- A stack [a, b, c] flattened to a matrix [a·b, c]: row r·b + i, column j is entry (r, i, j). -/
theorem cast_stack_to_rows {α : Type} {a b c n : ℕ} (hn : n = a * b) (x : (⟨3, ![a, b, c]⟩ : Shape).Idx → α)
    (h : (⟨3, ![a, b, c]⟩ : Shape).ShapeCasts ⟨2, ![n, c]⟩) (r : Fin a) (i : Fin b) (j : Fin c) (hl : r.val * b + i.val < n) :
    shapeCast ⟨2, ![n, c]⟩ x h (ix2 ⟨r.val * b + i.val, hl⟩ j) = x (ix3 r i j) :=
  shapeCast_apply x h _ _ (by
    rw [Shape.rowMajor_val_three, Shape.rowMajor_val_two]
    show (r.val * b + i.val) * c + j.val = (r.val * b + i.val) * c + j.val
    rfl)

end Cert.Lib

end
-- ==== Proof.KI.Logits.lean ====
/-
  The kernel program's scores read at an index, over the extended reals. The batch normalisation's rows at column j
  are mean = S₀ (j) / 30000, scale = γ (j) / √(S₁ (j) / 30000 − mean² + ε) and shift = β (j) − mean · scale, with S₀ and
  S₁ the sums over all padded rows of the products h and of their squares. Entry (b, v) of the score array, v below
  the true vocabulary size, is the maximum over the patches n of Σ_d patch (b, n, d) · prototype (v, d), the prototype row
  being the normalised second layer of the padded matrix's row v under those rows.
-/
import proofs.«115421_j19954418057708_1_alg».proof.Proof.KI.Host
import proofs.«115421_j19954418057708_1_alg».proof.Proof.KI.Val1b
import proofs.«115421_j19954418057708_1_alg».proof.Proof.KI.Val2
import proofs.«115421_j19954418057708_1_alg».proof.Proof.LibRowCast
import proofs.«115421_j19954418057708_1_alg».proof.Proof.LibScore

set_option maxRecDepth 16384

noncomputable section

open Idealize.ShloMosaic Idealize.ShloMosaic.TcCoe Idealize.SL.Sem Idealize.ShloMosaic.Tactic
open Idealize.ShloMosaic.Pipeline (Dat)
open Idealize.ShloMosaic.ValueIdx
namespace Cert.KernelIdeal.Fr

open Cert.KernelIdeal Cert.KernelIdeal.Gen

open Cert.Lib

/-- A one-row matrix [1, b] cast to the vector shape [b] reads, at q, the row's entry (0, q). -/
theorem cast_row_vec {α : Type} {b : ℕ} (x : (⟨2, ![1, b]⟩ : Shape).Idx → α)
    (h : (⟨2, ![1, b]⟩ : Shape).ShapeCasts ⟨1, ![b]⟩) (q : Fin b) :
    shapeCast ⟨1, ![b]⟩ x h (ix1 q) = x (ix2 (0 : Fin 1) q) :=
  shapeCast_apply x h _ _ (by
    rw [Shape.rowMajor_val_two, Shape.rowMajor_val_one]
    show 0 * b + q.val = q.val
    rw [Nat.zero_mul, Nat.zero_add])

theorem kMean_apply (S : FVec Ideal S2x768 .f32) (j : Fin 768) :
    kMean S (ix1 j) = Ideal.div (S (ix2 0 j)) (Ideal.ofBits .f32 0x46EA6000#32) := by
  unfold kMean
  rw [hostDivf_apply, cast_row_vec, Cert.Lib.broadcastInDim_scalar_apply _ bcast_S_S768,
    extractStridedSlice_apply ![0, 0] S slices_S2x768_S1x768_0_0 (ix2 0 j) (ix2 0 j) (fun a => by
      match a with
      | ⟨0, _⟩ => rfl
      | ⟨1, _⟩ => show j.val = 0 + j.val; omega)]
  rfl

theorem kEx2_apply (S : FVec Ideal S2x768 .f32) (j : Fin 768) :
    kEx2 S (ix1 j) = Ideal.div (S (ix2 1 j)) (Ideal.ofBits .f32 0x46EA6000#32) := by
  unfold kEx2
  rw [hostDivf_apply, cast_row_vec, Cert.Lib.broadcastInDim_scalar_apply _ bcast_S_S768,
    extractStridedSlice_apply ![1, 0] S slices_S2x768_S1x768_1_0 (ix2 0 j) (ix2 1 j) (fun a => by
      match a with
      | ⟨0, _⟩ => rfl
      | ⟨1, _⟩ => show j.val = 0 + j.val; omega)]
  rfl

theorem kScale_apply (S : FVec Ideal S2x768 .f32) (g : FVec Ideal S768 .f32) (j : Fin 768) :
    kScale S g (ix1 j) = Ideal.div (g (ix1 j)) (Ideal.sqrt ((kEx2 S (ix1 j) - kMean S (ix1 j) * kMean S (ix1 j))
      + Ideal.ofBits .f32 0x3727C5AC#32)) := by
  unfold kScale
  rw [hostDivf_apply]
  refine congrArg (Ideal.div (g (ix1 j))) (congrArg Ideal.sqrt (congrArg₂ (· + ·) rfl ?_))
  exact Cert.Lib.broadcastInDim_scalar_apply _ bcast_S_S768 _

theorem kShift_apply (S : FVec Ideal S2x768 .f32) (g b : FVec Ideal S768 .f32) (j : Fin 768) :
    kShift S g b (ix1 j) = b (ix1 j) - kMean S (ix1 j) * kScale S g (ix1 j) := rfl

variable (m : (ℓ : Loc nD τ sig) → Buf (Elt Ideal) ℓ) (ρ : Dev nD → PrngReg)

/-- The statistics array's two rows: the sums over all padded rows of the products and of their squares. -/
theorem stats_row0 (c : Dev nD) (j : Fin 768) : W3 m ρ c main_v1 (ix2 (0 : Fin 2) j)
    = ∑ v : Fin 30080, hRows (padX (m ((c : Thread nD τ).loc main_arg1))) (m ((c : Thread nD τ).loc main_arg2)) v j := by
  rw [W3_v1, final0_row0, V2_v0, show V2 m ρ c main_arg2 = m ((c : Thread nD τ).loc main_arg2) from W2_of m ρ c main_arg2 (by decide) (by decide)]

theorem stats_row1 (c : Dev nD) (j : Fin 768) : W3 m ρ c main_v1 (ix2 (1 : Fin 2) j)
    = ∑ v : Fin 30080, hRows (padX (m ((c : Thread nD τ).loc main_arg1))) (m ((c : Thread nD τ).loc main_arg2)) v j
        * hRows (padX (m ((c : Thread nD τ).loc main_arg1))) (m ((c : Thread nD τ).loc main_arg2)) v j := by
  rw [W3_v1, final0_row1, V2_v0, show V2 m ρ c main_arg2 = m ((c : Thread nD τ).loc main_arg2) from W2_of m ρ c main_arg2 (by decide) (by decide)]

/-- The prototype array: row v is the normalised second layer of the padded matrix's row v. -/
theorem proto_eq (c : Dev nD) : V7 m ρ c main_v21
    = G1 (padX (m ((c : Thread nD τ).loc main_arg1))) (m ((c : Thread nD τ).loc main_arg2)) (m ((c : Thread nD τ).loc main_arg5))
        (shapeCast S1x768 (m ((c : Thread nD τ).loc main_arg6)) shapeCasts_S768_S1x768)
        (shapeCast S1x768 (kScale (W3 m ρ c main_v1) (m ((c : Thread nD τ).loc main_arg3))) shapeCasts_S768_S1x768)
        (shapeCast S1x768 (kShift (W3 m ρ c main_v1) (m ((c : Thread nD τ).loc main_arg3)) (m ((c : Thread nD τ).loc main_arg4))) shapeCasts_S768_S1x768) := by
  rw [V7_v21, W5_v21, final1, V4_v18, V4_v19, V4_v20,
    show V4 m ρ c main_v0 = padX (m ((c : Thread nD τ).loc main_arg1)) from (V4_of m ρ c main_v0 (by decide)).trans (W3_v0 m ρ c),
    show V4 m ρ c main_arg2 = m ((c : Thread nD τ).loc main_arg2) from (V4_of m ρ c main_arg2 (by decide)).trans (W3_arg2 m ρ c),
    show V4 m ρ c main_arg5 = m ((c : Thread nD τ).loc main_arg5) from (V4_of m ρ c main_arg5 (by decide)).trans (W3_of m ρ c main_arg5 (by decide) (by decide) (by decide)),
    W3_of m ρ c main_arg3 (by decide) (by decide) (by decide), W3_of m ρ c main_arg4 (by decide) (by decide) (by decide),
    W3_of m ρ c main_arg6 (by decide) (by decide) (by decide)]

/-- The score array at (b, v), v below the true vocabulary size. -/
theorem score_apply (c : Dev nD) (b : Fin 8) (v : Fin 30000) :
    extractStridedSlice S8x30000 ![0, 0] (W8 m ρ c main_v29) slices_S8x30080_S8x30000_0_0 (ix2 b v)
      = scoreOf (ptnK (m ((c : Thread nD τ).loc main_arg0)))
          (fun d => V7 m ρ c main_v21 (ix2 ⟨v.val, by have := v.isLt; omega⟩ d)) b := by
  rw [extractStridedSlice_apply ![0, 0] (W8 m ρ c main_v29) slices_S8x30080_S8x30000_0_0 (ix2 b v)
    (ix2 b ⟨v.val, by have := v.isLt; omega⟩) (fun a => by
      match a with
      | ⟨0, _⟩ => show b.val = 0 + b.val; omega
      | ⟨1, _⟩ => show v.val = 0 + v.val; omega)]
  rw [W8_v29, final2, V7_v28, W5_arg0]
  exact G2_at _ _ _ b ⟨v.val, by have := v.isLt; omega⟩ rfl rfl

end Cert.KernelIdeal.Fr

end
-- ==== Proof.Ref.Ops.lean ====
/- A table, no argument: the reference program's 100 host operations in order, transcribed from the printed program (proof/ReferenceIdeal.lean),
   each outlined function's operations at its call site over the call's buffer record, and that each touches TensorCore references only. -/
import proofs.«115421_j19954418057708_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The program's operations, in order. -/
abbrev ops : List (HloOp τ sig (Elt F)) :=
  [ StableHlo.TRef.binary (.of main_arg1 : StableHlo.TRef sig ⟨S30000x512, .f32⟩) (.of main_arg1 : StableHlo.TRef sig ⟨S30000x512, .f32⟩) main_call0.v0 mulf,
    StableHlo.TRef.nullary main_call0.cst (constant S_ .f32 0x00000000#32),
    StableHlo.TRef.binary main_call0.v0 main_call0.cst main_call0.v1 (fun x v => Host.reduceAdd x v reducesTo_S30000x512_S30000_d1 h_S_),
    StableHlo.TRef.unary main_call0.v1 main_call0.v2 (broadcastInDim S30000x1 ![0] bcast_S30000_S30000x1_0),
    StableHlo.TRef.unary main_call0.v2 main_call0.v3 Host.sqrt,
    StableHlo.nullary main_cst (constant S_ .f32 0x2B8CBCCC#32),
    StableHlo.unary main_cst main_v1 (broadcastInDim S30000x1 ![] bcast_S_S30000x1 : (⟨S_, .f32⟩ : BufTy).Contents (Elt F) → (⟨S30000x1, .f32⟩ : BufTy).Contents (Elt F)),
    StableHlo.binary main_v0 main_v1 main_v2 (maximumf : (⟨S30000x1, .f32⟩ : BufTy).Contents (Elt F) → (⟨S30000x1, .f32⟩ : BufTy).Contents (Elt F) → (⟨S30000x1, .f32⟩ : BufTy).Contents (Elt F)),
    StableHlo.unary main_v2 main_v3 (broadcastInDim S30000x512 ![0, 1] bcast_S30000x1_S30000x512_0_1 : (⟨S30000x1, .f32⟩ : BufTy).Contents (Elt F) → (⟨S30000x512, .f32⟩ : BufTy).Contents (Elt F)),
    StableHlo.binary main_arg1 main_v3 main_v4 (Host.divf : (⟨S30000x512, .f32⟩ : BufTy).Contents (Elt F) → (⟨S30000x512, .f32⟩ : BufTy).Contents (Elt F) → (⟨S30000x512, .f32⟩ : BufTy).Contents (Elt F)),
    StableHlo.binary main_v4 main_arg2 main_v5 ((fun l r => Host.dotGeneral dot_S30000x512_S512x768_S30000x768_1_0_0_1_n_n none l r) : (⟨S30000x512, .f32⟩ : BufTy).Contents (Elt F) → (⟨S512x768, .f32⟩ : BufTy).Contents (Elt F) → (⟨S30000x768, .f32⟩ : BufTy).Contents (Elt F)),
    StableHlo.nullary main_cst_0 (constant S_ .f32 0x00000000#32),
    StableHlo.binary main_v5 main_cst_0 main_v6 ((fun x v => Host.reduceAdd x v reducesTo_S30000x768_S768_d0 h_S_) : (⟨S30000x768, .f32⟩ : BufTy).Contents (Elt F) → (⟨S_, .f32⟩ : BufTy).Contents (Elt F) → (⟨S768, .f32⟩ : BufTy).Contents (Elt F)),
    StableHlo.nullary main_cst_1 (constant S_ .f32 0x46EA6000#32),
    StableHlo.unary main_cst_1 main_v7 (broadcastInDim S768 ![] bcast_S_S768 : (⟨S_, .f32⟩ : BufTy).Contents (Elt F) → (⟨S768, .f32⟩ : BufTy).Contents (Elt F)),
    StableHlo.binary main_v6 main_v7 main_v8 (Host.divf : (⟨S768, .f32⟩ : BufTy).Contents (Elt F) → (⟨S768, .f32⟩ : BufTy).Contents (Elt F) → (⟨S768, .f32⟩ : BufTy).Contents (Elt F)),
    StableHlo.nullary main_c (constantI S_ 32 0#32),
    StableHlo.TRef.nullary main_call1.cst (constant S_ .f32 0x00000000#32),
    StableHlo.TRef.binary (.of main_v5 : StableHlo.TRef sig ⟨S30000x768, .f32⟩) main_call1.cst main_call1.v0 (fun x v => Host.reduceAdd x v reducesTo_S30000x768_S768_d0 h_S_),
    StableHlo.TRef.unary main_call1.v0 main_call1.v1 (broadcastInDim S1x768 ![1] bcast_S768_S1x768_1),
    StableHlo.TRef.nullary main_call1.cst_0 (constant S_ .f32 0x46EA6000#32),
    StableHlo.TRef.unary main_call1.cst_0 main_call1.v2 (broadcastInDim S1x768 ![] bcast_S_S1x768),
    StableHlo.TRef.binary main_call1.v1 main_call1.v2 main_call1.v3 Host.divf,
    StableHlo.TRef.unary main_call1.v3 main_call1.v4 (broadcastInDim S30000x768 ![0, 1] bcast_S1x768_S30000x768_0_1),
    StableHlo.TRef.binary (.of main_v5 : StableHlo.TRef sig ⟨S30000x768, .f32⟩) main_call1.v4 main_call1.v5 subf,
    StableHlo.TRef.binary main_call1.v5 main_call1.v5 main_call1.v6 mulf,
    StableHlo.TRef.unary (.of main_c : StableHlo.TRef sig ⟨S_, .i32⟩) main_call1.v7 (sitofp .f32),
    StableHlo.TRef.nullary main_call1.cst_1 (constant S_ .f32 0x46EA6000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S30000x768_S768_d0 h_S_),
    StableHlo.TRef.unary main_call1.v8 main_call1.v10 (broadcastInDim S768 ![] bcast_S_S768),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S768 ![] bcast_S_S768),
    StableHlo.TRef.ternary main_call1.v12 main_call1.v11 main_call1.call0.v1 main_call1.call0.v2 (fun p a b => select (broadcastInDim S768 ![] bcast_S_S768 p) a b),
    StableHlo.unary main_v8 main_v10 (broadcastInDim S1x768 ![1] bcast_S768_S1x768_1 : (⟨S768, .f32⟩ : BufTy).Contents (Elt F) → (⟨S1x768, .f32⟩ : BufTy).Contents (Elt F)),
    StableHlo.unary main_v10 main_v11 (broadcastInDim S30000x768 ![0, 1] bcast_S1x768_S30000x768_0_1 : (⟨S1x768, .f32⟩ : BufTy).Contents (Elt F) → (⟨S30000x768, .f32⟩ : BufTy).Contents (Elt F)),
    StableHlo.binary main_v5 main_v11 main_v12 (subf : (⟨S30000x768, .f32⟩ : BufTy).Contents (Elt F) → (⟨S30000x768, .f32⟩ : BufTy).Contents (Elt F) → (⟨S30000x768, .f32⟩ : BufTy).Contents (Elt F)),
    StableHlo.nullary main_cst_2 (constant S_ .f32 0x3727C5AC#32),
    StableHlo.unary main_cst_2 main_v13 (broadcastInDim S768 ![] bcast_S_S768 : (⟨S_, .f32⟩ : BufTy).Contents (Elt F) → (⟨S768, .f32⟩ : BufTy).Contents (Elt F)),
    StableHlo.binary main_v9 main_v13 main_v14 (addf : (⟨S768, .f32⟩ : BufTy).Contents (Elt F) → (⟨S768, .f32⟩ : BufTy).Contents (Elt F) → (⟨S768, .f32⟩ : BufTy).Contents (Elt F)),
    StableHlo.unary main_v14 main_v15 (Host.sqrt : (⟨S768, .f32⟩ : BufTy).Contents (Elt F) → (⟨S768, .f32⟩ : BufTy).Contents (Elt F)),
    StableHlo.binary main_arg3 main_v15 main_v16 (Host.divf : (⟨S768, .f32⟩ : BufTy).Contents (Elt F) → (⟨S768, .f32⟩ : BufTy).Contents (Elt F) → (⟨S768, .f32⟩ : BufTy).Contents (Elt F)),
    StableHlo.unary main_v16 main_v17 (broadcastInDim S1x768 ![1] bcast_S768_S1x768_1 : (⟨S768, .f32⟩ : BufTy).Contents (Elt F) → (⟨S1x768, .f32⟩ : BufTy).Contents (Elt F)),
    StableHlo.unary main_v17 main_v18 (broadcastInDim S30000x768 ![0, 1] bcast_S1x768_S30000x768_0_1 : (⟨S1x768, .f32⟩ : BufTy).Contents (Elt F) → (⟨S30000x768, .f32⟩ : BufTy).Contents (Elt F)),
    StableHlo.binary main_v12 main_v18 main_v19 (mulf : (⟨S30000x768, .f32⟩ : BufTy).Contents (Elt F) → (⟨S30000x768, .f32⟩ : BufTy).Contents (Elt F) → (⟨S30000x768, .f32⟩ : BufTy).Contents (Elt F)),
    StableHlo.unary main_arg4 main_v20 (broadcastInDim S1x768 ![1] bcast_S768_S1x768_1 : (⟨S768, .f32⟩ : BufTy).Contents (Elt F) → (⟨S1x768, .f32⟩ : BufTy).Contents (Elt F)),
    StableHlo.unary main_v20 main_v21 (broadcastInDim S30000x768 ![0, 1] bcast_S1x768_S30000x768_0_1 : (⟨S1x768, .f32⟩ : BufTy).Contents (Elt F) → (⟨S30000x768, .f32⟩ : BufTy).Contents (Elt F)),
    StableHlo.binary main_v19 main_v21 main_v22 (addf : (⟨S30000x768, .f32⟩ : BufTy).Contents (Elt F) → (⟨S30000x768, .f32⟩ : BufTy).Contents (Elt F) → (⟨S30000x768, .f32⟩ : BufTy).Contents (Elt F)),
    StableHlo.TRef.nullary main_call2.cst (constant S_ .f32 0x00000000#32),
    StableHlo.TRef.unary main_call2.cst main_call2.v0 (broadcastInDim S30000x768 ![] bcast_S_S30000x768),
    StableHlo.TRef.binary (.of main_v22 : StableHlo.TRef sig ⟨S30000x768, .f32⟩) main_call2.v0 main_call2.v1 maximumf,
    StableHlo.binary main_v23 main_arg5 main_v24 ((fun l r => Host.dotGeneral dot_S30000x768_S768x768_S30000x768_1_0_0_1_n_n none l r) : (⟨S30000x768, .f32⟩ : BufTy).Contents (Elt F) → (⟨S768x768, .f32⟩ : BufTy).Contents (Elt F) → (⟨S30000x768, .f32⟩ : BufTy).Contents (Elt F)),
    StableHlo.unary main_arg6 main_v25 (broadcastInDim S1x768 ![1] bcast_S768_S1x768_1 : (⟨S768, .f32⟩ : BufTy).Contents (Elt F) → (⟨S1x768, .f32⟩ : BufTy).Contents (Elt F)),
    StableHlo.unary main_v25 main_v26 (broadcastInDim S30000x768 ![0, 1] bcast_S1x768_S30000x768_0_1 : (⟨S1x768, .f32⟩ : BufTy).Contents (Elt F) → (⟨S30000x768, .f32⟩ : BufTy).Contents (Elt F)),
    StableHlo.binary main_v24 main_v26 main_v27 (addf : (⟨S30000x768, .f32⟩ : BufTy).Contents (Elt F) → (⟨S30000x768, .f32⟩ : BufTy).Contents (Elt F) → (⟨S30000x768, .f32⟩ : BufTy).Contents (Elt F)),
    StableHlo.TRef.binary (.of main_v27 : StableHlo.TRef sig ⟨S30000x768, .f32⟩) (.of main_v27 : StableHlo.TRef sig ⟨S30000x768, .f32⟩) main_call3.v0 mulf,
    StableHlo.TRef.nullary main_call3.cst (constant S_ .f32 0x00000000#32),
    StableHlo.TRef.binary main_call3.v0 main_call3.cst main_call3.v1 (fun x v => Host.reduceAdd x v reducesTo_S30000x768_S30000_d1 h_S_),
    StableHlo.TRef.unary main_call3.v1 main_call3.v2 (broadcastInDim S30000x1 ![0] bcast_S30000_S30000x1_0),
    StableHlo.TRef.unary main_call3.v2 main_call3.v3 Host.sqrt,
    StableHlo.nullary main_cst_3 (constant S_ .f32 0x2B8CBCCC#32),
    StableHlo.unary main_cst_3 main_v29 (broadcastInDim S30000x1 ![] bcast_S_S30000x1 : (⟨S_, .f32⟩ : BufTy).Contents (Elt F) → (⟨S30000x1, .f32⟩ : BufTy).Contents (Elt F)),
    StableHlo.binary main_v28 main_v29 main_v30 (maximumf : (⟨S30000x1, .f32⟩ : BufTy).Contents (Elt F) → (⟨S30000x1, .f32⟩ : BufTy).Contents (Elt F) → (⟨S30000x1, .f32⟩ : BufTy).Contents (Elt F)),
    StableHlo.unary main_v30 main_v31 (broadcastInDim S30000x768 ![0, 1] bcast_S30000x1_S30000x768_0_1 : (⟨S30000x1, .f32⟩ : BufTy).Contents (Elt F) → (⟨S30000x768, .f32⟩ : BufTy).Contents (Elt F)),
    StableHlo.binary main_v27 main_v31 main_v32 (Host.divf : (⟨S30000x768, .f32⟩ : BufTy).Contents (Elt F) → (⟨S30000x768, .f32⟩ : BufTy).Contents (Elt F) → (⟨S30000x768, .f32⟩ : BufTy).Contents (Elt F)),
    StableHlo.TRef.binary (.of main_arg0 : StableHlo.TRef sig ⟨S8x1024x768, .f32⟩) (.of main_arg0 : StableHlo.TRef sig ⟨S8x1024x768, .f32⟩) main_call4.v0 mulf,
    StableHlo.TRef.nullary main_call4.cst (constant S_ .f32 0x00000000#32),
    StableHlo.TRef.binary main_call4.v0 main_call4.cst main_call4.v1 (fun x v => Host.reduceAdd x v reducesTo_S8x1024x768_S8x1024_d2 h_S_),
    StableHlo.TRef.unary main_call4.v1 main_call4.v2 (broadcastInDim S8x1024x1 ![0, 1] bcast_S8x1024_S8x1024x1_0_1),
    StableHlo.TRef.unary main_call4.v2 main_call4.v3 Host.sqrt,
    StableHlo.nullary main_cst_4 (constant S_ .f32 0x2B8CBCCC#32),
    StableHlo.unary main_cst_4 main_v34 (broadcastInDim S8x1024x1 ![] bcast_S_S8x1024x1 : (⟨S_, .f32⟩ : BufTy).Contents (Elt F) → (⟨S8x1024x1, .f32⟩ : BufTy).Contents (Elt F)),
    StableHlo.binary main_v33 main_v34 main_v35 (maximumf : (⟨S8x1024x1, .f32⟩ : BufTy).Contents (Elt F) → (⟨S8x1024x1, .f32⟩ : BufTy).Contents (Elt F) → (⟨S8x1024x1, .f32⟩ : BufTy).Contents (Elt F)),
    StableHlo.unary main_v35 main_v36 (broadcastInDim S8x1024x768 ![0, 1, 2] bcast_S8x1024x1_S8x1024x768_0_1_2 : (⟨S8x1024x1, .f32⟩ : BufTy).Contents (Elt F) → (⟨S8x1024x768, .f32⟩ : BufTy).Contents (Elt F)),
    StableHlo.binary main_arg0 main_v36 main_v37 (Host.divf : (⟨S8x1024x768, .f32⟩ : BufTy).Contents (Elt F) → (⟨S8x1024x768, .f32⟩ : BufTy).Contents (Elt F) → (⟨S8x1024x768, .f32⟩ : BufTy).Contents (Elt F)),
    StableHlo.binary main_v37 main_v32 main_v38 ((fun l r => Host.dotGeneral dot_S8x1024x768_S30000x768_S8x1024x30000_2_1_01_0_n_n none l r) : (⟨S8x1024x768, .f32⟩ : BufTy).Contents (Elt F) → (⟨S30000x768, .f32⟩ : BufTy).Contents (Elt F) → (⟨S8x1024x30000, .f32⟩ : BufTy).Contents (Elt F)),
    StableHlo.nullary main_cst_5 (constant S_ .f32 0xFF800000#32),
    StableHlo.binary main_v38 main_cst_5 main_v39 ((fun x v => Host.reduce FloatOps.maximumf x v reducesTo_S8x1024x30000_S8x30000_d1 h_S_) : (⟨S8x1024x30000, .f32⟩ : BufTy).Contents (Elt F) → (⟨S_, .f32⟩ : BufTy).Contents (Elt F) → (⟨S8x30000, .f32⟩ : BufTy).Contents (Elt F)),
    StableHlo.nullary main_cst_6 (constant S_ .f32 0x3E4CCCCD#32),
    StableHlo.unary main_cst_6 main_v40 (broadcastInDim S8x30000 ![] bcast_S_S8x30000 : (⟨S_, .f32⟩ : BufTy).Contents (Elt F) → (⟨S8x30000, .f32⟩ : BufTy).Contents (Elt F)),
    StableHlo.binary main_v39 main_v40 main_v41 (Host.divf : (⟨S8x30000, .f32⟩ : BufTy).Contents (Elt F) → (⟨S8x30000, .f32⟩ : BufTy).Contents (Elt F) → (⟨S8x30000, .f32⟩ : BufTy).Contents (Elt F)),
    StableHlo.nullary main_cst_7 (constant S_ .f32 0xFF800000#32),
    StableHlo.binary main_v41 main_cst_7 main_v42 ((fun x v => Host.reduce FloatOps.maximumf x v reducesTo_S8x30000_S8_d1 h_S_) : (⟨S8x30000, .f32⟩ : BufTy).Contents (Elt F) → (⟨S_, .f32⟩ : BufTy).Contents (Elt F) → (⟨S8, .f32⟩ : BufTy).Contents (Elt F)),
    StableHlo.nullary main_cst_8 (constant S_ .f32 0xFF800000#32),
    StableHlo.unary main_cst_8 main_v43 (broadcastInDim S8 ![] bcast_S_S8 : (⟨S_, .f32⟩ : BufTy).Contents (Elt F) → (⟨S8, .f32⟩ : BufTy).Contents (Elt F)),
    StableHlo.binary main_v43 main_v42 main_v44 (maximumf : (⟨S8, .f32⟩ : BufTy).Contents (Elt F) → (⟨S8, .f32⟩ : BufTy).Contents (Elt F) → (⟨S8, .f32⟩ : BufTy).Contents (Elt F)),
    StableHlo.unary main_v44 main_v45 (broadcastInDim S8x1 ![0] bcast_S8_S8x1_0 : (⟨S8, .f32⟩ : BufTy).Contents (Elt F) → (⟨S8x1, .f32⟩ : BufTy).Contents (Elt F)),
    StableHlo.unary main_v45 main_v46 (broadcastInDim S8x30000 ![0, 1] bcast_S8x1_S8x30000_0_1 : (⟨S8x1, .f32⟩ : BufTy).Contents (Elt F) → (⟨S8x30000, .f32⟩ : BufTy).Contents (Elt F)),
    StableHlo.binary main_v41 main_v46 main_v47 (subf : (⟨S8x30000, .f32⟩ : BufTy).Contents (Elt F) → (⟨S8x30000, .f32⟩ : BufTy).Contents (Elt F) → (⟨S8x30000, .f32⟩ : BufTy).Contents (Elt F)),
    StableHlo.unary main_v47 main_v48 (Host.exp : (⟨S8x30000, .f32⟩ : BufTy).Contents (Elt F) → (⟨S8x30000, .f32⟩ : BufTy).Contents (Elt F)),
    StableHlo.nullary main_cst_9 (constant S_ .f32 0x00000000#32),
    StableHlo.binary main_v48 main_cst_9 main_v49 ((fun x v => Host.reduceAdd x v reducesTo_S8x30000_S8_d1 h_S_) : (⟨S8x30000, .f32⟩ : BufTy).Contents (Elt F) → (⟨S_, .f32⟩ : BufTy).Contents (Elt F) → (⟨S8, .f32⟩ : BufTy).Contents (Elt F)),
    StableHlo.unary main_v49 main_v50 (broadcastInDim S8x1 ![0] bcast_S8_S8x1_0 : (⟨S8, .f32⟩ : BufTy).Contents (Elt F) → (⟨S8x1, .f32⟩ : BufTy).Contents (Elt F)),
    StableHlo.unary main_v50 main_v51 (broadcastInDim S8x30000 ![0, 1] bcast_S8x1_S8x30000_0_1 : (⟨S8x1, .f32⟩ : BufTy).Contents (Elt F) → (⟨S8x30000, .f32⟩ : BufTy).Contents (Elt F)),
    StableHlo.binary main_v48 main_v51 main_v52 (Host.divf : (⟨S8x30000, .f32⟩ : BufTy).Contents (Elt F) → (⟨S8x30000, .f32⟩ : BufTy).Contents (Elt F) → (⟨S8x30000, .f32⟩ : BufTy).Contents (Elt F)) ]

theorem ops_sub : (ops : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩

end Cert.ReferenceIdeal.RefRun

end
-- ==== Proof.Ref.Run.lean ====
/-
  The reference program is the straight line of its one hundred host operations (the outlined functions'
  definitions unfolded at their calls, sequencing reassociated), and its run read back: every weakly fair execution
  terminates, and the final memory holds every buffer at the operations' fold over the launch contents.
-/
import proofs.«115421_j19954418057708_1_alg».proof.Proof.Ref.Ops

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem main_eq (c : Dev nD) : main (F := F) c = seq ops := by
  simp only [main, main_part0, main_part1, fn_norm.body, fn_where.body, fn_var.body, fn_relu.body, fn_norm_0.body, fn_norm_1.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- From any memory with zero counters every weakly fair execution terminates, and every final state has each buffer at
    the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.LibTypedRef.lean ====
/-
  A typed reference carries a proof that its buffer's type is the value's type, and moves contents between the two by
  transport along that proof. Moving contents to the buffer and back is the identity, whatever the reference: the two
  transports cancel. (A host program that calls an outlined function reads each of the function's stages through such a
  pair; removing the pairs by this equation, rather than by unfolding, keeps the stages' terms small.)
-/
import Idealize.ShloMosaic.Lib.StableHlo

noncomputable section

namespace Cert.Lib

open Idealize.ShloMosaic

/-- Contents moved to a typed reference's buffer and back are unchanged. -/
theorem ofBuf_toBuf {sig : RefSig} {Val : EltTy → Type} {T : BufTy} (x : StableHlo.TRef sig T) (v : T.Contents Val) :
    x.ofBuf (x.toBuf v) = v := by
  obtain ⟨r, h, h1, h2⟩ := x
  subst h
  rfl

end Cert.Lib

end
-- ==== Proof.Ref.Val.lean ====
/-
  The reference program's result as its operations applied to the argument arrays, stage by stage: the vocabulary rows
  divided by the larger of their norm and the floor; their product h with the first weight matrix; the column mean and
  the column variance of h (the mean of the squared deviations over 30000 − 0, guarded by a comparison that holds); the
  batch normalisation (h − mean) · (γ / √(var + ε)) + β; the clip at zero; the second layer and its normalised rows; the
  normalised patch rows; the products of patch rows with prototype rows and their maximum over the patches; the softmax
  of the scores divided by the temperature.
-/
import proofs.«115421_j19954418057708_1_alg».proof.Proof.Ref.Run
import proofs.«115421_j19954418057708_1_alg».proof.Proof.LibTypedRef
import Idealize.ShloMosaic.PureOps.Ideal

set_option maxRecDepth 16384

noncomputable section

open Idealize.ShloMosaic Idealize.ShloMosaic.TcCoe Idealize.SL.Sem Idealize.ShloMosaic.StableHlo

namespace Cert.ReferenceIdeal.RefVal

open Cert.ReferenceIdeal Cert.ReferenceIdeal.Gen Cert.ReferenceIdeal.RefRun

def rUnitX (a1 : FVec Ideal S30000x512 .f32) : FVec Ideal S30000x512 .f32 :=
  Host.divf a1 (broadcastInDim S30000x512 ![0, 1] bcast_S30000x1_S30000x512_0_1
    (maximumf (Host.sqrt (broadcastInDim S30000x1 ![0] bcast_S30000_S30000x1_0
      (Host.reduceAdd (mulf a1 a1) (constant (F := Ideal) S_ .f32 0x00000000#32) reducesTo_S30000x512_S30000_d1 h_S_)))
      (broadcastInDim S30000x1 ![] bcast_S_S30000x1 (constant (F := Ideal) S_ .f32 0x2B8CBCCC#32))))

def rH (a1 : FVec Ideal S30000x512 .f32) (a2 : FVec Ideal S512x768 .f32) : FVec Ideal S30000x768 .f32 :=
  Host.dotGeneral dot_S30000x512_S512x768_S30000x768_1_0_0_1_n_n none (rUnitX a1) a2

def rMean (h : FVec Ideal S30000x768 .f32) : FVec Ideal S768 .f32 :=
  Host.divf (Host.reduceAdd h (constant (F := Ideal) S_ .f32 0x00000000#32) reducesTo_S30000x768_S768_d0 h_S_) (broadcastInDim S768 ![] bcast_S_S768 (constant (F := Ideal) S_ .f32 0x46EA6000#32))

/-- The count the variance divides by: 30000 minus the zero degrees of freedom removed. -/
def rCnt : FVec Ideal S_ .f32 := subf (constant (F := Ideal) S_ .f32 0x46EA6000#32) (sitofp (F := Ideal) .f32 (constantI S_ 32 0#32))

def rDev (h : FVec Ideal S30000x768 .f32) : FVec Ideal S30000x768 .f32 :=
  subf h (broadcastInDim S30000x768 ![0, 1] bcast_S1x768_S30000x768_0_1
    (Host.divf (broadcastInDim S1x768 ![1] bcast_S768_S1x768_1 (Host.reduceAdd h (constant (F := Ideal) S_ .f32 0x00000000#32) reducesTo_S30000x768_S768_d0 h_S_))
      (broadcastInDim S1x768 ![] bcast_S_S1x768 (constant (F := Ideal) S_ .f32 0x46EA6000#32))))

def rVar (h : FVec Ideal S30000x768 .f32) : FVec Ideal S768 .f32 :=
  select (broadcastInDim S768 ![] bcast_S_S768 (cmpf .ogt rCnt (constant (F := Ideal) S_ .f32 0x00000000#32)))
    (Host.divf (Host.reduceAdd (mulf (rDev h) (rDev h)) (constant (F := Ideal) S_ .f32 0x00000000#32) reducesTo_S30000x768_S768_d0 h_S_) (broadcastInDim S768 ![] bcast_S_S768 rCnt))
    (broadcastInDim S768 ![] bcast_S_S768 (id (constant (F := Ideal) S_ .f32 0x7FC00000#32)))

def rBn (h : FVec Ideal S30000x768 .f32) (g b : FVec Ideal S768 .f32) : FVec Ideal S30000x768 .f32 :=
  addf (mulf (subf h (broadcastInDim S30000x768 ![0, 1] bcast_S1x768_S30000x768_0_1 (broadcastInDim S1x768 ![1] bcast_S768_S1x768_1 (rMean h))))
      (broadcastInDim S30000x768 ![0, 1] bcast_S1x768_S30000x768_0_1 (broadcastInDim S1x768 ![1] bcast_S768_S1x768_1
        (Host.divf g (Host.sqrt (addf (rVar h) (broadcastInDim S768 ![] bcast_S_S768 (constant (F := Ideal) S_ .f32 0x3727C5AC#32))))))))
    (broadcastInDim S30000x768 ![0, 1] bcast_S1x768_S30000x768_0_1 (broadcastInDim S1x768 ![1] bcast_S768_S1x768_1 b))

def rRelu (x : FVec Ideal S30000x768 .f32) : FVec Ideal S30000x768 .f32 :=
  maximumf x (broadcastInDim S30000x768 ![] bcast_S_S30000x768 (constant (F := Ideal) S_ .f32 0x00000000#32))

def rZ (y : FVec Ideal S30000x768 .f32) (a5 : FVec Ideal S768x768 .f32) (a6 : FVec Ideal S768 .f32) : FVec Ideal S30000x768 .f32 :=
  addf (Host.dotGeneral dot_S30000x768_S768x768_S30000x768_1_0_0_1_n_n none y a5)
    (broadcastInDim S30000x768 ![0, 1] bcast_S1x768_S30000x768_0_1 (broadcastInDim S1x768 ![1] bcast_S768_S1x768_1 a6))

def rUnitZ (z : FVec Ideal S30000x768 .f32) : FVec Ideal S30000x768 .f32 :=
  Host.divf z (broadcastInDim S30000x768 ![0, 1] bcast_S30000x1_S30000x768_0_1
    (maximumf (Host.sqrt (broadcastInDim S30000x1 ![0] bcast_S30000_S30000x1_0
      (Host.reduceAdd (mulf z z) (constant (F := Ideal) S_ .f32 0x00000000#32) reducesTo_S30000x768_S30000_d1 h_S_)))
      (broadcastInDim S30000x1 ![] bcast_S_S30000x1 (constant (F := Ideal) S_ .f32 0x2B8CBCCC#32))))

def rProto (a1 : FVec Ideal S30000x512 .f32) (a2 : FVec Ideal S512x768 .f32) (a3 a4 : FVec Ideal S768 .f32) (a5 : FVec Ideal S768x768 .f32)
    (a6 : FVec Ideal S768 .f32) : FVec Ideal S30000x768 .f32 :=
  rUnitZ (rZ (rRelu (rBn (rH a1 a2) a3 a4)) a5 a6)

def rPtn (a : FVec Ideal S8x1024x768 .f32) : FVec Ideal S8x1024x768 .f32 :=
  Host.divf a (broadcastInDim S8x1024x768 ![0, 1, 2] bcast_S8x1024x1_S8x1024x768_0_1_2
    (maximumf (Host.sqrt (broadcastInDim S8x1024x1 ![0, 1] bcast_S8x1024_S8x1024x1_0_1
      (Host.reduceAdd (mulf a a) (constant (F := Ideal) S_ .f32 0x00000000#32) reducesTo_S8x1024x768_S8x1024_d2 h_S_)))
      (broadcastInDim S8x1024x1 ![] bcast_S_S8x1024x1 (constant (F := Ideal) S_ .f32 0x2B8CBCCC#32))))

def rLogits (p : FVec Ideal S8x1024x768 .f32) (q : FVec Ideal S30000x768 .f32) : FVec Ideal S8x30000 .f32 :=
  Host.reduce FloatOps.maximumf (Host.dotGeneral dot_S8x1024x768_S30000x768_S8x1024x30000_2_1_01_0_n_n none p q)
    (constant (F := Ideal) S_ .f32 0xFF800000#32) reducesTo_S8x1024x30000_S8x30000_d1 h_S_

def rTail (L : FVec Ideal S8x30000 .f32) : FVec Ideal S8x30000 .f32 :=
  Host.divf
    (Host.exp (subf (Host.divf L (broadcastInDim S8x30000 ![] bcast_S_S8x30000 (constant (F := Ideal) S_ .f32 0x3E4CCCCD#32)))
      (broadcastInDim S8x30000 ![0, 1] bcast_S8x1_S8x30000_0_1 (broadcastInDim S8x1 ![0] bcast_S8_S8x1_0
        (maximumf (broadcastInDim S8 ![] bcast_S_S8 (constant (F := Ideal) S_ .f32 0xFF800000#32))
          (Host.reduce FloatOps.maximumf (Host.divf L (broadcastInDim S8x30000 ![] bcast_S_S8x30000 (constant (F := Ideal) S_ .f32 0x3E4CCCCD#32)))
            (constant (F := Ideal) S_ .f32 0xFF800000#32) reducesTo_S8x30000_S8_d1 h_S_))))))
    (broadcastInDim S8x30000 ![0, 1] bcast_S8x1_S8x30000_0_1 (broadcastInDim S8x1 ![0] bcast_S8_S8x1_0
      (Host.reduceAdd
        (Host.exp (subf (Host.divf L (broadcastInDim S8x30000 ![] bcast_S_S8x30000 (constant (F := Ideal) S_ .f32 0x3E4CCCCD#32)))
          (broadcastInDim S8x30000 ![0, 1] bcast_S8x1_S8x30000_0_1 (broadcastInDim S8x1 ![0] bcast_S8_S8x1_0
            (maximumf (broadcastInDim S8 ![] bcast_S_S8 (constant (F := Ideal) S_ .f32 0xFF800000#32))
              (Host.reduce FloatOps.maximumf (Host.divf L (broadcastInDim S8x30000 ![] bcast_S_S8x30000 (constant (F := Ideal) S_ .f32 0x3E4CCCCD#32)))
                (constant (F := Ideal) S_ .f32 0xFF800000#32) reducesTo_S8x30000_S8_d1 h_S_))))))
        (constant (F := Ideal) S_ .f32 0x00000000#32) reducesTo_S8x30000_S8_d1 h_S_)))

set_option maxHeartbeats 4000000 in
/-- The result buffer after the run is the stages composed on the argument buffers. -/
theorem result_eq (X : Valuation τ sig (Elt Ideal)) :
    after (ops (F := Ideal)) X (main_v52 : DevRef τ sig)
      = rTail (rLogits (rPtn (X (main_arg0 : DevRef τ sig)))
          (rProto (X (main_arg1 : DevRef τ sig)) (X (main_arg2 : DevRef τ sig)) (X (main_arg3 : DevRef τ sig))
            (X (main_arg4 : DevRef τ sig)) (X (main_arg5 : DevRef τ sig)) (X (main_arg6 : DevRef τ sig)))) := by
  after_results_simp
  simp only [Cert.Lib.ofBuf_toBuf]
  rfl

set_option maxHeartbeats 4000000 in
theorem arg_eq (X : Valuation τ sig (Elt Ideal)) (r : Ref sig .tc) (hr : r ∈ [main_arg0, main_arg1, main_arg2, main_arg3, main_arg4, main_arg5, main_arg6]) :
    after (ops (F := Ideal)) X (r : DevRef τ sig) = X (r : DevRef τ sig) := by
  simp only [List.mem_cons, List.mem_nil_iff, or_false] at hr
  rcases hr with rfl | rfl | rfl | rfl | rfl | rfl | rfl <;> after_results_simp

end Cert.ReferenceIdeal.RefVal

end
-- ==== Proof.LibRealVar.lean ====
/-
  Facts about extended reals that happen to be reals: a finite sum of reals is the real sum; sums, products,
  differences, quotients by a nonzero real, maxima and the reciprocal square root of a positive real stay real;
  and the variance identity: for a real column y_1 … y_n with mean μ = (∑ y) / n,
      (∑ (y_p − μ)²) / n = (∑ y_p²) / n − μ²,
  which is distributivity and therefore needs every y_p to be a real. The deviation form is also nonnegative.
-/
import Idealize.ShloMosaic.PureOps.Ideal

noncomputable section

namespace Cert.RealMath

open Idealize.ShloMosaic

/-- x is (the coercion of) a real number. -/
def IsReal (x : EReal) : Prop := ∃ r : ℝ, x = (r : EReal)

theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem isReal_coe (r : ℝ) : IsReal (r : EReal) := ⟨r, rfl⟩

theorem isReal_zero : IsReal 0 := ⟨0, rfl⟩

theorem isReal_add {x y : EReal} (hx : IsReal x) (hy : IsReal y) : IsReal (x + y) := by
  obtain ⟨a, rfl⟩ := hx; obtain ⟨b, rfl⟩ := hy; exact ⟨a + b, (EReal.coe_add a b).symm⟩

theorem isReal_sub {x y : EReal} (hx : IsReal x) (hy : IsReal y) : IsReal (x - y) := by
  obtain ⟨a, rfl⟩ := hx; obtain ⟨b, rfl⟩ := hy; exact ⟨a - b, (EReal.coe_sub a b).symm⟩

theorem isReal_mul {x y : EReal} (hx : IsReal x) (hy : IsReal y) : IsReal (x * y) := by
  obtain ⟨a, rfl⟩ := hx; obtain ⟨b, rfl⟩ := hy; exact ⟨a * b, (EReal.coe_mul a b).symm⟩

theorem isReal_sum {ι : Type*} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact isReal_add (h a (Finset.mem_insert_self a s)) (ih fun i hi => h i (Finset.mem_insert_of_mem hi))

theorem isReal_div {x : EReal} {c : ℝ} (hx : IsReal x) (hc : c ≠ 0) : IsReal (Ideal.div x (c : EReal)) := by
  obtain ⟨a, rfl⟩ := hx
  exact ⟨a * (1 / c), by rw [Ideal.div_coe hc, ← EReal.coe_mul]⟩

theorem isReal_max {x y : EReal} (hx : IsReal x) (hy : IsReal y) : IsReal (max x y) := by
  rcases le_total x y with h | h
  · rw [max_eq_right h]; exact hy
  · rw [max_eq_left h]; exact hx

theorem isReal_rsqrt {r : ℝ} (h : 0 < r) : IsReal (Ideal.rsqrt (r : EReal)) :=
  ⟨(Real.sqrt r)⁻¹, by rw [Ideal.rsqrt_coe, if_neg (not_lt.mpr h.le), if_neg h.ne']⟩

section Variance

variable {n : ℕ} (y : Fin n → EReal) (c : ℝ)

/-- The variance identity on a real column. -/
theorem var_identity (hy : ∀ p, IsReal (y p)) (hc : c ≠ 0) (hn : (n : ℝ) = c) :
    Ideal.div (∑ p, (y p - Ideal.div (∑ p, y p) (c : EReal)) * (y p - Ideal.div (∑ p, y p) (c : EReal))) (c : EReal)
      = Ideal.div (∑ p, y p * y p) (c : EReal)
        - Ideal.div (∑ p, y p) (c : EReal) * Ideal.div (∑ p, y p) (c : EReal) := by
  choose yr hyr using hy
  simp only [hyr]
  have hS : ∑ p, ((yr p : ℝ) : EReal) = ((∑ p, yr p : ℝ) : EReal) := coe_sum _ _
  have hSS : ∑ p, ((yr p : ℝ) : EReal) * ((yr p : ℝ) : EReal) = ((∑ p, yr p * yr p : ℝ) : EReal) := by
    rw [← coe_sum]; exact Finset.sum_congr rfl fun p _ => (EReal.coe_mul _ _).symm
  obtain ⟨μ, hμ⟩ : ∃ μ : ℝ, μ = (∑ p, yr p) * (1 / c) := ⟨_, rfl⟩
  have hM : Ideal.div (∑ p, ((yr p : ℝ) : EReal)) (c : EReal) = ((μ : ℝ) : EReal) := by
    rw [hS, Ideal.div_coe hc, ← EReal.coe_mul, hμ]
  rw [hM, hSS]
  have hD : ∑ p, (((yr p : ℝ) : EReal) - (μ : EReal)) * (((yr p : ℝ) : EReal) - (μ : EReal))
      = ((∑ p, (yr p - μ) * (yr p - μ) : ℝ) : EReal) := by
    rw [← coe_sum]; exact Finset.sum_congr rfl fun p _ => by rw [← EReal.coe_sub, ← EReal.coe_mul]
  rw [hD, Ideal.div_coe hc, Ideal.div_coe hc, ← EReal.coe_mul, ← EReal.coe_mul, ← EReal.coe_mul, ← EReal.coe_sub]
  refine congrArg _ ?_
  have h1 : ∀ p, (yr p - μ) * (yr p - μ) = yr p * yr p - 2 * μ * yr p + μ * μ := fun p => by ring
  simp only [h1, Finset.sum_add_distrib, Finset.sum_sub_distrib, ← Finset.mul_sum, Finset.sum_const,
    Finset.card_univ, Fintype.card_fin, nsmul_eq_mul]
  rw [hn, hμ]
  field_simp
  ring

/-- The mean of squared deviations of a real column, over a positive count, is a nonnegative real. -/
theorem var_nonneg (hy : ∀ p, IsReal (y p)) (hc : 0 < c) :
    ∃ v : ℝ, 0 ≤ v ∧ Ideal.div (∑ p, (y p - Ideal.div (∑ p, y p) (c : EReal)) * (y p - Ideal.div (∑ p, y p) (c : EReal)))
      (c : EReal) = (v : EReal) := by
  choose yr hyr using hy
  simp only [hyr]
  have hS : ∑ p, ((yr p : ℝ) : EReal) = ((∑ p, yr p : ℝ) : EReal) := coe_sum _ _
  obtain ⟨μ, hμ⟩ : ∃ μ : ℝ, μ = (∑ p, yr p) * (1 / c) := ⟨_, rfl⟩
  have hM : Ideal.div (∑ p, ((yr p : ℝ) : EReal)) (c : EReal) = ((μ : ℝ) : EReal) := by
    rw [hS, Ideal.div_coe hc.ne', ← EReal.coe_mul, hμ]
  rw [hM]
  have hD : ∑ p, (((yr p : ℝ) : EReal) - (μ : EReal)) * (((yr p : ℝ) : EReal) - (μ : EReal))
      = ((∑ p, (yr p - μ) * (yr p - μ) : ℝ) : EReal) := by
    rw [← coe_sum]; exact Finset.sum_congr rfl fun p _ => by rw [← EReal.coe_sub, ← EReal.coe_mul]
  rw [hD, Ideal.div_coe hc.ne', ← EReal.coe_mul]
  exact ⟨_, mul_nonneg (Finset.sum_nonneg fun p _ => mul_self_nonneg _) (by positivity), rfl⟩

end Variance

end Cert.RealMath

end
-- ==== Proof.Math.lean ====
/-
  The arithmetic behind the batch normalisation, on the extended reals. Independent of any program.

  The float words the programs spell: 30000.0 is the real 30000; the two small constants (the row norm's floor and the
  variance's offset) are positive reals; +0.0 is 0. A row divided by the larger of its Euclidean norm and a positive real
  floor is real when the row is, and a zero row stays zero. For a real column y_1 … y_n with n = c, mean μ = (Σ y) / c
  and scale σ = g / √(var + e), e > 0:
      y_p · σ + (b − μ · σ)  =  (y_p − μ) · σ' + b,
  where σ is taken over var = (Σ y²) / c − μ² and σ' over var' = (Σ (y − μ)²) / c: the two variances agree on a real
  column (distributivity), var' is a nonnegative real, so √(var' + e) is a positive real, σ is real, and the rest is
  algebra in ℝ. A sum over n + k positions whose last k terms vanish is the sum over the first n.
-/
import proofs.«115421_j19954418057708_1_alg».proof.Proof.LibRealVar
import proofs.«115421_j19954418057708_1_alg».proof.Proof.LibUnitRows

noncomputable section

namespace Cert.BNMath

open Idealize.ShloMosaic Cert.RealMath Cert.Lib

theorem w_cnt : Ideal.ofBits .f32 0x46EA6000#32 = ((30000 : ℝ) : EReal) := by
  simp [Ideal.ofBits, Ideal.ieee, -EReal.coe_mul]; norm_num

theorem w_floor : Ideal.ofBits .f32 0x2B8CBCCC#32 = ((2305843 / 2305843009213693952 : ℝ) : EReal) := by
  simp [Ideal.ofBits, Ideal.ieee, -EReal.coe_mul]; norm_num

theorem w_offset : Ideal.ofBits .f32 0x3727C5AC#32 = ((2748779 / 274877906944 : ℝ) : EReal) := by
  simp [Ideal.ofBits, Ideal.ieee, -EReal.coe_mul]; norm_num

theorem floor_pos : (0 : ℝ) < 2305843 / 2305843009213693952 := by norm_num
theorem offset_pos : (0 : ℝ) < 2748779 / 274877906944 := by norm_num

theorem coe_sum_mul_self {K : ℕ} (xr : Fin K → ℝ) :
    ∑ k, ((xr k : ℝ) : EReal) * ((xr k : ℝ) : EReal) = ((∑ k, xr k * xr k : ℝ) : EReal) := by
  rw [← coe_sum]; exact Finset.sum_congr rfl fun k _ => (EReal.coe_mul _ _).symm

/-- The denominator of a normalised real row is a positive real. -/
theorem unit_den {K : ℕ} (w : BitVec 32) (e : ℝ) (he : 0 < e) (hw : Ideal.ofBits .f32 w = (e : EReal)) (xr : Fin K → ℝ) :
    ∃ d : ℝ, 0 < d ∧ max (Ideal.sqrt (∑ k, ((xr k : ℝ) : EReal) * ((xr k : ℝ) : EReal))) (Ideal.ofBits .f32 w) = (d : EReal) := by
  have hS : (0 : ℝ) ≤ ∑ k, xr k * xr k := Finset.sum_nonneg fun k _ => mul_self_nonneg _
  refine ⟨max (Real.sqrt (∑ k, xr k * xr k)) e, lt_max_of_lt_right he, ?_⟩
  rw [coe_sum_mul_self, Ideal.sqrt_coe, if_neg (not_lt.mpr hS), hw]
  exact (EReal.coe_strictMono.monotone.map_max).symm

/-- A real row divided by the larger of its norm and a positive floor is real. -/
theorem unitRow_real {K : ℕ} (w : BitVec 32) (e : ℝ) (he : 0 < e) (hw : Ideal.ofBits .f32 w = (e : EReal))
    (x : Fin K → EReal) (hx : ∀ k, IsReal (x k)) (k : Fin K) : IsReal (unitRow w x k) := by
  choose xr hxr using hx
  obtain ⟨d, hd, hden⟩ := unit_den w e he hw xr
  unfold unitRow
  simp only [hxr]
  rw [hden]
  exact isReal_div (isReal_coe _) hd.ne'

/-- A zero row stays zero. -/
theorem unitRow_zero {K : ℕ} (w : BitVec 32) (e : ℝ) (he : 0 < e) (hw : Ideal.ofBits .f32 w = (e : EReal))
    (x : Fin K → EReal) (hx : ∀ k, x k = 0) (k : Fin K) : unitRow w x k = 0 := by
  obtain ⟨d, hd, hden⟩ := unit_den w e he hw (fun _ => (0 : ℝ))
  unfold unitRow
  simp only [hx]
  rw [show (0 : EReal) = ((0 : ℝ) : EReal) from rfl, hden, Ideal.div_coe hd.ne', ← EReal.coe_mul, zero_mul]

/-- A sum whose last k terms vanish. -/
theorem sum_pad {n k : ℕ} (f : Fin (n + k) → EReal) (g : Fin n → EReal)
    (h1 : ∀ p : Fin n, f (Fin.castAdd k p) = g p) (h2 : ∀ q : Fin k, f (Fin.natAdd n q) = 0) :
    ∑ v, f v = ∑ p, g p := by
  rw [Fin.sum_univ_add]
  simp only [h1, h2, Finset.sum_const_zero, add_zero]

section Affine

variable {n : ℕ} (y : Fin n → EReal) (c e : ℝ) (g b : EReal)

/-- The normalisation's affine map in its two spellings, on a real column. -/
theorem bn_affine (hy : ∀ p, IsReal (y p)) (hc : 0 < c) (hn : (n : ℝ) = c) (he : 0 < e) (hg : IsReal g) (hb : IsReal b) (p : Fin n) :
    y p * Ideal.div g (Ideal.sqrt ((Ideal.div (∑ q, y q * y q) (c : EReal)
          - Ideal.div (∑ q, y q) (c : EReal) * Ideal.div (∑ q, y q) (c : EReal)) + (e : EReal)))
        + (b - Ideal.div (∑ q, y q) (c : EReal) * Ideal.div g (Ideal.sqrt ((Ideal.div (∑ q, y q * y q) (c : EReal)
          - Ideal.div (∑ q, y q) (c : EReal) * Ideal.div (∑ q, y q) (c : EReal)) + (e : EReal))))
      = (y p - Ideal.div (∑ q, y q) (c : EReal))
          * Ideal.div g (Ideal.sqrt (Ideal.div (∑ q, (y q - Ideal.div (∑ q, y q) (c : EReal)) * (y q - Ideal.div (∑ q, y q) (c : EReal))) (c : EReal) + (e : EReal)))
        + b := by
  rw [← var_identity y c hy hc.ne' hn]
  obtain ⟨v, hv0, hv⟩ := var_nonneg y c hy hc
  rw [hv]
  obtain ⟨μ, hμ⟩ : IsReal (Ideal.div (∑ q, y q) (c : EReal)) := isReal_div (isReal_sum _ _ fun q _ => hy q) hc.ne'
  obtain ⟨yp, hyp⟩ := hy p
  obtain ⟨gr, hgr⟩ := hg
  obtain ⟨br, hbr⟩ := hb
  have hpos : 0 < v + e := by linarith
  have hs : Ideal.sqrt ((v : EReal) + (e : EReal)) = ((Real.sqrt (v + e) : ℝ) : EReal) := by
    rw [← EReal.coe_add, Ideal.sqrt_coe, if_neg (not_lt.mpr hpos.le)]
  have hs0 : Real.sqrt (v + e) ≠ 0 := (Real.sqrt_pos.mpr hpos).ne'
  rw [hs, hμ, hyp, hgr, hbr, Ideal.div_coe hs0]
  simp only [← EReal.coe_mul, ← EReal.coe_sub, ← EReal.coe_add]
  refine congrArg _ ?_
  ring

end Affine

section Layer

variable {n p K J : ℕ} (wf : BitVec 32)

/-- The products of a matrix's normalised rows with a weight matrix. -/
def hS (X : Fin n → Fin K → EReal) (W1 : Fin K → Fin J → EReal) (v : Fin n) (j : Fin J) : EReal :=
  ∑ k, unitRow wf (X v) k * W1 k j

theorem hS_real (e : ℝ) (he : 0 < e) (hw : Ideal.ofBits .f32 wf = (e : EReal)) (X : Fin n → Fin K → EReal) (W1 : Fin K → Fin J → EReal)
    (hX : ∀ v k, IsReal (X v k)) (hW : ∀ k j, IsReal (W1 k j)) (v : Fin n) (j : Fin J) : IsReal (hS wf X W1 v j) :=
  isReal_sum _ _ fun k _ => isReal_mul (unitRow_real wf e he hw (X v) (hX v) k) (hW k j)

theorem hS_zero (e : ℝ) (he : 0 < e) (hw : Ideal.ofBits .f32 wf = (e : EReal)) (X : Fin n → Fin K → EReal) (W1 : Fin K → Fin J → EReal)
    (v : Fin n) (hv : ∀ k, X v k = 0) (j : Fin J) : hS wf X W1 v j = 0 := by
  unfold hS
  refine Finset.sum_eq_zero fun k _ => ?_
  rw [unitRow_zero wf e he hw (X v) hv k, zero_mul]

/-- THE BRIDGE. With the rows below the first n all zero, the scale-and-shift spelling over the padded matrix's column
    sums is the centred spelling over the first n rows' column mean and variance, at every one of the first n rows. -/
theorem affine_pad (X : Fin n → Fin K → EReal) (Xp : Fin (n + p) → Fin K → EReal) (W1 : Fin K → Fin J → EReal)
    (h1 : ∀ v k, Xp (Fin.castAdd p v) k = X v k) (h2 : ∀ q k, Xp (Fin.natAdd n q) k = 0)
    (hX : ∀ v k, IsReal (X v k)) (hW : ∀ k j, IsReal (W1 k j))
    (c ef eo : ℝ) (hc : 0 < c) (hn : (n : ℝ) = c) (hef : 0 < ef) (hwf : Ideal.ofBits .f32 wf = (ef : EReal)) (heo : 0 < eo)
    (g b : EReal) (hg : IsReal g) (hb : IsReal b) (v : Fin n) (j : Fin J) :
    hS wf Xp W1 (Fin.castAdd p v) j * Ideal.div g (Ideal.sqrt ((Ideal.div (∑ u, hS wf Xp W1 u j * hS wf Xp W1 u j) (c : EReal)
          - Ideal.div (∑ u, hS wf Xp W1 u j) (c : EReal) * Ideal.div (∑ u, hS wf Xp W1 u j) (c : EReal)) + (eo : EReal)))
        + (b - Ideal.div (∑ u, hS wf Xp W1 u j) (c : EReal) * Ideal.div g (Ideal.sqrt ((Ideal.div (∑ u, hS wf Xp W1 u j * hS wf Xp W1 u j) (c : EReal)
          - Ideal.div (∑ u, hS wf Xp W1 u j) (c : EReal) * Ideal.div (∑ u, hS wf Xp W1 u j) (c : EReal)) + (eo : EReal))))
      = (hS wf X W1 v j - Ideal.div (∑ u, hS wf X W1 u j) (c : EReal))
          * Ideal.div g (Ideal.sqrt (Ideal.div (∑ u, (hS wf X W1 u j - Ideal.div (∑ u, hS wf X W1 u j) (c : EReal))
              * (hS wf X W1 u j - Ideal.div (∑ u, hS wf X W1 u j) (c : EReal))) (c : EReal) + (eo : EReal)))
        + b := by
  have e1 : ∀ u : Fin n, hS wf Xp W1 (Fin.castAdd p u) j = hS wf X W1 u j := fun u => by
    unfold hS
    rw [show Xp (Fin.castAdd p u) = X u from funext fun k => h1 u k]
  have e2 : ∀ q : Fin p, hS wf Xp W1 (Fin.natAdd n q) j = 0 := fun q => hS_zero wf ef hef hwf Xp W1 _ (h2 q) j
  have s1 : ∑ u, hS wf Xp W1 u j = ∑ u, hS wf X W1 u j := sum_pad _ _ e1 e2
  have s2 : ∑ u, hS wf Xp W1 u j * hS wf Xp W1 u j = ∑ u, hS wf X W1 u j * hS wf X W1 u j :=
    sum_pad _ _ (fun u => by rw [e1]) (fun q => by rw [e2, zero_mul])
  rw [s1, s2, e1]
  exact bn_affine (fun u => hS wf X W1 u j) c eo g b (fun u => hS_real wf ef hef hwf X W1 hX hW u j) hc hn heo hg hb v

end Layer

end Cert.BNMath

end
-- ==== Proof.Ref.Read.lean ====
/-
  The reference program's stages read at an index, over the extended reals: the products h (v, j) of the vocabulary's
  normalised rows with the first weight matrix; the column mean Σ_v h (v, j) / 30000; the deviations and the column
  variance Σ_v (h (v, j) − mean (j))² / 30000 (the guard 30000 − 0 > 0 holds, so the guarded value is the quotient); the
  batch normalisation, the clip at zero, the second layer and its normalised rows; and the score at (b, v): the maximum
  over the patches n of Σ_d patch (b, n, d) · prototype (v, d), from minus infinity.
-/
import proofs.«115421_j19954418057708_1_alg».proof.Proof.Ref.Val
import proofs.«115421_j19954418057708_1_alg».proof.Proof.LibUnitRows
import proofs.«115421_j19954418057708_1_alg».proof.Proof.LibPlainDot
import proofs.«115421_j19954418057708_1_alg».proof.Proof.LibScore
import proofs.«115421_j19954418057708_1_alg».proof.Proof.Math
import Idealize.ShloMosaic.Lib.KernelVsHost

set_option maxRecDepth 16384

noncomputable section

open Idealize.ShloMosaic Idealize.ShloMosaic.TcCoe Idealize.ShloMosaic.ValueIdx

namespace Cert.ReferenceIdeal.RefVal

open Cert.ReferenceIdeal Cert.ReferenceIdeal.Gen Cert.Lib

/-- A host reduction's shape fact, with a result of positive rank, is the kernel form's. -/
theorem reduces_of_to {s t : Shape} {axes : List (Fin s.rank)} (h : s.ReducesTo axes t) (hr : 0 < t.rank) : s.Reduces axes t :=
  let ⟨h1, h2⟩ := h; ⟨h1, hr, h2⟩

theorem rUnitX_apply (a1 : FVec Ideal S30000x512 .f32) (v : Fin 30000) (k : Fin 512) :
    rUnitX a1 (ix2 v k) = unitRow 0x2B8CBCCC#32 (fun k => a1 (ix2 v k)) k := by
  unfold rUnitX
  exact unitRows_host_apply (R := 30000) (K := 512) a1 0x2B8CBCCC#32 reducesTo_S30000x512_S30000_d1
    (reduces_of_to reducesTo_S30000x512_S30000_d1 (by decide)) h_S_ bcast_S30000_S30000x1_0 bcast_S_S30000x1 bcast_S30000x1_S30000x512_0_1 v k

theorem rH_apply (a1 : FVec Ideal S30000x512 .f32) (a2 : FVec Ideal S512x768 .f32) (v : Fin 30000) (j : Fin 768) :
    rH a1 a2 (ix2 v j) = ∑ k : Fin 512, unitRow 0x2B8CBCCC#32 (fun k => a1 (ix2 v k)) k * a2 (ix2 k j) := by
  unfold rH
  refine (Cert.Lib.dotGeneral_plain_apply (M := 30000) (K := 512) (N := 768) dot_S30000x512_S512x768_S30000x768_1_0_0_1_n_n.wf none _ (rUnitX a1) a2 v j).trans ?_
  refine Finset.sum_congr rfl fun k _ => ?_
  rw [rUnitX_apply]

theorem rMean_apply (h : FVec Ideal S30000x768 .f32) (j : Fin 768) :
    rMean h (ix1 j) = Ideal.div (∑ v : Fin 30000, h (ix2 v j)) (Ideal.ofBits .f32 0x46EA6000#32) := by
  unfold rMean
  rw [hostDivf_apply, hostColsum_apply (R := 30000) (K := 768) h reducesTo_S30000x768_S768_d0 (reduces_of_to reducesTo_S30000x768_S768_d0 (by decide)) h_S_ j, Cert.Lib.broadcastInDim_scalar_apply _ bcast_S_S768]
  rfl

theorem rCnt_eq : rCnt ix0 = Ideal.ofBits .f32 0x46EA6000#32 := by
  show Ideal.ofBits .f32 0x46EA6000#32 - (Scalar.sitofp .f32 0#32 : Ideal .f32) = _
  rw [sitofp_zero, sub_zero]

theorem rDev_apply (h : FVec Ideal S30000x768 .f32) (v : Fin 30000) (j : Fin 768) :
    rDev h (ix2 v j) = h (ix2 v j) - Ideal.div (∑ u : Fin 30000, h (ix2 u j)) (Ideal.ofBits .f32 0x46EA6000#32) := by
  unfold rDev
  rw [subf_apply, broadcastInDim_1b_ab_apply (a := 30000) (b := 768) _ bcast_S1x768_S30000x768_0_1 v j, hostDivf_apply,
    broadcastInDim_b_1b_apply _ bcast_S768_S1x768_1 0 j, hostColsum_apply (R := 30000) (K := 768) h reducesTo_S30000x768_S768_d0 (reduces_of_to reducesTo_S30000x768_S768_d0 (by decide)) h_S_ j,
    Cert.Lib.broadcastInDim_scalar_apply _ bcast_S_S1x768]
  rfl

theorem rVar_apply (h : FVec Ideal S30000x768 .f32) (j : Fin 768) :
    rVar h (ix1 j) = Ideal.div (∑ v : Fin 30000, rDev h (ix2 v j) * rDev h (ix2 v j)) (Ideal.ofBits .f32 0x46EA6000#32) := by
  unfold rVar
  have hc : (broadcastInDim S768 ![] bcast_S_S768 (cmpf .ogt rCnt (constant (F := Ideal) S_ .f32 0x00000000#32))) (ix1 j) = 1#1 := by
    rw [Cert.Lib.broadcastInDim_scalar_apply _ bcast_S_S768, cmpf_apply, rCnt_eq]
    show Ideal.cmp .ogt (Ideal.ofBits .f32 0x46EA6000#32) (Ideal.ofBits .f32 0x00000000#32) = 1#1
    rw [Ideal.ofBits_zero_f32, Cert.BNMath.w_cnt]
    simp [Ideal.cmp]
  rw [select_apply, hc, select_one, hostDivf_apply,
    hostColsum_apply (R := 30000) (K := 768) (mulf (rDev h) (rDev h)) reducesTo_S30000x768_S768_d0 (reduces_of_to reducesTo_S30000x768_S768_d0 (by decide)) h_S_ j,
    Cert.Lib.broadcastInDim_scalar_apply _ bcast_S_S768, rCnt_eq]
  rfl

theorem rBn_apply (h : FVec Ideal S30000x768 .f32) (g b : FVec Ideal S768 .f32) (v : Fin 30000) (j : Fin 768) :
    rBn h g b (ix2 v j) = (h (ix2 v j) - rMean h (ix1 j))
      * Ideal.div (g (ix1 j)) (Ideal.sqrt (rVar h (ix1 j) + Ideal.ofBits .f32 0x3727C5AC#32)) + b (ix1 j) := by
  unfold rBn
  rw [addf_apply, mulf_apply, subf_apply,
    broadcastInDim_1b_ab_apply (a := 30000) (b := 768) _ bcast_S1x768_S30000x768_0_1 v j, broadcastInDim_1b_ab_apply (a := 30000) (b := 768) _ bcast_S1x768_S30000x768_0_1 v j,
    broadcastInDim_1b_ab_apply (a := 30000) (b := 768) _ bcast_S1x768_S30000x768_0_1 v j,
    broadcastInDim_b_1b_apply _ bcast_S768_S1x768_1 0 j, broadcastInDim_b_1b_apply _ bcast_S768_S1x768_1 0 j,
    broadcastInDim_b_1b_apply _ bcast_S768_S1x768_1 0 j, hostDivf_apply]
  refine congrArg₂ (· + ·) (congrArg₂ (· * ·) rfl (congrArg (Ideal.div (g (ix1 j))) (congrArg Ideal.sqrt (congrArg₂ (· + ·) rfl ?_)))) rfl
  exact Cert.Lib.broadcastInDim_scalar_apply _ bcast_S_S768 _

theorem rRelu_apply (x : FVec Ideal S30000x768 .f32) (v : Fin 30000) (j : Fin 768) :
    rRelu x (ix2 v j) = max (x (ix2 v j)) (Ideal.ofBits .f32 0x00000000#32) := by
  unfold rRelu
  rw [maximumf_apply, Cert.Lib.broadcastInDim_scalar_apply _ bcast_S_S30000x768]
  rfl

theorem rZ_apply (y : FVec Ideal S30000x768 .f32) (a5 : FVec Ideal S768x768 .f32) (a6 : FVec Ideal S768 .f32) (v : Fin 30000) (i : Fin 768) :
    rZ y a5 a6 (ix2 v i) = (∑ j : Fin 768, y (ix2 v j) * a5 (ix2 j i)) + a6 (ix1 i) := by
  unfold rZ
  rw [addf_apply, broadcastInDim_1b_ab_apply (a := 30000) (b := 768) _ bcast_S1x768_S30000x768_0_1 v i, broadcastInDim_b_1b_apply _ bcast_S768_S1x768_1 0 i]
  exact congrArg (· + _) (Cert.Lib.dotGeneral_plain_apply (M := 30000) (K := 768) (N := 768) dot_S30000x768_S768x768_S30000x768_1_0_0_1_n_n.wf none _ y a5 v i)

theorem rUnitZ_apply (z : FVec Ideal S30000x768 .f32) (v : Fin 30000) (i : Fin 768) :
    rUnitZ z (ix2 v i) = unitRow 0x2B8CBCCC#32 (fun i => z (ix2 v i)) i := by
  unfold rUnitZ
  exact unitRows_host_apply (R := 30000) (K := 768) z 0x2B8CBCCC#32 reducesTo_S30000x768_S30000_d1
    (reduces_of_to reducesTo_S30000x768_S30000_d1 (by decide)) h_S_ bcast_S30000_S30000x1_0 bcast_S_S30000x1 bcast_S30000x1_S30000x768_0_1 v i

theorem rLogits_apply (p : FVec Ideal S8x1024x768 .f32) (q : FVec Ideal S30000x768 .f32) (b : Fin 8) (v : Fin 30000) :
    rLogits p q (ix2 b v) = (Finset.univ : Finset (Fin 1024)).fold max (Ideal.ofBits .f32 0xFF800000#32)
      (fun n => ∑ d : Fin 768, p (ix3 b n d) * q (ix2 v d)) := by
  unfold rLogits
  rw [reduce_mid_apply (a := 8) (b := 1024) (c := 30000) FloatOps.maximumf _ _ reducesTo_S8x1024x30000_S8x30000_d1 (reduces_of_to reducesTo_S8x1024x30000_S8x30000_d1 (by decide)) h_S_ b v]
  show (Finset.univ : Finset (Fin 1024)).fold max (Ideal.ofBits .f32 0xFF800000#32) _ = _
  refine congrArg (fun g => (Finset.univ : Finset (Fin 1024)).fold max (Ideal.ofBits .f32 0xFF800000#32) g) (funext fun n => ?_)
  exact dotGeneral_stackRows_apply (a := 8) (b := 1024) (n := 30000) (k := 768) dot_S8x1024x768_S30000x768_S8x1024x30000_2_1_01_0_n_n.wf none p q b n v

end Cert.ReferenceIdeal.RefVal

end
-- ==== Proof.LibAllFinite.lean ====
/-
  From a "finite inputs" precondition to real numbers, for an array of any shape over the extended reals.
  Such a precondition is, per float argument, an all-reduction (a reduce by `and` of a one-bit array into a
  result of one index) of the comparison |x| < +∞, entry by entry. An extended real whose absolute value
  max x (−x) is below the word of +∞ is neither −∞ nor +∞ (|−∞| = |+∞| = +∞), hence a real number; so when the
  all-reduction is one, every entry of the argument is a real number.
-/
import Idealize.ShloMosaic.PureOps.Ideal
import Idealize.ShloMosaic.Lib.ReduceAll
import Idealize.ShloMosaic.Lib.ValueIdx
import Idealize.ShloMosaic.Lib.IdealHost

noncomputable section

namespace Cert.Lib.AllFinite

open Idealize.ShloMosaic Idealize.ShloMosaic.ValueIdx

/-- A rank-0 array has one index. -/
instance scalarIdxSubsingleton : Subsingleton (⟨0, ![]⟩ : Shape).Idx := ⟨fun a b => funext fun d => d.elim0⟩

/-- An extended real whose absolute value is below the word of +∞ is a real number. -/
theorem real_of_abs_lt_top (x : EReal)
    (h : Ideal.cmp .olt (max x (-x)) (Ideal.ofBits .f32 0x7F800000#32) = 1#1) : ∃ r : ℝ, x = (r : EReal) := by
  have hT : Ideal.ofBits .f32 0x7F800000#32 = ⊤ := by simp [Ideal.ofBits, Ideal.ieee]
  rw [hT] at h
  induction x using EReal.rec with
  | bot => simp [Ideal.cmp] at h
  | coe r => exact ⟨r, rfl⟩
  | top => simp [Ideal.cmp] at h

/-- `jnp.all(|x| < +∞)` being one — the host's all-reduction, over any axes, into one index, of the comparison of
    the host's absolute value of `x` with the broadcast word of +∞ — makes every entry of `x` a real number. -/
theorem real_of_all {s : Shape} {axes : List (Fin s.rank)} (x : s.Idx → EReal)
    (hb : (⟨0, ![]⟩ : Shape).BroadcastsInDim s ![]) (hr : s.ReducesTo axes ⟨0, ![]⟩)
    (hu : 0 < (⟨0, ![]⟩ : Shape).numel)
    (e : Host.reduce IntOp.andi (cmpf (F := Ideal) (φ := .f32) .olt (Host.absf (F := Ideal) (φ := .f32) x)
        (broadcastInDim s ![] hb (constant (F := Ideal) ⟨0, ![]⟩ .f32 0x7F800000#32)))
        (constantI ⟨0, ![]⟩ 1 1#1) hr hu ix0 = 1#1) (i : s.Idx) : ∃ r : ℝ, x i = (r : EReal) := by
  have hi := Host.reduce_andi_all _ _ hr hu ix0 e i
  have hc : broadcastInDim s ![] hb (constant (F := Ideal) ⟨0, ![]⟩ .f32 0x7F800000#32) i
      = Ideal.ofBits .f32 0x7F800000#32 := broadcastInDim_scalar_apply hb _ i
  refine real_of_abs_lt_top (x i) ?_
  rw [← hc]
  exact hi

end Cert.Lib.AllFinite

end
-- ==== Proof.Bridge.lean ====
/-
  The two idealized programs compute the same scores, under the precondition. From "every float input is finite" the
  vocabulary matrix, the first weight matrix and the batch normalisation's scale and shift vectors hold real numbers.
  The kernel's padded rows below the true vocabulary are zero, so its accumulated sums are the sums over the true rows;
  on real columns the scale-and-shift spelling of the batch normalisation over those sums is the reference's centred
  spelling over the column mean and variance. Hence every prototype row below the true vocabulary size is the reference's,
  and every score — the maximum over the patches of the products of a normalised patch row with a prototype row — agrees.
-/
import proofs.«115421_j19954418057708_1_alg».proof.Proof.KI.Logits
import proofs.«115421_j19954418057708_1_alg».proof.Proof.Ref.Read
import proofs.«115421_j19954418057708_1_alg».proof.Proof.Math
import proofs.«115421_j19954418057708_1_alg».proof.Proof.LibAllFinite
import Idealize.ShloMosaic.Lib.KernelVsHost
import Idealize.ShloMosaic.Lib.Affine

set_option maxRecDepth 16384

noncomputable section

open Idealize.ShloMosaic Idealize.ShloMosaic.TcCoe Idealize.SL.Sem Idealize.ShloMosaic.ValueIdx

namespace Cert.Proof.Bridge

open Cert.Lib Cert.RealMath Cert.BNMath
open Cert.KernelIdeal Cert.KernelIdeal.Gen Cert.KernelIdeal.Fr
open Cert.ReferenceIdeal.RefVal

/-! ## The padded matrix -/

theorem padX_top (a1 : FVec Ideal S30000x512 .f32) (v : Fin 30000) (k : Fin 512) :
    padX a1 (ix2 (Fin.castAdd 80 v) k) = a1 (ix2 v k) := by
  unfold padX
  refine pad_apply_of_inside ![0, 0] ![80, 0] ![0, 0] a1 _ pads_S30000x512_S30080x512_0800_000 h_S_ _ (ix2 v k) fun a => ?_
  match a with
  | ⟨0, _⟩ => show v.val = 0 + v.val * (0 + 1); omega
  | ⟨1, _⟩ => show k.val = 0 + k.val * (0 + 1); omega

theorem padX_bot (a1 : FVec Ideal S30000x512 .f32) (q : Fin 80) (k : Fin 512) :
    padX a1 (ix2 (Fin.natAdd 30000 q) k) = 0 := by
  unfold padX
  rw [pad_apply_of_not_inside ![0, 0] ![80, 0] ![0, 0] a1 _ pads_S30000x512_S30080x512_0800_000 h_S_ (ix2 (Fin.natAdd 30000 q) k) 0 (by
    show ¬(0 ≤ 30000 + q.val ∧ (30000 + q.val - 0) % (0 + 1) = 0 ∧ (30000 + q.val - 0) / (0 + 1) < 30000)
    omega)]
  exact sitofp_zero

/-! ## The batch normalisation in its two spellings -/

theorem affine_eq (a1 : FVec Ideal S30000x512 .f32) (a2 : FVec Ideal S512x768 .f32) (a3 a4 : FVec Ideal S768 .f32) (S : FVec Ideal S2x768 .f32)
    (h1 : ∀ i, IsReal (a1 i)) (h2 : ∀ i, IsReal (a2 i)) (h3 : ∀ i, IsReal (a3 i)) (h4 : ∀ i, IsReal (a4 i))
    (hS0 : ∀ j : Fin 768, S (ix2 0 j) = ∑ u : Fin 30080, hRows (padX a1) a2 u j)
    (hS1 : ∀ j : Fin 768, S (ix2 1 j) = ∑ u : Fin 30080, hRows (padX a1) a2 u j * hRows (padX a1) a2 u j)
    (v : Fin 30000) (j : Fin 768) :
    hRows (padX a1) a2 (Fin.castAdd 80 v) j * kScale S a3 (ix1 j) + kShift S a3 a4 (ix1 j)
      = rBn (rH a1 a2) a3 a4 (ix2 v j) := by
  have key := affine_pad (n := 30000) (p := 80) (K := 512) (J := 768) 0x2B8CBCCC#32
    (fun v k => a1 (ix2 v k)) (fun u k => padX a1 (ix2 u k)) (fun k j => a2 (ix2 k j))
    (fun v k => padX_top a1 v k) (fun q k => padX_bot a1 q k) (fun v k => h1 _) (fun k j => h2 _)
    30000 _ _ (by norm_num) (by norm_num) floor_pos w_floor offset_pos (a3 (ix1 j)) (a4 (ix1 j)) (h3 _) (h4 _) v j
  rw [rBn_apply, rMean_apply, rVar_apply, kShift_apply, kScale_apply, kMean_apply, kEx2_apply, hS0, hS1]
  simp only [rDev_apply, rH_apply]
  rw [w_cnt, w_offset]
  exact key

/-! ## The prototype rows and the scores -/

theorem proto_eq_ref (a1 : FVec Ideal S30000x512 .f32) (a2 : FVec Ideal S512x768 .f32) (a3 a4 : FVec Ideal S768 .f32) (a5 : FVec Ideal S768x768 .f32)
    (a6 : FVec Ideal S768 .f32) (S : FVec Ideal S2x768 .f32)
    (h1 : ∀ i, IsReal (a1 i)) (h2 : ∀ i, IsReal (a2 i)) (h3 : ∀ i, IsReal (a3 i)) (h4 : ∀ i, IsReal (a4 i))
    (hS0 : ∀ j : Fin 768, S (ix2 0 j) = ∑ u : Fin 30080, hRows (padX a1) a2 u j)
    (hS1 : ∀ j : Fin 768, S (ix2 1 j) = ∑ u : Fin 30080, hRows (padX a1) a2 u j * hRows (padX a1) a2 u j)
    (v : Fin 30000) (d : Fin 768) :
    protoRows (padX a1) a2 a5 (shapeCast S1x768 a6 shapeCasts_S768_S1x768) (shapeCast S1x768 (kScale S a3) shapeCasts_S768_S1x768)
        (shapeCast S1x768 (kShift S a3 a4) shapeCasts_S768_S1x768) (Fin.castAdd 80 v) d
      = rProto a1 a2 a3 a4 a5 a6 (ix2 v d) := by
  unfold protoRows rProto
  rw [rUnitZ_apply]
  refine congrArg (fun f => unitRow 0x2B8CBCCC#32 f d) (funext fun i => ?_)
  rw [rZ_apply, shapeCast_b_1b_apply a6 shapeCasts_S768_S1x768 0 i]
  refine congrArg (· + _) (Finset.sum_congr rfl fun j _ => congrArg (· * _) ?_)
  rw [rRelu_apply, shapeCast_b_1b_apply _ shapeCasts_S768_S1x768 0 j, shapeCast_b_1b_apply _ shapeCasts_S768_S1x768 0 j,
    affine_eq a1 a2 a3 a4 S h1 h2 h3 h4 hS0 hS1 v j]

/-- The normalised patch rows as the scoring kernel sees them: row 1024 b + n is the stack's row (b, n). -/
theorem ptnK_apply (a0 : FVec Ideal S8x1024x768 .f32) (b : Fin 8) (n : Fin 1024) (d : Fin 768) :
    ptnK a0 (ix2 ⟨b.val * 1024 + n.val, by have := b.isLt; have := n.isLt; omega⟩ d) = rPtn a0 (ix3 b n d) := by
  unfold ptnK
  rw [truncf_apply]
  exact cast_stack_to_rows (a := 8) (b := 1024) (c := 768) (n := 8192) (by norm_num) _ shapeCasts_S8x1024x768_S8192x768 b n d _

end Cert.Proof.Bridge

end
-- ==== Proof.Fin.lean ====
/-
  From the precondition "every float input is finite" to real numbers. The predicate is the conjunction, argument by
  argument, of an all-reduction of |x| < +∞; where it is one, each conjunct is one, and an argument whose conjunct is one
  holds a real number at every index.
-/
import proofs.«115421_j19954418057708_1_alg».proof.Proof.Gen.Pre_finite_inputs
import proofs.«115421_j19954418057708_1_alg».proof.Proof.LibAllFinite
import proofs.«115421_j19954418057708_1_alg».proof.Proof.LibRealVar
import Idealize.ShloMosaic.Lib.Affine

set_option maxRecDepth 16384

noncomputable section

open Idealize.ShloMosaic Idealize.ShloMosaic.ValueIdx

namespace Cert.Proof.Fin

open Cert.Pre_finite_inputs Cert.Pre_finite_inputs.Facts Cert.Lib.AllFinite Cert.RealMath

variable [Cert.Pre_finite_inputs.Facts]

theorem reals_of_pre (a0 : FVec Ideal S8x1024x768 .f32) (a1 : FVec Ideal S30000x512 .f32) (a2 : FVec Ideal S512x768 .f32)
    (a3 a4 : FVec Ideal S768 .f32) (a5 : FVec Ideal S768x768 .f32) (a6 : FVec Ideal S768 .f32)
    (h : Cert.Pre_finite_inputs.fn (F := Ideal) a0 a1 a2 a3 a4 a5 a6 = fun _ => 1#1) :
    (∀ i, IsReal (a1 i)) ∧ (∀ i, IsReal (a2 i)) ∧ (∀ i, IsReal (a3 i)) ∧ (∀ i, IsReal (a4 i)) := by
  have e := congrFun h ix0
  unfold Cert.Pre_finite_inputs.fn Cert.Pre_finite_inputs.fn_part1 at e
  dsimp only at e
  change IntOp.andi _ _ = 1#1 at e
  rw [IntOp.andi_eq_one] at e
  obtain ⟨e, e6⟩ := e
  change IntOp.andi _ _ = 1#1 at e
  rw [IntOp.andi_eq_one] at e
  obtain ⟨e, e5⟩ := e
  change IntOp.andi _ _ = 1#1 at e
  rw [IntOp.andi_eq_one] at e
  obtain ⟨e, e4⟩ := e
  change IntOp.andi _ _ = 1#1 at e
  rw [IntOp.andi_eq_one] at e
  obtain ⟨e, e3⟩ := e
  change IntOp.andi _ _ = 1#1 at e
  rw [IntOp.andi_eq_one] at e
  obtain ⟨e, e2⟩ := e
  change IntOp.andi _ _ = 1#1 at e
  rw [IntOp.andi_eq_one] at e
  obtain ⟨e0, e1⟩ := e
  exact ⟨fun i => real_of_all a1 bcast_S_S30000x512 reducesTo_S30000x512_S_d0_1 h_S_ e1 i,
    fun i => real_of_all a2 bcast_S_S512x768 reducesTo_S512x768_S_d0_1 h_S_ e2 i,
    fun i => real_of_all a3 bcast_S_S768 reducesTo_S768_S_d0 h_S_ e3 i,
    fun i => real_of_all a4 bcast_S_S768 reducesTo_S768_S_d0 h_S_ e4 i⟩

end Cert.Proof.Fin

end
-- ==== Proof.Value.lean ====
/-
  The kernel program's result and the reference program's result are one array, under the precondition and from
  memories agreeing on the arguments: both are the softmax of the scores divided by the temperature, and the scores
  agree entry by entry.
-/
import proofs.«115421_j19954418057708_1_alg».proof.Proof.Bridge
import proofs.«115421_j19954418057708_1_alg».proof.Proof.Fin

set_option maxRecDepth 16384

noncomputable section

open Idealize.ShloMosaic Idealize.ShloMosaic.TcCoe Idealize.SL.Sem Idealize.ShloMosaic.ValueIdx

namespace Cert.Proof.Bridge

open Cert.Lib Cert.RealMath Cert.BNMath
open Cert.KernelIdeal Cert.KernelIdeal.Gen Cert.KernelIdeal.Fr
open Cert.ReferenceIdeal.RefVal

/-- The two softmax tails are one function. -/
theorem tail_eq (L : FVec Ideal S8x30000 .f32) : rTail L = tailK L := rfl

/-- The two spellings of the normalised patch rows are one function. -/
theorem ptn_eq (a0 : FVec Ideal S8x1024x768 .f32) : rPtn a0 = (Host.divf a0 (broadcastInDim S8x1024x768 ![0, 1, 2] bcast_S8x1024x1_S8x1024x768_0_1_2
    (maximumf (Host.sqrt (broadcastInDim S8x1024x1 ![0, 1] bcast_S8x1024_S8x1024x1_0_1
      (Host.reduceAdd (mulf a0 a0) (constant (F := Ideal) S_ .f32 0x00000000#32) reducesTo_S8x1024x768_S8x1024_d2 h_S_)))
      (broadcastInDim S8x1024x1 ![] bcast_S_S8x1024x1 (constant (F := Ideal) S_ .f32 0x2B8CBCCC#32)))) : FVec Ideal S8x1024x768 .f32) := rfl

variable (m : (ℓ : Loc nD τ sig) → Buf (Elt Ideal) ℓ) (ρ : Dev nD → PrngReg)

/-- The scores agree, entry by entry. -/
theorem scores_eq [Cert.Pre_finite_inputs.Facts] (c : Dev nD)
    (hpre : Cert.Pre_finite_inputs.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) = fun _ => 1#1) :
    extractStridedSlice S8x30000 ![0, 0] (W8 m ρ c main_v29) slices_S8x30080_S8x30000_0_0
      = rLogits (rPtn (m ((c : Thread nD τ).loc main_arg0)))
          (rProto (m ((c : Thread nD τ).loc main_arg1)) (m ((c : Thread nD τ).loc main_arg2)) (m ((c : Thread nD τ).loc main_arg3))
            (m ((c : Thread nD τ).loc main_arg4)) (m ((c : Thread nD τ).loc main_arg5)) (m ((c : Thread nD τ).loc main_arg6))) := by
  obtain ⟨h1, h2, h3, h4⟩ := Cert.Proof.Fin.reals_of_pre _ _ _ _ _ _ _ hpre
  funext i
  obtain ⟨b, v, rfl⟩ : ∃ (b : Fin 8) (v : Fin 30000), i = ix2 b v := ⟨i 0, i 1, eq_ix2 i⟩
  rw [score_apply, rLogits_apply, proto_eq]
  unfold scoreOf
  refine congrArg (fun g => (Finset.univ : Finset (Fin 1024)).fold max (Ideal.ofBits .f32 0xFF800000#32) g) (funext fun n => ?_)
  refine Finset.sum_congr rfl fun d _ => ?_
  rw [ptnK_apply]
  beta_reduce
  rw [G1_at _ _ _ _ _ _ _ (Fin.castAdd 80 v) d rfl rfl,
    proto_eq_ref _ _ _ _ _ _ (W3 m ρ c main_v1) h1 h2 h3 h4 (stats_row0 m ρ c) (stats_row1 m ρ c) v d]

/-- The kernel program's result is the reference's stages composed on the same arguments. -/
theorem value_eq [Cert.Pre_finite_inputs.Facts] (c : Dev nD)
    (hpre : Cert.Pre_finite_inputs.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) = fun _ => 1#1) :
    W9 m ρ c main_v43
      = rTail (rLogits (rPtn (m ((c : Thread nD τ).loc main_arg0)))
          (rProto (m ((c : Thread nD τ).loc main_arg1)) (m ((c : Thread nD τ).loc main_arg2)) (m ((c : Thread nD τ).loc main_arg3))
            (m ((c : Thread nD τ).loc main_arg4)) (m ((c : Thread nD τ).loc main_arg5)) (m ((c : Thread nD τ).loc main_arg6)))) := by
  rw [W9_v43, tail_eq, scores_eq m ρ c hpre]

end Cert.Proof.Bridge

end
-- ==== Proof.lean ====
/- The proof of `Cert.Claim` (proofs.«115421_j19954418057708_1_alg».proof.Defs) — frame_Kernel ∧ frame_KernelIdeal ∧ frame_ReferenceIdeal ∧
   preserves_Kernel_KernelIdeal ∧ algebraic_KernelIdeal_ReferenceIdeal —: hand-written, untrusted.

   The kernel program is nine items in order: two short host stretches, the statistics kernel (a grid of 47 points that
   carries two running rows in a scratch buffer and writes them out at the last point), the host stretch that forms the
   batch normalisation's scale and shift rows, the prototype kernel (47 points), two host stretches that normalise the
   patch rows, the scoring kernel (235 points) and the closing softmax. Its run (Proof/K/Run.lean at the bit-exact
   values, Proof/KI/Run.lean at the extended reals) terminates with every buffer at a fold of the items from the launch
   memory; the arguments come through unchanged (Proof/K/Args.lean, Proof/KI/Args.lean). The reference program is a
   straight line of a hundred host operations (Proof/Ref/Run.lean).

   The algebraic claim. Both results are the same softmax of scores (Proof/Value.lean); the scores agree because the
   prototype rows agree (Proof/Bridge.lean): the kernel accumulates Σ h and Σ h² over the padded vocabulary, whose 80
   extra rows contribute zero, and applies h · scale + shift with scale = γ / √(Σh²/N − (Σh/N)² + ε) and
   shift = β − (Σh/N) · scale; the reference applies (h − mean) · γ / √(var + ε) + β with var the mean of squared deviations.
   On real columns — the precondition makes every input finite (Proof/Fin.lean) — the two variances are one number and
   the two affine maps one map (Proof/Math.lean). The idealization rewrote no operation, so `preserves` is `True`. -/
import proofs.«115421_j19954418057708_1_alg».proof.Defs
import proofs.«115421_j19954418057708_1_alg».proof.Proof.Gen.Kernel
import proofs.«115421_j19954418057708_1_alg».proof.Proof.Gen.Kernel.Skeleton
import proofs.«115421_j19954418057708_1_alg».proof.Proof.Gen.Kernel.Launch
import proofs.«115421_j19954418057708_1_alg».proof.Proof.Gen.Kernel.Regions
import proofs.«115421_j19954418057708_1_alg».proof.Proof.Gen.Kernel.Points
import proofs.«115421_j19954418057708_1_alg».proof.Proof.Gen.KernelIdeal
import proofs.«115421_j19954418057708_1_alg».proof.Proof.Gen.KernelIdeal.Skeleton
import proofs.«115421_j19954418057708_1_alg».proof.Proof.Gen.KernelIdeal.Launch
import proofs.«115421_j19954418057708_1_alg».proof.Proof.Gen.KernelIdeal.Regions
import proofs.«115421_j19954418057708_1_alg».proof.Proof.Gen.KernelIdeal.Points
import proofs.«115421_j19954418057708_1_alg».proof.Proof.Gen.ReferenceIdeal
import proofs.«115421_j19954418057708_1_alg».proof.Proof.Gen.Pre_finite_inputs
import proofs.«115421_j19954418057708_1_alg».proof.Proof.K.Args
import proofs.«115421_j19954418057708_1_alg».proof.Proof.KI.Args
import proofs.«115421_j19954418057708_1_alg».proof.Proof.Value
import Idealize.ShloMosaic.Adequacy
import Idealize.ShloMosaic.Init

set_option maxRecDepth 16384

noncomputable section

namespace Cert.Proof

open Idealize.ShloMosaic Idealize.SL.Sem Idealize.ShloMosaic.TcCoe Idealize.ShloMosaic.StableHlo

attribute [local instance] Cert.Kernel.Gen.facts Cert.KernelIdeal.Gen.facts Cert.ReferenceIdeal.Gen.facts Cert.Pre_finite_inputs.Gen.facts

/-- The kernel program at the bit-exact values runs, and its arguments end as launched. -/
theorem frame_k : Cert.frame_Kernel := fun m ρ _ =>
  (θ_run Cert.Kernel.defs _ _).mono (fun r h c =>
    ⟨(h c _ (Cert.Kernel.Fr.mem_uc Cert.Kernel.main_arg0 (by decide))).trans (Cert.Kernel.Fr.W9_main_arg0 m ρ c),
      (h c _ (Cert.Kernel.Fr.mem_uc Cert.Kernel.main_arg1 (by decide))).trans (Cert.Kernel.Fr.W9_main_arg1 m ρ c),
      (h c _ (Cert.Kernel.Fr.mem_uc Cert.Kernel.main_arg2 (by decide))).trans (Cert.Kernel.Fr.W9_main_arg2 m ρ c),
      (h c _ (Cert.Kernel.Fr.mem_uc Cert.Kernel.main_arg3 (by decide))).trans (Cert.Kernel.Fr.W9_main_arg3 m ρ c),
      (h c _ (Cert.Kernel.Fr.mem_uc Cert.Kernel.main_arg4 (by decide))).trans (Cert.Kernel.Fr.W9_main_arg4 m ρ c),
      (h c _ (Cert.Kernel.Fr.mem_uc Cert.Kernel.main_arg5 (by decide))).trans (Cert.Kernel.Fr.W9_main_arg5 m ρ c),
      (h c _ (Cert.Kernel.Fr.mem_uc Cert.Kernel.main_arg6 (by decide))).trans (Cert.Kernel.Fr.W9_main_arg6 m ρ c)⟩)
    (Cert.Kernel.Fr.run (F := Bits) m ρ)

/-- The same at the extended reals. -/
theorem frame_ki : Cert.frame_KernelIdeal := fun m ρ _ =>
  (θ_run Cert.KernelIdeal.defs _ _).mono (fun r h c =>
    ⟨(h c _ (Cert.KernelIdeal.Fr.mem_uc Cert.KernelIdeal.main_arg0 (by decide))).trans (Cert.KernelIdeal.Fr.W9_main_arg0 m ρ c),
      (h c _ (Cert.KernelIdeal.Fr.mem_uc Cert.KernelIdeal.main_arg1 (by decide))).trans (Cert.KernelIdeal.Fr.W9_main_arg1 m ρ c),
      (h c _ (Cert.KernelIdeal.Fr.mem_uc Cert.KernelIdeal.main_arg2 (by decide))).trans (Cert.KernelIdeal.Fr.W9_main_arg2 m ρ c),
      (h c _ (Cert.KernelIdeal.Fr.mem_uc Cert.KernelIdeal.main_arg3 (by decide))).trans (Cert.KernelIdeal.Fr.W9_main_arg3 m ρ c),
      (h c _ (Cert.KernelIdeal.Fr.mem_uc Cert.KernelIdeal.main_arg4 (by decide))).trans (Cert.KernelIdeal.Fr.W9_main_arg4 m ρ c),
      (h c _ (Cert.KernelIdeal.Fr.mem_uc Cert.KernelIdeal.main_arg5 (by decide))).trans (Cert.KernelIdeal.Fr.W9_main_arg5 m ρ c),
      (h c _ (Cert.KernelIdeal.Fr.mem_uc Cert.KernelIdeal.main_arg6 (by decide))).trans (Cert.KernelIdeal.Fr.W9_main_arg6 m ρ c)⟩)
    (Cert.KernelIdeal.Fr.run (F := Ideal) m ρ)

/-- The reference program runs, and its arguments end as launched. -/
theorem frame_ri : Cert.frame_ReferenceIdeal := fun m ρ _ =>
  (θ_run Cert.ReferenceIdeal.defs _ _).mono (fun r h c =>
    ⟨(h c Cert.ReferenceIdeal.main_arg0).trans (Cert.ReferenceIdeal.RefVal.arg_eq _ Cert.ReferenceIdeal.main_arg0 (by simp)),
      (h c Cert.ReferenceIdeal.main_arg1).trans (Cert.ReferenceIdeal.RefVal.arg_eq _ Cert.ReferenceIdeal.main_arg1 (by simp)),
      (h c Cert.ReferenceIdeal.main_arg2).trans (Cert.ReferenceIdeal.RefVal.arg_eq _ Cert.ReferenceIdeal.main_arg2 (by simp)),
      (h c Cert.ReferenceIdeal.main_arg3).trans (Cert.ReferenceIdeal.RefVal.arg_eq _ Cert.ReferenceIdeal.main_arg3 (by simp)),
      (h c Cert.ReferenceIdeal.main_arg4).trans (Cert.ReferenceIdeal.RefVal.arg_eq _ Cert.ReferenceIdeal.main_arg4 (by simp)),
      (h c Cert.ReferenceIdeal.main_arg5).trans (Cert.ReferenceIdeal.RefVal.arg_eq _ Cert.ReferenceIdeal.main_arg5 (by simp)),
      (h c Cert.ReferenceIdeal.main_arg6).trans (Cert.ReferenceIdeal.RefVal.arg_eq _ Cert.ReferenceIdeal.main_arg6 (by simp))⟩)
    (Cert.ReferenceIdeal.RefRun.run_main (F := Ideal) m ρ)

/-- From memories agreeing on the arguments both idealized programs run to one result, the arguments unchanged. -/
theorem algebraic : Cert.algebraic_KernelIdeal_ReferenceIdeal := by
  intro m ρ m' ρ' hpre hagree
  refine ⟨fun c => Cert.KernelIdeal.Fr.W9 m ρ c Cert.KernelIdeal.main_v43, ?_, ?_⟩
  · exact (θ_run Cert.KernelIdeal.defs _ _).mono (fun r h c =>
      ⟨h c _ (Cert.KernelIdeal.Fr.mem_uc Cert.KernelIdeal.main_v43 (by decide)),
        (h c _ (Cert.KernelIdeal.Fr.mem_uc Cert.KernelIdeal.main_arg0 (by decide))).trans (Cert.KernelIdeal.Fr.W9_main_arg0 m ρ c),
        (h c _ (Cert.KernelIdeal.Fr.mem_uc Cert.KernelIdeal.main_arg1 (by decide))).trans (Cert.KernelIdeal.Fr.W9_main_arg1 m ρ c),
        (h c _ (Cert.KernelIdeal.Fr.mem_uc Cert.KernelIdeal.main_arg2 (by decide))).trans (Cert.KernelIdeal.Fr.W9_main_arg2 m ρ c),
        (h c _ (Cert.KernelIdeal.Fr.mem_uc Cert.KernelIdeal.main_arg3 (by decide))).trans (Cert.KernelIdeal.Fr.W9_main_arg3 m ρ c),
        (h c _ (Cert.KernelIdeal.Fr.mem_uc Cert.KernelIdeal.main_arg4 (by decide))).trans (Cert.KernelIdeal.Fr.W9_main_arg4 m ρ c),
        (h c _ (Cert.KernelIdeal.Fr.mem_uc Cert.KernelIdeal.main_arg5 (by decide))).trans (Cert.KernelIdeal.Fr.W9_main_arg5 m ρ c),
        (h c _ (Cert.KernelIdeal.Fr.mem_uc Cert.KernelIdeal.main_arg6 (by decide))).trans (Cert.KernelIdeal.Fr.W9_main_arg6 m ρ c)⟩)
      (Cert.KernelIdeal.Fr.run (F := Ideal) m ρ)
  · refine (θ_run Cert.ReferenceIdeal.defs _ _).mono (fun r h c => ⟨?_,
        (h c Cert.ReferenceIdeal.main_arg0).trans (Cert.ReferenceIdeal.RefVal.arg_eq _ Cert.ReferenceIdeal.main_arg0 (by simp)),
        (h c Cert.ReferenceIdeal.main_arg1).trans (Cert.ReferenceIdeal.RefVal.arg_eq _ Cert.ReferenceIdeal.main_arg1 (by simp)),
        (h c Cert.ReferenceIdeal.main_arg2).trans (Cert.ReferenceIdeal.RefVal.arg_eq _ Cert.ReferenceIdeal.main_arg2 (by simp)),
        (h c Cert.ReferenceIdeal.main_arg3).trans (Cert.ReferenceIdeal.RefVal.arg_eq _ Cert.ReferenceIdeal.main_arg3 (by simp)),
        (h c Cert.ReferenceIdeal.main_arg4).trans (Cert.ReferenceIdeal.RefVal.arg_eq _ Cert.ReferenceIdeal.main_arg4 (by simp)),
        (h c Cert.ReferenceIdeal.main_arg5).trans (Cert.ReferenceIdeal.RefVal.arg_eq _ Cert.ReferenceIdeal.main_arg5 (by simp)),
        (h c Cert.ReferenceIdeal.main_arg6).trans (Cert.ReferenceIdeal.RefVal.arg_eq _ Cert.ReferenceIdeal.main_arg6 (by simp))⟩)
      (Cert.ReferenceIdeal.RefRun.run_main (F := Ideal) m' ρ')
    refine (h c Cert.ReferenceIdeal.main_v52).trans ?_
    rw [Cert.ReferenceIdeal.RefVal.result_eq]
    obtain ⟨e0, e1, e2, e3, e4, e5, e6⟩ := hagree c
    show Cert.ReferenceIdeal.RefVal.rTail (Cert.ReferenceIdeal.RefVal.rLogits
        (Cert.ReferenceIdeal.RefVal.rPtn (m' ((c.tc : Thread Cert.ReferenceIdeal.nD Cert.ReferenceIdeal.τ).loc Cert.ReferenceIdeal.main_arg0)))
        (Cert.ReferenceIdeal.RefVal.rProto
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6)))) = _
    rw [e0, e1, e2, e3, e4, e5, e6]
    exact (Cert.Proof.Bridge.value_eq m ρ c (hpre c)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
